-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S1024x256 : Shape := ⟨2, ![1024, 256]⟩
abbrev S1024 : Shape := ⟨1, ![1024]⟩
abbrev S1024x1 : Shape := ⟨2, ![1024, 1]⟩
abbrev S8192x1 : Shape := ⟨2, ![8192, 1]⟩
abbrev S256x1024 : Shape := ⟨2, ![256, 1024]⟩
abbrev S1024x1024 : Shape := ⟨2, ![1024, 1024]⟩
abbrev S8192 : Shape := ⟨1, ![8192]⟩
abbrev S_ : Shape := ⟨0, ![]⟩

abbrev nBuf : Space → Nat
  | .hbm => 16
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192x256, .bf16⟩
  | .hbm, ⟨2, _⟩ => ⟨S8192x1, .f32⟩
  | .hbm, ⟨3, _⟩ => ⟨S8192x1, .f32⟩
  | .hbm, ⟨4, _⟩ => ⟨S8192, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S8192x256, .bf16⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc1_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k1_cond5 (i : grid1.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_11 : BitVec 32 := 0#32
  let v37 : BitVec 1 := Scalar.cmpi .ne v36 c0_i32_11
  v37

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x256_S1024x256 : S1024x256.ShapeCasts S1024x256
  transposes_S1024x256_p1_0_S256x1024 : S1024x256.Transposes [1, 0] S256x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S1024x1.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond5 i == 1#1) | 3 => fun i => !(k1_cond5 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S4096 : Shape := ⟨1, ![4096]⟩
abbrev S4096x1 : Shape := ⟨2, ![4096, 1]⟩
abbrev S4096x2 : Shape := ⟨2, ![4096, 2]⟩

abbrev nBuf : Space → Nat
  | .hbm => 88
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x256, .f32⟩
  | .hbm, ⟨10, _⟩ => ⟨S8192x256, .f32⟩
  | .hbm, ⟨11, _⟩ => ⟨S256x8192, .f32⟩
  | .hbm, ⟨12, _⟩ => ⟨S8192x8192, .f32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096x1, .i32⟩
  | .hbm, ⟨34, _⟩ => ⟨S4096x2, .i32⟩
  | .hbm, ⟨35, _⟩ => ⟨S4096, .f32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S4096x1, .i32⟩
  | .hbm, ⟨56, _⟩ => ⟨S4096x1, .i32⟩
  | .hbm, ⟨57, _⟩ => ⟨S4096x2, .i32⟩
  | .hbm, ⟨58, _⟩ => ⟨S4096, .f32⟩
  | .hbm, ⟨59, _⟩ => ⟨S8192, .f32⟩
  | .hbm, ⟨60, _⟩ => ⟨S8192x8192, .i32⟩
  | .hbm, ⟨61, _⟩ => ⟨S8192x8192, .i32⟩
  | .hbm, ⟨62, _⟩ => ⟨S_, .i32⟩
  | .hbm, ⟨63, _⟩ => ⟨S8192x8192, .i32⟩
  | .hbm, ⟨64, _⟩ => ⟨S8192x8192, .i32⟩
  | .hbm, ⟨65, _⟩ => ⟨S8192x8192, .i1⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S_, .f32⟩
  | .hbm, ⟨71, _⟩ => ⟨S8192x8192, .f32⟩
  | .hbm, ⟨72, _⟩ => ⟨S8192x8192, .f32⟩
  | .hbm, ⟨73, _⟩ => ⟨S8192x8192, .f32⟩
  | .hbm, ⟨74, _⟩ => ⟨S8192x8192, .f32⟩
  | .hbm, ⟨75, _⟩ => ⟨S_, .f32⟩
  | .hbm, ⟨76, _⟩ => ⟨S8192, .f32⟩
  | .hbm, ⟨77, _⟩ => ⟨S_, .f32⟩
  | .hbm, ⟨78, _⟩ => ⟨S8192, .f32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S8192, .f32⟩
  | .hbm, ⟨83, _⟩ => ⟨S8192, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call1_v0 : Ref sig .tc := ⟨.hbm, 13, rfl⟩
abbrev main_call1_v1 : Ref sig .tc := ⟨.hbm, 14, rfl⟩
abbrev main_call1_c : Ref sig .tc := ⟨.hbm, 15, rfl⟩
abbrev main_call1_v2 : Ref sig .tc := ⟨.hbm, 16, rfl⟩
abbrev main_call1_v3 : Ref sig .tc := ⟨.hbm, 17, rfl⟩
abbrev main_call1_c_0 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_c_2 : Ref sig .tc := ⟨.hbm, 25, rfl⟩
abbrev main_call1_v9 : Ref sig .tc := ⟨.hbm, 26, rfl⟩
abbrev main_call1_v10 : Ref sig .tc := ⟨.hbm, 27, rfl⟩
abbrev main_call1_c_3 : Ref sig .tc := ⟨.hbm, 28, rfl⟩
abbrev main_call1_v11 : Ref sig .tc := ⟨.hbm, 29, rfl⟩
abbrev main_call1_v12 : Ref sig .tc := ⟨.hbm, 30, rfl⟩
abbrev main_call1_v13 : Ref sig .tc := ⟨.hbm, 31, rfl⟩
abbrev main_call1_v14 : Ref sig .tc := ⟨.hbm, 32, rfl⟩
abbrev main_call1_v15 : Ref sig .tc := ⟨.hbm, 33, rfl⟩
abbrev main_call1_v16 : Ref sig .tc := ⟨.hbm, 34, rfl⟩
abbrev main_v7 : Ref sig .tc := ⟨.hbm, 35, rfl⟩
abbrev main_call2_v0 : Ref sig .tc := ⟨.hbm, 36, rfl⟩
abbrev main_call2_v1 : Ref sig .tc := ⟨.hbm, 37, rfl⟩
abbrev main_call2_c : Ref sig .tc := ⟨.hbm, 38, rfl⟩
abbrev main_call2_v2 : Ref sig .tc := ⟨.hbm, 39, rfl⟩
abbrev main_call2_v3 : Ref sig .tc := ⟨.hbm, 40, rfl⟩
abbrev main_call2_c_0 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_c_2 : Ref sig .tc := ⟨.hbm, 48, rfl⟩
abbrev main_call2_v9 : Ref sig .tc := ⟨.hbm, 49, rfl⟩
abbrev main_call2_v10 : Ref sig .tc := ⟨.hbm, 50, rfl⟩
abbrev main_call2_c_3 : Ref sig .tc := ⟨.hbm, 51, rfl⟩
abbrev main_call2_v11 : Ref sig .tc := ⟨.hbm, 52, rfl⟩
abbrev main_call2_v12 : Ref sig .tc := ⟨.hbm, 53, rfl⟩
abbrev main_call2_v13 : Ref sig .tc := ⟨.hbm, 54, rfl⟩
abbrev main_call2_v14 : Ref sig .tc := ⟨.hbm, 55, rfl⟩
abbrev main_call2_v15 : Ref sig .tc := ⟨.hbm, 56, rfl⟩
abbrev main_call2_v16 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_c : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_cst_0 : Ref sig .tc := ⟨.hbm, 67, rfl⟩
abbrev main_v16 : Ref sig .tc := ⟨.hbm, 68, rfl⟩
abbrev main_v17 : Ref sig .tc := ⟨.hbm, 69, rfl⟩
abbrev main_cst_1 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_cst_2 : Ref sig .tc := ⟨.hbm, 75, rfl⟩
abbrev main_v22 : Ref sig .tc := ⟨.hbm, 76, rfl⟩
abbrev main_cst_3 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_4 : Ref sig .tc := ⟨.hbm, 84, rfl⟩
abbrev main_v29 : Ref sig .tc := ⟨.hbm, 85, rfl⟩
abbrev main_cst_5 : Ref sig .tc := ⟨.hbm, 86, rfl⟩
abbrev main_v30 : Ref sig .tc := ⟨.hbm, 87, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.KNormRegion.lean ====
/-
  The row-normalising kernel (the first of the program's two kernels) at every grid point: one block of 1024 rows
  of the input is loaded, every row divided by its length (bounded below), and the block stored, rounded to
  half-width words, into the output window's buffer. Stated at any float instance and at ANY contents V of the
  core's buffers when the kernel is entered: what the output window's buffer holds after the body (normOut), the
  body's run, the per-point proof data and the obligation the pipeline asks at each of the eight grid points.
-/
import proofs.«102017_j44607530336758_2_alg».proof.Proof.Gen.Kernel.Launch
import proofs.«102017_j44607530336758_2_alg».proof.Proof.Gen.Kernel.Skeleton
import proofs.«102017_j44607530336758_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block of 1024 rows at grid point t, read off its array as the kernel finds it. -/
def normBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's buffer holds its block at every point (it is fetched at every point). -/
theorem normBefore_of {c : Dev nD} (dat : Dat τ (Elt F) Unit ℕ (UR sig nD τ) ℕ cfg0 c) (hA : dat.A 0 = V c (Pipeline.arrRef spec0 0))
    (hafter : ∀ t, dat.after 0 t = normBlk V c 0 t) (t : Fin cfg0.N) (d) : dat.before 0 t d = normBlk V c 0 t :=
  (dat.before_in_eq_fetched 0 rfl (fun _ => rfl) (fun _ _ _ => rfl) (fun t => by rw [hafter]; unfold Dat.blockOf normBlk; rw [hA]; try rfl) t d).trans
    (by unfold Dat.fetched Dat.blockOf normBlk; rw [hA]; try rfl)

/-- The whole block: the one rectangle the body loads and stores through. -/
abbrev wholeBlk : Rect S1024x256 := Rect.unit (s := S1024x256) ![0, 0] S1024x256.size inb_S1024x256_S1024x256_0_0

/-- The output window's buffer after the body: its one store, of the normalised rows of the loaded block. -/
def normOut (x0 : Vec F S1024x256 .f32) : Vec F S1024x256 .bf16 :=
  View.canon [⟨wholeBlk, k0_pay1 (View.ld x0 wholeBlk)⟩]

/-- The one store covers the buffer. -/
theorem normCover (p0 : Vec F S1024x256 .bf16) (y : S1024x256.Idx) :
    ∃ pc ∈ ([⟨wholeBlk, p0⟩] : List (View.Piece (Elt F) S1024x256 .bf16)), y ∈ pc.1.set :=
  View.cover_of_tiled [⟨wholeBlk, p0⟩] S1024x256.size (by rfl) y

set_option maxHeartbeats 1000000 in
/-- The body on whole buffers, the input's at x0 and the output's at anything, runs to the input's unchanged and the
    output's at normOut x0. -/
theorem normKernel (c : Dev nD) (E : Set ℕ) (i : grid0.Coords) (arg1 : Memref sig .tc .vmem S1024x256 .f32) (harg1 : arg1.IsWhole)
    (arg2 : Memref sig .tc .vmem S1024x256 .bf16) (harg2 : arg2.IsWhole)
    (x0 : Vec F S1024x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (normOut x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (normCover _)

/-- The proof data of the normalising pipeline on core c: the arrays as the kernel finds them; after the body the
    input's buffer at its block, the output's at the normalised block; nothing else touched, nothing owed. -/
def normDat (c : Dev nD) : Dat τ (Elt F) Unit ℕ (UR sig nD τ) ℕ cfg0 c where
  A w := V c (Pipeline.arrRef spec0 w)
  after w t := match w with
    | ⟨0, _⟩ => normBlk V c 0 t
    | ⟨1, _⟩ => normOut (normBlk V c 0 t)
  Φ _ := Pipeline.ΦA spec0 c
  q _ := fullShare
  owed _ := 0

theorem normDat_A (c : Dev nD) (w : Fin cfg0.W) : (normDat V c).A w = V c (Pipeline.arrRef spec0 w) := by
  dsimp only [normDat]
theorem normDat_after0 (c : Dev nD) (t : Fin cfg0.N) : (normDat V c).after 0 t = normBlk V c 0 t := by dsimp only [normDat]
theorem normDat_after1 (c : Dev nD) (t : Fin cfg0.N) : (normDat V c).after 1 t = normOut (normBlk V c 0 t) := by dsimp only [normDat]

theorem normDat_before0 (c : Dev nD) (t : Fin cfg0.N) (d) : (normDat V c).before 0 t d = normBlk V c 0 t :=
  normBefore_of V (normDat V c) (normDat_A V c 0) (normDat_after0 V c) t d

/-- What the body is called with at point t, -/
def normPre (c : Dev nD) (t : Fin cfg0.N) : sProp 𝕄 :=
  iprop((normDat V c).Φ t.castSucc ∗ (normDat V c).owesAt () t.castSucc
    ∗ (∃ d, owns (c : Thread nD τ) (st0_0 t) fullShare ((normDat V c).before 0 t d))
    ∗ (∃ d, owns (c : Thread nD τ) (st0_1 t) fullShare ((normDat V c).before 1 t d)))

/-- and what it returns. -/
def normPost (c : Dev nD) (t : Fin cfg0.N) : sProp 𝕄 :=
  iprop((normDat V c).Φ t.succ ∗ (normDat V c).owesAt () t.succ
    ∗ owns (c : Thread nD τ) (st0_0 t) fullShare ((normDat V c).after 0 t)
    ∗ owns (c : Thread nD τ) (st0_1 t) fullShare ((normDat V c).after 1 t))

theorem normBody (c : Dev nD) (t : Fin cfg0.N) :
    normPre V c t ⊢ wp frame (wpE (defs₀ (F := F)) Variants.none c none) Set.univ (bodyAt0 t) (fun _ => normPost V c t) := by
  unfold normPre normPost bodyAt0
  simp only [normDat_before0]
  rw [show (normDat V c).Φ t.succ = (normDat V c).Φ t.castSucc from rfl,
    show (normDat V c).owesAt () t.succ = (normDat V c).owesAt () t.castSucc from rfl,
    normDat_after0, normDat_after1]
  iintro ⟨HΦ, Ho, ⟨%d0, H0⟩, ⟨%d1, H1⟩⟩
  iapply (normKernel c Set.univ _ _ _ _ _ (normBlk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's obligation at every point. -/
theorem normObligation (c : Dev nD) : BodyObligation (normDat (F := F) V c) (defs₀ (F := F)) Variants.none () Set.univ := fun t => by
  rw [bigSep_W0, bigSep_W0]
  exact normBody V c t

end Cert.Kernel.Hand

end
-- ==== Proof.KSimRuns.lean ====
/-
  The similarity kernel's body at a grid point, in each of the nine combinations of its five conditions that the
  8 × 8 grid meets (first / middle / last column tile of a row tile; diagonal tile, partner tile, or neither):
  the conditions in closed form over the grid, and per combination the body's run on whole buffers with the pieces
  its stores leave in the two outputs, the running denominator and the positives.
-/
import proofs.«102017_j44607530336758_2_alg».proof.Proof.Gen.Kernel.Launch
import proofs.«102017_j44607530336758_2_alg».proof.Proof.Gen.Kernel.Skeleton
import proofs.«102017_j44607530336758_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's five conditions, from the grid coordinates (row tile i 0, column tile i 1) -/

/-- First column tile: the two running buffers are reset. -/
abbrev cnd1 (i : grid1.Coords) : Prop := (Scalar.cmpi .ne (Scalar.extui (Scalar.cmpi .eq (BitVec.ofNat 32 (i 1).val) 0#32)) 0#32) = 1#1
/-- Diagonal tile: the row's own column is left out of the sum. -/
abbrev cnd2 (i : grid1.Coords) : Prop := (Scalar.cmpi .ne (Scalar.extui (Scalar.cmpi .eq (BitVec.ofNat 32 (i 0).val) (BitVec.ofNat 32 (i 1).val))) 0#32) = 1#1
/-- Off the diagonal: the whole tile is summed. -/
abbrev cnd3 (i : grid1.Coords) : Prop := (Scalar.cmpi .ne (Scalar.extui (Scalar.cmpi .ne (BitVec.ofNat 32 (i 0).val) (BitVec.ofNat 32 (i 1).val))) 0#32) = 1#1
/-- The partner tile, four column tiles further on cyclically: the positives are taken. -/
abbrev cnd4 (i : grid1.Coords) : Prop :=
  let arg0 : BitVec 32 := BitVec.ofNat 32 (i 0).val
  let arg1 : BitVec 32 := BitVec.ofNat 32 (i 1).val
  let v21 : BitVec 32 := Scalar.addi arg0 4#32
  let v22 : BitVec 1 := Scalar.cmpi .eq 8#32 0#32
  let v23 : BitVec 32 := Scalar.select v22 1#32 8#32
  let v24 : BitVec 32 := Scalar.remsi v21 v23
  let v25 : BitVec 1 := Scalar.cmpi .ne v24 0#32
  let v26 : BitVec 1 := Scalar.cmpi .slt v24 0#32
  let v27 : BitVec 1 := Scalar.cmpi .slt v23 0#32
  let v28 : BitVec 1 := Scalar.xori v26 v27
  let v29 : BitVec 1 := Scalar.andi v28 v25
  let v30 : BitVec 32 := Scalar.addi v24 v23
  let v31 : BitVec 32 := Scalar.select v29 v30 v24
  let v32 : BitVec 1 := Scalar.cmpi .eq arg1 v31
  let v33 : BitVec 32 := Scalar.extui v32
  let v34 : BitVec 1 := Scalar.cmpi .ne v33 0#32
  v34 = 1#1
/-- Last column tile: the two running buffers are copied to the outputs. -/
abbrev cnd5 (i : grid1.Coords) : Prop := k1_cond5 i = 1#1

/-- The conditions in closed form over the 64 grid points (point t is row tile t / 8, column tile t % 8). -/
theorem hcnd1 : ∀ t : Fin cfg1.N, cnd1 (grid1.coords t) ↔ t.val % 8 = 0 :=
  (by decide +kernel : ∀ t : Fin grid1.N, cnd1 (grid1.coords t) ↔ t.val % 8 = 0)
theorem hcnd2 : ∀ t : Fin cfg1.N, cnd2 (grid1.coords t) ↔ t.val / 8 = t.val % 8 :=
  (by decide +kernel : ∀ t : Fin grid1.N, cnd2 (grid1.coords t) ↔ t.val / 8 = t.val % 8)
theorem hcnd3 : ∀ t : Fin cfg1.N, cnd3 (grid1.coords t) ↔ ¬ t.val / 8 = t.val % 8 :=
  (by decide +kernel : ∀ t : Fin grid1.N, cnd3 (grid1.coords t) ↔ ¬ t.val / 8 = t.val % 8)
theorem hcnd4 : ∀ t : Fin cfg1.N, cnd4 (grid1.coords t) ↔ t.val % 8 = (t.val / 8 + 4) % 8 :=
  (by decide +kernel : ∀ t : Fin grid1.N, cnd4 (grid1.coords t) ↔ t.val % 8 = (t.val / 8 + 4) % 8)
theorem hcnd5 : ∀ t : Fin cfg1.N, cnd5 (grid1.coords t) ↔ t.val % 8 = 7 :=
  (by decide +kernel : ∀ t : Fin grid1.N, cnd5 (grid1.coords t) ↔ t.val % 8 = 7)

/-! ## The nine runs -/

set_option maxHeartbeats 2000000 in
/-- The body at the first column tile of a row tile, on the diagonal: the pieces it leaves in the two output buffers, the running denominator and the positives
    (found by the run), with the run itself. -/
noncomputable def simRun_FD (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cnd1 i) (hc2 : cnd2 i) (hc3 : ¬cnd3 i) (hc4 : ¬cnd4 i) (hc5 : ¬cnd5 i)
    (x0 : Vec F S1024x256 .bf16) (x1 : Vec F S8192x256 .bf16) :
    Σ' (L2 L3 LS0 : List (View.Piece (Elt F) S1024x1 .f32)), { LS1 : List (View.Piece (Elt F) S1024x1 .f32) //
      ∀ (xi2 xi3 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ (∃ d, owns (c : Thread nD τ) arg6 fullShare d)
            ∗ (∃ d, owns (c : Thread nD τ) arg7 fullShare d)
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__sim_kernel i arg2 harg2 arg3 harg3 arg4 harg4 arg5 harg5 arg6 harg6 arg7 harg7) K } := by
  refine ⟨[], [], ?_, ?_, fun xi2 xi3 E K => ?run⟩
  case run =>
    simp only [cc1__sim_kernel_eq_skeleton, k1_part1_eq_skeleton]; unfold cc1__sim_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

set_option maxHeartbeats 2000000 in
/-- The body at the first column tile of a row tile, the partner tile: the pieces it leaves in the two output buffers, the running denominator and the positives
    (found by the run), with the run itself. -/
noncomputable def simRun_FP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cnd1 i) (hc2 : ¬cnd2 i) (hc3 : cnd3 i) (hc4 : cnd4 i) (hc5 : ¬cnd5 i)
    (x0 : Vec F S1024x256 .bf16) (x1 : Vec F S8192x256 .bf16) :
    Σ' (L2 L3 LS0 : List (View.Piece (Elt F) S1024x1 .f32)), { LS1 : List (View.Piece (Elt F) S1024x1 .f32) //
      ∀ (xi2 xi3 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ (∃ d, owns (c : Thread nD τ) arg6 fullShare d)
            ∗ (∃ d, owns (c : Thread nD τ) arg7 fullShare d)
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__sim_kernel i arg2 harg2 arg3 harg3 arg4 harg4 arg5 harg5 arg6 harg6 arg7 harg7) K } := by
  refine ⟨[], [], ?_, ?_, fun xi2 xi3 E K => ?run⟩
  case run =>
    simp only [cc1__sim_kernel_eq_skeleton, k1_part1_eq_skeleton]; unfold cc1__sim_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

set_option maxHeartbeats 2000000 in
/-- The body at the first column tile of a row tile, neither the diagonal nor the partner: the pieces it leaves in the two output buffers, the running denominator and the positives
    (found by the run), with the run itself. -/
noncomputable def simRun_FO (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cnd1 i) (hc2 : ¬cnd2 i) (hc3 : cnd3 i) (hc4 : ¬cnd4 i) (hc5 : ¬cnd5 i)
    (x0 : Vec F S1024x256 .bf16) (x1 : Vec F S8192x256 .bf16) :
    Σ' (L2 L3 LS0 : List (View.Piece (Elt F) S1024x1 .f32)), { LS1 : List (View.Piece (Elt F) S1024x1 .f32) //
      ∀ (xi2 xi3 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ (∃ d, owns (c : Thread nD τ) arg6 fullShare d)
            ∗ (∃ d, owns (c : Thread nD τ) arg7 fullShare d)
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__sim_kernel i arg2 harg2 arg3 harg3 arg4 harg4 arg5 harg5 arg6 harg6 arg7 harg7) K } := by
  refine ⟨[], [], ?_, ?_, fun xi2 xi3 E K => ?run⟩
  case run =>
    simp only [cc1__sim_kernel_eq_skeleton, k1_part1_eq_skeleton]; unfold cc1__sim_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

set_option maxHeartbeats 2000000 in
/-- The body at a middle column tile of a row tile, on the diagonal: the pieces it leaves in the two output buffers, the running denominator and the positives
    (found by the run), with the run itself. -/
noncomputable def simRun_MD (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : cnd2 i) (hc3 : ¬cnd3 i) (hc4 : ¬cnd4 i) (hc5 : ¬cnd5 i)
    (x0 : Vec F S1024x256 .bf16) (x1 : Vec F S8192x256 .bf16) (xs0 xs1 : Vec F S1024x1 .f32) :
    Σ' (L2 L3 LS0 : List (View.Piece (Elt F) S1024x1 .f32)), { LS1 : List (View.Piece (Elt F) S1024x1 .f32) //
      ∀ (xi2 xi3 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ owns (c : Thread nD τ) arg6 fullShare xs0
            ∗ owns (c : Thread nD τ) arg7 fullShare xs1
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ (∃ f, arg6.view.loc (c : Thread nD τ) ↦[arg6.view.set]{fullShare} arg6.view.writes (Elt F) f LS0)
                ∗ owns (c : Thread nD τ) arg7 fullShare xs1) -∗ K ⟨⟩))
          ⊢ wp frame (wpE (defs₀ (F := F)) Variants.none c none) E (cc1__sim_kernel i arg2 harg2 arg3 harg3 arg4 harg4 arg5 harg5 arg6 harg6 arg7 harg7) K } := by
  refine ⟨[], [], ?_, [], fun xi2 xi3 E K => ?run⟩
  case run =>
    simp only [cc1__sim_kernel_eq_skeleton, k1_part1_eq_skeleton]; unfold cc1__sim_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; isplitr; · ipureintro; exact harg7.read_unread _
    iexact HS1

set_option maxHeartbeats 2000000 in
/-- The body at a middle column tile of a row tile, the partner tile: the pieces it leaves in the two output buffers, the running denominator and the positives
    (found by the run), with the run itself. -/
noncomputable def simRun_MP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : cnd4 i) (hc5 : ¬cnd5 i)
    (x0 : Vec F S1024x256 .bf16) (x1 : Vec F S8192x256 .bf16) (xs0 xs1 : Vec F S1024x1 .f32) :
    Σ' (L2 L3 LS0 : List (View.Piece (Elt F) S1024x1 .f32)), { LS1 : List (View.Piece (Elt F) S1024x1 .f32) //
      ∀ (xi2 xi3 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ owns (c : Thread nD τ) arg6 fullShare xs0
            ∗ owns (c : Thread nD τ) arg7 fullShare xs1
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__sim_kernel i arg2 harg2 arg3 harg3 arg4 harg4 arg5 harg5 arg6 harg6 arg7 harg7) K } := by
  refine ⟨[], [], ?_, ?_, fun xi2 xi3 E K => ?run⟩
  case run =>
    simp only [cc1__sim_kernel_eq_skeleton, k1_part1_eq_skeleton]; unfold cc1__sim_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

set_option maxHeartbeats 2000000 in
/-- The body at a middle column tile of a row tile, neither the diagonal nor the partner: the pieces it leaves in the two output buffers, the running denominator and the positives
    (found by the run), with the run itself. -/
noncomputable def simRun_MO (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : ¬cnd4 i) (hc5 : ¬cnd5 i)
    (x0 : Vec F S1024x256 .bf16) (x1 : Vec F S8192x256 .bf16) (xs0 xs1 : Vec F S1024x1 .f32) :
    Σ' (L2 L3 LS0 : List (View.Piece (Elt F) S1024x1 .f32)), { LS1 : List (View.Piece (Elt F) S1024x1 .f32) //
      ∀ (xi2 xi3 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ owns (c : Thread nD τ) arg6 fullShare xs0
            ∗ owns (c : Thread nD τ) arg7 fullShare xs1
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ (∃ f, arg6.view.loc (c : Thread nD τ) ↦[arg6.view.set]{fullShare} arg6.view.writes (Elt F) f LS0)
                ∗ owns (c : Thread nD τ) arg7 fullShare xs1) -∗ K ⟨⟩))
          ⊢ wp frame (wpE (defs₀ (F := F)) Variants.none c none) E (cc1__sim_kernel i arg2 harg2 arg3 harg3 arg4 harg4 arg5 harg5 arg6 harg6 arg7 harg7) K } := by
  refine ⟨[], [], ?_, [], fun xi2 xi3 E K => ?run⟩
  case run =>
    simp only [cc1__sim_kernel_eq_skeleton, k1_part1_eq_skeleton]; unfold cc1__sim_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; isplitr; · ipureintro; exact harg7.read_unread _
    iexact HS1

set_option maxHeartbeats 2000000 in
/-- The body at the last column tile of a row tile, on the diagonal: the pieces it leaves in the two output buffers, the running denominator and the positives
    (found by the run), with the run itself. -/
noncomputable def simRun_LD (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : cnd2 i) (hc3 : ¬cnd3 i) (hc4 : ¬cnd4 i) (hc5 : cnd5 i)
    (x0 : Vec F S1024x256 .bf16) (x1 : Vec F S8192x256 .bf16) (xs0 xs1 : Vec F S1024x1 .f32) :
    Σ' (L2 L3 LS0 : List (View.Piece (Elt F) S1024x1 .f32)), { LS1 : List (View.Piece (Elt F) S1024x1 .f32) //
      ∀ (E : Set ℕ) (K : PUnit → sProp 𝕄),
        iprop(owns (c : Thread nD τ) arg2 fullShare x0
            ∗ owns (c : Thread nD τ) arg3 fullShare x1
            ∗ (∃ d, owns (c : Thread nD τ) arg4 fullShare d)
            ∗ (∃ d, owns (c : Thread nD τ) arg5 fullShare d)
            ∗ owns (c : Thread nD τ) arg6 fullShare xs0
            ∗ owns (c : Thread nD τ) arg7 fullShare xs1
            ∗ (iprop(owns (c : Thread nD τ) arg2 fullShare x0
                ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ owns (c : Thread nD τ) arg7 fullShare xs1) -∗ K ⟨⟩))
          ⊢ wp frame (wpE (defs₀ (F := F)) Variants.none c none) E (cc1__sim_kernel i arg2 harg2 arg3 harg3 arg4 harg4 arg5 harg5 arg6 harg6 arg7 harg7) K } := by
  refine ⟨?_, ?_, ?_, [], fun E K => ?run⟩
  case run =>
    simp only [cc1__sim_kernel_eq_skeleton, k1_part1_eq_skeleton]; unfold cc1__sim_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    isplitl [HS0]
    · iexists _; iexact HS0
    iexists _; isplitr; · ipureintro; exact harg7.read_unread _
    iexact HS1

set_option maxHeartbeats 2000000 in
/-- The body at the last column tile of a row tile, the partner tile: the pieces it leaves in the two output buffers, the running denominator and the positives
    (found by the run), with the run itself. -/
noncomputable def simRun_LP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : cnd4 i) (hc5 : cnd5 i)
    (x0 : Vec F S1024x256 .bf16) (x1 : Vec F S8192x256 .bf16) (xs0 xs1 : Vec F S1024x1 .f32) :
    Σ' (L2 L3 LS0 : List (View.Piece (Elt F) S1024x1 .f32)), { LS1 : List (View.Piece (Elt F) S1024x1 .f32) //
      ∀ (E : Set ℕ) (K : PUnit → sProp 𝕄),
        iprop(owns (c : Thread nD τ) arg2 fullShare x0
            ∗ owns (c : Thread nD τ) arg3 fullShare x1
            ∗ (∃ d, owns (c : Thread nD τ) arg4 fullShare d)
            ∗ (∃ d, owns (c : Thread nD τ) arg5 fullShare d)
            ∗ owns (c : Thread nD τ) arg6 fullShare xs0
            ∗ owns (c : Thread nD τ) arg7 fullShare xs1
            ∗ (iprop(owns (c : Thread nD τ) arg2 fullShare x0
                ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__sim_kernel i arg2 harg2 arg3 harg3 arg4 harg4 arg5 harg5 arg6 harg6 arg7 harg7) K } := by
  refine ⟨?_, ?_, ?_, ?_, fun E K => ?run⟩
  case run =>
    simp only [cc1__sim_kernel_eq_skeleton, k1_part1_eq_skeleton]; unfold cc1__sim_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    isplitl [HS0]
    · iexists _; iexact HS0
    iexists _; iexact HS1

set_option maxHeartbeats 2000000 in
/-- The body at the last column tile of a row tile, neither the diagonal nor the partner: the pieces it leaves in the two output buffers, the running denominator and the positives
    (found by the run), with the run itself. -/
noncomputable def simRun_LO (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : ¬cnd4 i) (hc5 : cnd5 i)
    (x0 : Vec F S1024x256 .bf16) (x1 : Vec F S8192x256 .bf16) (xs0 xs1 : Vec F S1024x1 .f32) :
    Σ' (L2 L3 LS0 : List (View.Piece (Elt F) S1024x1 .f32)), { LS1 : List (View.Piece (Elt F) S1024x1 .f32) //
      ∀ (E : Set ℕ) (K : PUnit → sProp 𝕄),
        iprop(owns (c : Thread nD τ) arg2 fullShare x0
            ∗ owns (c : Thread nD τ) arg3 fullShare x1
            ∗ (∃ d, owns (c : Thread nD τ) arg4 fullShare d)
            ∗ (∃ d, owns (c : Thread nD τ) arg5 fullShare d)
            ∗ owns (c : Thread nD τ) arg6 fullShare xs0
            ∗ owns (c : Thread nD τ) arg7 fullShare xs1
            ∗ (iprop(owns (c : Thread nD τ) arg2 fullShare x0
                ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ owns (c : Thread nD τ) arg7 fullShare xs1) -∗ K ⟨⟩))
          ⊢ wp frame (wpE (defs₀ (F := F)) Variants.none c none) E (cc1__sim_kernel i arg2 harg2 arg3 harg3 arg4 harg4 arg5 harg5 arg6 harg6 arg7 harg7) K } := by
  refine ⟨?_, ?_, ?_, [], fun E K => ?run⟩
  case run =>
    simp only [cc1__sim_kernel_eq_skeleton, k1_part1_eq_skeleton]; unfold cc1__sim_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    isplitl [HS0]
    · iexists _; iexact HS0
    iexists _; isplitr; · ipureintro; exact harg7.read_unread _
    iexact HS1

end Cert.Kernel.Hand

end
-- ==== Proof.KSimVals.lean ====
/-
  What the similarity kernel's body leaves in its buffers, in each of its nine cases, read back as values: the
  running denominator after the body is the tile's row sums (the diagonal left out on the diagonal tile) added to
  what it held — to zero on the first column tile —; the positives are the row-wise dot products on the partner
  tile, zero after the first tile otherwise, else what they were; and on the last column tile the two outputs
  hold the two running buffers.
-/
import proofs.«102017_j44607530336758_2_alg».proof.Proof.Gen.Kernel.Launch
import proofs.«102017_j44607530336758_2_alg».proof.Proof.Gen.Kernel.Skeleton
import proofs.«102017_j44607530336758_2_alg».proof.Proof.Gen.Kernel.Points
import proofs.«102017_j44607530336758_2_alg».proof.Proof.KSimRuns
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a rank-2 rectangle. -/
theorem zeroOff2 : (![0, 0] : Fin 2 → Nat) = fun _ => 0 := funext fun a => by match a with | ⟨0, _⟩ => rfl | ⟨1, _⟩ => rfl

/-- The 1024 rows of the whole array of unit rows that column tile (i 1) holds: what the body loads at its offset. -/
def tileOfRows (i : grid1.Coords) (x1 : Vec F S8192x256 .bf16) : Vec F S1024x256 .bf16 :=
  View.ld x1 (Rect.unit (s := S8192x256) (k1_off1 i) S1024x256.size (k1_off1_inb i))

/-! ### FD -/

theorem accVal_FD (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cnd1 i) (hc2 : cnd2 i) (hc3 : ¬cnd3 i) (hc4 : ¬cnd4 i) (hc5 : ¬cnd5 i)
    (x0 : Vec F S1024x256 .bf16) (x1 : Vec F S8192x256 .bf16)
    (f : arg6.view.ty.Contents (Elt F)) :
    arg6.view.read (Elt F) (arg6.view.writes (Elt F) f (simRun_FD c i arg2 harg2 arg3 harg3 arg4 harg4 arg5 harg5 arg6 harg6 arg7 harg7 hc1 hc2 hc3 hc4 hc5 x0 x1).2.2.1) = k1_pay6 x0 (tileOfRows i x1) (k1_pay1 (F := F)) := by
  rw [View.read_writes_eq_canon _ _ _ (View.cover_of_tiledL _ S1024x1.size (by sl_kernel_rfl))]
  unfold simRun_FD; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem posVal_FD (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cnd1 i) (hc2 : cnd2 i) (hc3 : ¬cnd3 i) (hc4 : ¬cnd4 i) (hc5 : ¬cnd5 i)
    (x0 : Vec F S1024x256 .bf16) (x1 : Vec F S8192x256 .bf16)
    (f : arg7.view.ty.Contents (Elt F)) :
    arg7.view.read (Elt F) (arg7.view.writes (Elt F) f (simRun_FD c i arg2 harg2 arg3 harg3 arg4 harg4 arg5 harg5 arg6 harg6 arg7 harg7 hc1 hc2 hc3 hc4 hc5 x0 x1).2.2.2.1) = (k1_pay2 (F := F)) := by
  rw [View.read_writes_eq_canon _ _ _ (View.cover_of_tiledL _ S1024x1.size (by sl_kernel_rfl))]
  unfold simRun_FD; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

/-! ### FP -/

theorem accVal_FP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cnd1 i) (hc2 : ¬cnd2 i) (hc3 : cnd3 i) (hc4 : cnd4 i) (hc5 : ¬cnd5 i)
    (x0 : Vec F S1024x256 .bf16) (x1 : Vec F S8192x256 .bf16)
    (f : arg6.view.ty.Contents (Elt F)) :
    arg6.view.read (Elt F) (arg6.view.writes (Elt F) f (simRun_FP c i arg2 harg2 arg3 harg3 arg4 harg4 arg5 harg5 arg6 harg6 arg7 harg7 hc1 hc2 hc3 hc4 hc5 x0 x1).2.2.1) = k1_pay7 x0 (tileOfRows i x1) (k1_pay1 (F := F)) := by
  rw [View.read_writes_eq_canon _ _ _ (View.cover_of_tiledL _ S1024x1.size (by sl_kernel_rfl))]
  unfold simRun_FP; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem posVal_FP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cnd1 i) (hc2 : ¬cnd2 i) (hc3 : cnd3 i) (hc4 : cnd4 i) (hc5 : ¬cnd5 i)
    (x0 : Vec F S1024x256 .bf16) (x1 : Vec F S8192x256 .bf16)
    (f : arg7.view.ty.Contents (Elt F)) :
    arg7.view.read (Elt F) (arg7.view.writes (Elt F) f (simRun_FP c i arg2 harg2 arg3 harg3 arg4 harg4 arg5 harg5 arg6 harg6 arg7 harg7 hc1 hc2 hc3 hc4 hc5 x0 x1).2.2.2.1) = k1_pay8 x0 (tileOfRows i x1) := by
  rw [View.read_writes_eq_canon _ _ _ (View.cover_of_tiledL _ S1024x1.size (by sl_kernel_rfl))]
  unfold simRun_FP; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

/-! ### FO -/

theorem accVal_FO (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cnd1 i) (hc2 : ¬cnd2 i) (hc3 : cnd3 i) (hc4 : ¬cnd4 i) (hc5 : ¬cnd5 i)
    (x0 : Vec F S1024x256 .bf16) (x1 : Vec F S8192x256 .bf16)
    (f : arg6.view.ty.Contents (Elt F)) :
    arg6.view.read (Elt F) (arg6.view.writes (Elt F) f (simRun_FO c i arg2 harg2 arg3 harg3 arg4 harg4 arg5 harg5 arg6 harg6 arg7 harg7 hc1 hc2 hc3 hc4 hc5 x0 x1).2.2.1) = k1_pay7 x0 (tileOfRows i x1) (k1_pay1 (F := F)) := by
  rw [View.read_writes_eq_canon _ _ _ (View.cover_of_tiledL _ S1024x1.size (by sl_kernel_rfl))]
  unfold simRun_FO; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem posVal_FO (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cnd1 i) (hc2 : ¬cnd2 i) (hc3 : cnd3 i) (hc4 : ¬cnd4 i) (hc5 : ¬cnd5 i)
    (x0 : Vec F S1024x256 .bf16) (x1 : Vec F S8192x256 .bf16)
    (f : arg7.view.ty.Contents (Elt F)) :
    arg7.view.read (Elt F) (arg7.view.writes (Elt F) f (simRun_FO c i arg2 harg2 arg3 harg3 arg4 harg4 arg5 harg5 arg6 harg6 arg7 harg7 hc1 hc2 hc3 hc4 hc5 x0 x1).2.2.2.1) = (k1_pay2 (F := F)) := by
  rw [View.read_writes_eq_canon _ _ _ (View.cover_of_tiledL _ S1024x1.size (by sl_kernel_rfl))]
  unfold simRun_FO; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

/-! ### MD -/

theorem accVal_MD (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : cnd2 i) (hc3 : ¬cnd3 i) (hc4 : ¬cnd4 i) (hc5 : ¬cnd5 i)
    (x0 : Vec F S1024x256 .bf16) (x1 : Vec F S8192x256 .bf16) (xs0 xs1 : Vec F S1024x1 .f32)
    (f : arg6.view.ty.Contents (Elt F)) :
    arg6.view.read (Elt F) (arg6.view.writes (Elt F) f (simRun_MD c i arg2 harg2 arg3 harg3 arg4 harg4 arg5 harg5 arg6 harg6 arg7 harg7 hc1 hc2 hc3 hc4 hc5 x0 x1 xs0 xs1).2.2.1) = k1_pay6 x0 (tileOfRows i x1) xs0 := by
  rw [View.read_writes_eq_canon _ _ _ (View.cover_of_tiledL _ S1024x1.size (by sl_kernel_rfl))]
  unfold simRun_MD; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

/-! ### MP -/

theorem accVal_MP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : cnd4 i) (hc5 : ¬cnd5 i)
    (x0 : Vec F S1024x256 .bf16) (x1 : Vec F S8192x256 .bf16) (xs0 xs1 : Vec F S1024x1 .f32)
    (f : arg6.view.ty.Contents (Elt F)) :
    arg6.view.read (Elt F) (arg6.view.writes (Elt F) f (simRun_MP c i arg2 harg2 arg3 harg3 arg4 harg4 arg5 harg5 arg6 harg6 arg7 harg7 hc1 hc2 hc3 hc4 hc5 x0 x1 xs0 xs1).2.2.1) = k1_pay7 x0 (tileOfRows i x1) xs0 := by
  rw [View.read_writes_eq_canon _ _ _ (View.cover_of_tiledL _ S1024x1.size (by sl_kernel_rfl))]
  unfold simRun_MP; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem posVal_MP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : cnd4 i) (hc5 : ¬cnd5 i)
    (x0 : Vec F S1024x256 .bf16) (x1 : Vec F S8192x256 .bf16) (xs0 xs1 : Vec F S1024x1 .f32)
    (f : arg7.view.ty.Contents (Elt F)) :
    arg7.view.read (Elt F) (arg7.view.writes (Elt F) f (simRun_MP c i arg2 harg2 arg3 harg3 arg4 harg4 arg5 harg5 arg6 harg6 arg7 harg7 hc1 hc2 hc3 hc4 hc5 x0 x1 xs0 xs1).2.2.2.1) = k1_pay8 x0 (tileOfRows i x1) := by
  rw [View.read_writes_eq_canon _ _ _ (View.cover_of_tiledL _ S1024x1.size (by sl_kernel_rfl))]
  unfold simRun_MP; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

/-! ### MO -/

theorem accVal_MO (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : ¬cnd4 i) (hc5 : ¬cnd5 i)
    (x0 : Vec F S1024x256 .bf16) (x1 : Vec F S8192x256 .bf16) (xs0 xs1 : Vec F S1024x1 .f32)
    (f : arg6.view.ty.Contents (Elt F)) :
    arg6.view.read (Elt F) (arg6.view.writes (Elt F) f (simRun_MO c i arg2 harg2 arg3 harg3 arg4 harg4 arg5 harg5 arg6 harg6 arg7 harg7 hc1 hc2 hc3 hc4 hc5 x0 x1 xs0 xs1).2.2.1) = k1_pay7 x0 (tileOfRows i x1) xs0 := by
  rw [View.read_writes_eq_canon _ _ _ (View.cover_of_tiledL _ S1024x1.size (by sl_kernel_rfl))]
  unfold simRun_MO; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

/-! ### LD -/

theorem accVal_LD (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : cnd2 i) (hc3 : ¬cnd3 i) (hc4 : ¬cnd4 i) (hc5 : cnd5 i)
    (x0 : Vec F S1024x256 .bf16) (x1 : Vec F S8192x256 .bf16) (xs0 xs1 : Vec F S1024x1 .f32)
    (f : arg6.view.ty.Contents (Elt F)) :
    arg6.view.read (Elt F) (arg6.view.writes (Elt F) f (simRun_LD c i arg2 harg2 arg3 harg3 arg4 harg4 arg5 harg5 arg6 harg6 arg7 harg7 hc1 hc2 hc3 hc4 hc5 x0 x1 xs0 xs1).2.2.1) = k1_pay6 x0 (tileOfRows i x1) xs0 := by
  rw [View.read_writes_eq_canon _ _ _ (View.cover_of_tiledL _ S1024x1.size (by sl_kernel_rfl))]
  unfold simRun_LD; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem out2Val_LD (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : cnd2 i) (hc3 : ¬cnd3 i) (hc4 : ¬cnd4 i) (hc5 : cnd5 i)
    (x0 : Vec F S1024x256 .bf16) (x1 : Vec F S8192x256 .bf16) (xs0 xs1 : Vec F S1024x1 .f32)
    (f : arg4.view.ty.Contents (Elt F)) :
    arg4.view.read (Elt F) (arg4.view.writes (Elt F) f (simRun_LD c i arg2 harg2 arg3 harg3 arg4 harg4 arg5 harg5 arg6 harg6 arg7 harg7 hc1 hc2 hc3 hc4 hc5 x0 x1 xs0 xs1).1) = k1_pay6 x0 (tileOfRows i x1) xs0 := by
  rw [View.read_writes_eq_canon _ _ _ (View.cover_of_tiledL _ S1024x1.size (by sl_kernel_rfl))]
  unfold simRun_LD; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem out3Val_LD (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : cnd2 i) (hc3 : ¬cnd3 i) (hc4 : ¬cnd4 i) (hc5 : cnd5 i)
    (x0 : Vec F S1024x256 .bf16) (x1 : Vec F S8192x256 .bf16) (xs0 xs1 : Vec F S1024x1 .f32)
    (f : arg5.view.ty.Contents (Elt F)) :
    arg5.view.read (Elt F) (arg5.view.writes (Elt F) f (simRun_LD c i arg2 harg2 arg3 harg3 arg4 harg4 arg5 harg5 arg6 harg6 arg7 harg7 hc1 hc2 hc3 hc4 hc5 x0 x1 xs0 xs1).2.1) = xs1 := by
  rw [View.read_writes_eq_canon _ _ _ (View.cover_of_tiledL _ S1024x1.size (by sl_kernel_rfl))]
  unfold simRun_LD; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

/-! ### LP -/

theorem accVal_LP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : cnd4 i) (hc5 : cnd5 i)
    (x0 : Vec F S1024x256 .bf16) (x1 : Vec F S8192x256 .bf16) (xs0 xs1 : Vec F S1024x1 .f32)
    (f : arg6.view.ty.Contents (Elt F)) :
    arg6.view.read (Elt F) (arg6.view.writes (Elt F) f (simRun_LP c i arg2 harg2 arg3 harg3 arg4 harg4 arg5 harg5 arg6 harg6 arg7 harg7 hc1 hc2 hc3 hc4 hc5 x0 x1 xs0 xs1).2.2.1) = k1_pay7 x0 (tileOfRows i x1) xs0 := by
  rw [View.read_writes_eq_canon _ _ _ (View.cover_of_tiledL _ S1024x1.size (by sl_kernel_rfl))]
  unfold simRun_LP; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem posVal_LP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : cnd4 i) (hc5 : cnd5 i)
    (x0 : Vec F S1024x256 .bf16) (x1 : Vec F S8192x256 .bf16) (xs0 xs1 : Vec F S1024x1 .f32)
    (f : arg7.view.ty.Contents (Elt F)) :
    arg7.view.read (Elt F) (arg7.view.writes (Elt F) f (simRun_LP c i arg2 harg2 arg3 harg3 arg4 harg4 arg5 harg5 arg6 harg6 arg7 harg7 hc1 hc2 hc3 hc4 hc5 x0 x1 xs0 xs1).2.2.2.1) = k1_pay8 x0 (tileOfRows i x1) := by
  rw [View.read_writes_eq_canon _ _ _ (View.cover_of_tiledL _ S1024x1.size (by sl_kernel_rfl))]
  unfold simRun_LP; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem out2Val_LP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : cnd4 i) (hc5 : cnd5 i)
    (x0 : Vec F S1024x256 .bf16) (x1 : Vec F S8192x256 .bf16) (xs0 xs1 : Vec F S1024x1 .f32)
    (f : arg4.view.ty.Contents (Elt F)) :
    arg4.view.read (Elt F) (arg4.view.writes (Elt F) f (simRun_LP c i arg2 harg2 arg3 harg3 arg4 harg4 arg5 harg5 arg6 harg6 arg7 harg7 hc1 hc2 hc3 hc4 hc5 x0 x1 xs0 xs1).1) = k1_pay7 x0 (tileOfRows i x1) xs0 := by
  rw [View.read_writes_eq_canon _ _ _ (View.cover_of_tiledL _ S1024x1.size (by sl_kernel_rfl))]
  unfold simRun_LP; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem out3Val_LP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : cnd4 i) (hc5 : cnd5 i)
    (x0 : Vec F S1024x256 .bf16) (x1 : Vec F S8192x256 .bf16) (xs0 xs1 : Vec F S1024x1 .f32)
    (f : arg5.view.ty.Contents (Elt F)) :
    arg5.view.read (Elt F) (arg5.view.writes (Elt F) f (simRun_LP c i arg2 harg2 arg3 harg3 arg4 harg4 arg5 harg5 arg6 harg6 arg7 harg7 hc1 hc2 hc3 hc4 hc5 x0 x1 xs0 xs1).2.1) = k1_pay8 x0 (tileOfRows i x1) := by
  rw [View.read_writes_eq_canon _ _ _ (View.cover_of_tiledL _ S1024x1.size (by sl_kernel_rfl))]
  unfold simRun_LP; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

/-! ### LO -/

theorem accVal_LO (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : ¬cnd4 i) (hc5 : cnd5 i)
    (x0 : Vec F S1024x256 .bf16) (x1 : Vec F S8192x256 .bf16) (xs0 xs1 : Vec F S1024x1 .f32)
    (f : arg6.view.ty.Contents (Elt F)) :
    arg6.view.read (Elt F) (arg6.view.writes (Elt F) f (simRun_LO c i arg2 harg2 arg3 harg3 arg4 harg4 arg5 harg5 arg6 harg6 arg7 harg7 hc1 hc2 hc3 hc4 hc5 x0 x1 xs0 xs1).2.2.1) = k1_pay7 x0 (tileOfRows i x1) xs0 := by
  rw [View.read_writes_eq_canon _ _ _ (View.cover_of_tiledL _ S1024x1.size (by sl_kernel_rfl))]
  unfold simRun_LO; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem out2Val_LO (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : ¬cnd4 i) (hc5 : cnd5 i)
    (x0 : Vec F S1024x256 .bf16) (x1 : Vec F S8192x256 .bf16) (xs0 xs1 : Vec F S1024x1 .f32)
    (f : arg4.view.ty.Contents (Elt F)) :
    arg4.view.read (Elt F) (arg4.view.writes (Elt F) f (simRun_LO c i arg2 harg2 arg3 harg3 arg4 harg4 arg5 harg5 arg6 harg6 arg7 harg7 hc1 hc2 hc3 hc4 hc5 x0 x1 xs0 xs1).1) = k1_pay7 x0 (tileOfRows i x1) xs0 := by
  rw [View.read_writes_eq_canon _ _ _ (View.cover_of_tiledL _ S1024x1.size (by sl_kernel_rfl))]
  unfold simRun_LO; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem out3Val_LO (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : ¬cnd4 i) (hc5 : cnd5 i)
    (x0 : Vec F S1024x256 .bf16) (x1 : Vec F S8192x256 .bf16) (xs0 xs1 : Vec F S1024x1 .f32)
    (f : arg5.view.ty.Contents (Elt F)) :
    arg5.view.read (Elt F) (arg5.view.writes (Elt F) f (simRun_LO c i arg2 harg2 arg3 harg3 arg4 harg4 arg5 harg5 arg6 harg6 arg7 harg7 hc1 hc2 hc3 hc4 hc5 x0 x1 xs0 xs1).2.1) = xs1 := by
  rw [View.read_writes_eq_canon _ _ _ (View.cover_of_tiledL _ S1024x1.size (by sl_kernel_rfl))]
  unfold simRun_LO; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

end Cert.Kernel.Hand

end
-- ==== Proof.KSimFrame.lean ====
/-
  The similarity kernel over its 8 × 8 grid, at any float instance and at ANY contents V of the core's buffers when
  the kernel is entered. Grid point t is row tile t / 8 and column tile t % 8. After point t the running
  denominator holds the sum, over the column tiles 0 … t % 8 of the row tile, of each tile's row sums (the row's own
  column left out on the diagonal tile), and the positives hold the row-wise dot products with the partner tile once
  that tile has been met (zero before it): accAt and posAt, by recursion on the point. The two outputs are stored
  at the last column tile only, with what the two running buffers then hold. The per-point proof data, the
  invariant that carries the two running buffers from one point to the next, and the obligation the pipeline asks
  at each of the 64 points, by cases on where the point sits.
-/
import proofs.«102017_j44607530336758_2_alg».proof.Proof.Gen.Kernel.Launch
import proofs.«102017_j44607530336758_2_alg».proof.Proof.Gen.Kernel.Skeleton
import proofs.«102017_j44607530336758_2_alg».proof.Proof.Gen.Kernel.Points
import proofs.«102017_j44607530336758_2_alg».proof.Proof.KSimVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the kernel finds it: window 0's is the row tile's 1024
    unit rows, window 1's the whole array of unit rows. -/
def simBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's buffer holds its block at every point, fetched there or not. -/
theorem simBefore0_of {c : Dev nD} (dat : Dat τ (Elt F) Unit ℕ (UR sig nD τ) ℕ cfg1 c) (hA : dat.A 0 = V c (Pipeline.arrRef spec1 0))
    (hafter : ∀ t, dat.after 0 t = simBlk V c 0 t) (t : Fin cfg1.N) (d) : dat.before 0 t d = simBlk V c 0 t :=
  (dat.before_in_eq_fetched 0 rfl (fun _ => rfl) (fun _ _ _ => rfl) (fun t => by rw [hafter]; unfold Dat.blockOf simBlk; rw [hA]; try rfl) t d).trans
    (by unfold Dat.fetched Dat.blockOf simBlk; rw [hA]; try rfl)
theorem simBefore1_of {c : Dev nD} (dat : Dat τ (Elt F) Unit ℕ (UR sig nD τ) ℕ cfg1 c) (hA : dat.A 1 = V c (Pipeline.arrRef spec1 1))
    (hafter : ∀ t, dat.after 1 t = simBlk V c 1 t) (t : Fin cfg1.N) (d) : dat.before 1 t d = simBlk V c 1 t :=
  (dat.before_in_eq_fetched 1 rfl (fun _ => rfl) (fun _ _ _ => rfl) (fun t => by rw [hafter]; unfold Dat.blockOf simBlk; rw [hA]; try rfl) t d).trans
    (by unfold Dat.fetched Dat.blockOf simBlk; rw [hA]; try rfl)

/-! ## The buffers the body is called with at a point -/

abbrev ms0 (t : Fin cfg1.N) : Memref sig .tc .vmem S1024x256 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x256 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1 .f32 := win1_3.stage (cfg1.slots t 3)
abbrev hs3 (t : Fin cfg1.N) : (ms3 t).IsWhole := hstage1_3 ((cfg1.slots t 3).cast nbuf1_3)
/-- The running denominator's and the positives' buffers. -/
abbrev sc0 : Memref sig .tc .vmem S1024x1 .f32 := Memref.whole cc1_scratch0
abbrev sc1 : Memref sig .tc .vmem S1024x1 .f32 := Memref.whole cc1_scratch1

/-! ## Where the windows are idle -/

theorem simLive0 : ∀ t : Fin cfg1.N, cfg1.idle 0 (grid1.coords t) = false := by decide +kernel
theorem simLive1 : ∀ t : Fin cfg1.N, cfg1.idle 1 (grid1.coords t) = false := by decide +kernel
theorem simLive2 : ∀ t : Fin cfg1.N, cnd5 (grid1.coords t) → cfg1.idle 2 (grid1.coords t) = false := by decide +kernel
theorem simLive3 : ∀ t : Fin cfg1.N, cnd5 (grid1.coords t) → cfg1.idle 3 (grid1.coords t) = false := by decide +kernel
theorem simIdle2 : ∀ t : Fin cfg1.N, ¬cnd5 (grid1.coords t) → cfg1.idle 2 (grid1.coords t) = true := by decide +kernel
theorem simIdle3 : ∀ t : Fin cfg1.N, ¬cnd5 (grid1.coords t) → cfg1.idle 3 (grid1.coords t) = true := by decide +kernel
theorem simNoFlush2 : ∀ t : Fin cfg1.N, ¬cnd5 (grid1.coords t) → (cfg1.win 2).flush t = false := by decide +kernel
theorem simNoFlush3 : ∀ t : Fin cfg1.N, ¬cnd5 (grid1.coords t) → (cfg1.win 3).flush t = false := by decide +kernel

/-! ## The two running buffers after each point -/

/-- The running denominator after point t, from what it held before: on the first column tile it starts from zero;
    the tile's row sums are added, the diagonal left out on the diagonal tile. -/
def accStep (c : Dev nD) (t : Fin cfg1.N) (a : Vec F S1024x1 .f32) : Vec F S1024x1 .f32 :=
  if t.val / 8 = t.val % 8 then k1_pay6 (simBlk V c 0 t) (tileOfRows (grid1.coords t) (simBlk V c 1 t)) (if t.val % 8 = 0 then k1_pay1 (F := F) else a)
  else k1_pay7 (simBlk V c 0 t) (tileOfRows (grid1.coords t) (simBlk V c 1 t)) (if t.val % 8 = 0 then k1_pay1 (F := F) else a)

/-- The positives after point t: the dot products on the partner tile; zero after the first column tile otherwise;
    else what they were. -/
def posStep (c : Dev nD) (t : Fin cfg1.N) (p : Vec F S1024x1 .f32) : Vec F S1024x1 .f32 :=
  if t.val % 8 = (t.val / 8 + 4) % 8 then k1_pay8 (simBlk V c 0 t) (tileOfRows (grid1.coords t) (simBlk V c 1 t))
  else if t.val % 8 = 0 then k1_pay2 (F := F) else p

def accAt (c : Dev nD) : (n : ℕ) → n < cfg1.N → Vec F S1024x1 .f32
  | 0, hn => accStep V c ⟨0, hn⟩ (k1_pay1 (F := F))
  | n + 1, hn => accStep V c ⟨n + 1, hn⟩ (accAt c n (Nat.lt_of_succ_lt hn))

def posAt (c : Dev nD) : (n : ℕ) → n < cfg1.N → Vec F S1024x1 .f32
  | 0, hn => posStep V c ⟨0, hn⟩ (k1_pay2 (F := F))
  | n + 1, hn => posStep V c ⟨n + 1, hn⟩ (posAt c n (Nat.lt_of_succ_lt hn))

theorem accAt_pos (c : Dev nD) (t : Fin cfg1.N) (hz : t.val ≠ 0) :
    accAt V c t.val t.isLt = accStep V c t (accAt V c (t.val - 1) (Nat.lt_of_le_of_lt (Nat.sub_le _ _) t.isLt)) := by
  obtain ⟨n, hn⟩ := t
  cases n with
  | zero => exact absurd rfl hz
  | succ n => rfl
theorem posAt_pos (c : Dev nD) (t : Fin cfg1.N) (hz : t.val ≠ 0) :
    posAt V c t.val t.isLt = posStep V c t (posAt V c (t.val - 1) (Nat.lt_of_le_of_lt (Nat.sub_le _ _) t.isLt)) := by
  obtain ⟨n, hn⟩ := t
  cases n with
  | zero => exact absurd rfl hz
  | succ n => rfl
theorem accAt_zero (c : Dev nD) (t : Fin cfg1.N) (hz : t.val = 0) :
    accAt V c t.val t.isLt = accStep V c t (k1_pay1 (F := F)) := by
  obtain ⟨n, hn⟩ := t; subst hz; rfl
theorem posAt_zero (c : Dev nD) (t : Fin cfg1.N) (hz : t.val = 0) :
    posAt V c t.val t.isLt = posStep V c t (k1_pay2 (F := F)) := by
  obtain ⟨n, hn⟩ := t; subst hz; rfl

theorem accAt_FD (c : Dev nD) (t : Fin cfg1.N) (h1 : t.val % 8 = 0) (h2 : t.val / 8 = t.val % 8) :
    accAt V c t.val t.isLt = k1_pay6 (simBlk V c 0 t) (tileOfRows (grid1.coords t) (simBlk V c 1 t)) (k1_pay1 (F := F)) := by
  by_cases hz : t.val = 0
  · rw [accAt_zero V c t hz]; unfold accStep; rw [if_pos h2, if_pos h1]
  · rw [accAt_pos V c t hz]; unfold accStep; rw [if_pos h2, if_pos h1]
theorem accAt_FO (c : Dev nD) (t : Fin cfg1.N) (h1 : t.val % 8 = 0) (h2 : ¬ t.val / 8 = t.val % 8) :
    accAt V c t.val t.isLt = k1_pay7 (simBlk V c 0 t) (tileOfRows (grid1.coords t) (simBlk V c 1 t)) (k1_pay1 (F := F)) := by
  by_cases hz : t.val = 0
  · rw [accAt_zero V c t hz]; unfold accStep; rw [if_neg h2, if_pos h1]
  · rw [accAt_pos V c t hz]; unfold accStep; rw [if_neg h2, if_pos h1]
theorem accAt_ND (c : Dev nD) (t : Fin cfg1.N) (h1 : ¬ t.val % 8 = 0) (h2 : t.val / 8 = t.val % 8) :
    accAt V c t.val t.isLt = k1_pay6 (simBlk V c 0 t) (tileOfRows (grid1.coords t) (simBlk V c 1 t)) (accAt V c (t.val - 1) (Nat.lt_of_le_of_lt (Nat.sub_le _ _) t.isLt)) := by
  rw [accAt_pos V c t (fun hz => h1 (by rw [hz]))]; unfold accStep; rw [if_pos h2, if_neg h1]
theorem accAt_NO (c : Dev nD) (t : Fin cfg1.N) (h1 : ¬ t.val % 8 = 0) (h2 : ¬ t.val / 8 = t.val % 8) :
    accAt V c t.val t.isLt = k1_pay7 (simBlk V c 0 t) (tileOfRows (grid1.coords t) (simBlk V c 1 t)) (accAt V c (t.val - 1) (Nat.lt_of_le_of_lt (Nat.sub_le _ _) t.isLt)) := by
  rw [accAt_pos V c t (fun hz => h1 (by rw [hz]))]; unfold accStep; rw [if_neg h2, if_neg h1]
theorem posAt_P (c : Dev nD) (t : Fin cfg1.N) (h4 : t.val % 8 = (t.val / 8 + 4) % 8) :
    posAt V c t.val t.isLt = k1_pay8 (simBlk V c 0 t) (tileOfRows (grid1.coords t) (simBlk V c 1 t)) := by
  by_cases hz : t.val = 0
  · rw [posAt_zero V c t hz]; unfold posStep; rw [if_pos h4]
  · rw [posAt_pos V c t hz]; unfold posStep; rw [if_pos h4]
theorem posAt_F (c : Dev nD) (t : Fin cfg1.N) (h1 : t.val % 8 = 0) (h4 : ¬ t.val % 8 = (t.val / 8 + 4) % 8) :
    posAt V c t.val t.isLt = k1_pay2 (F := F) := by
  by_cases hz : t.val = 0
  · rw [posAt_zero V c t hz]; unfold posStep; rw [if_neg h4, if_pos h1]
  · rw [posAt_pos V c t hz]; unfold posStep; rw [if_neg h4, if_pos h1]
theorem posAt_keep (c : Dev nD) (t : Fin cfg1.N) (h1 : ¬ t.val % 8 = 0) (h4 : ¬ t.val % 8 = (t.val / 8 + 4) % 8) :
    posAt V c t.val t.isLt = (posAt V c (t.val - 1) (Nat.lt_of_le_of_lt (Nat.sub_le _ _) t.isLt)) := by
  rw [posAt_pos V c t (fun hz => h1 (by rw [hz]))]; unfold posStep; rw [if_neg h4, if_neg h1]

/-! ## The invariant between points -/

/-- What the pipeline hands the kernel before the first point: the first kernel's four buffers (which this kernel
    never touches) and the two running buffers, each at anything, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) sc0 fullShare d) ∗ (∃ d, owns (c : Thread nD τ) sc1 fullShare d)) ∗ (∃ r, prngReg c r)) := by
  unfold Pipeline.ΦA; rw [scopedRest1_eq]; simp only [sc0, sc1, owns_whole]; try rfl

/-- Before point n: before the first point whatever the pipeline hands over; afterwards the two running buffers at
    what the point before left in them. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) sc0 fullShare (accAt V c n hn) ∗ owns (c : Thread nD τ) sc1 fullShare (posAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) sc0 fullShare (accAt V c n hn) ∗ owns (c : Thread nD τ) sc1 fullShare (posAt V c n hn)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) sc0 fullShare (accAt V c (n - 1) (by omega)) ∗ owns (c : Thread nD τ) sc1 fullShare (posAt V c (n - 1) (by omega))) ∗ (∃ r, prngReg c r)) := by
  cases n with
  | zero => exact absurd rfl hz
  | succ n => rfl

/-! ## The proof data -/

/-- The array of unit rows is read through two windows at once: each holds half of it. -/
def simDat (c : Dev nD) : Dat τ (Elt F) Unit ℕ (UR sig nD τ) ℕ cfg1 c where
  A w := V c (Pipeline.arrRef spec1 w)
  after w t := match w with
    | ⟨0, _⟩ => simBlk V c 0 t
    | ⟨1, _⟩ => simBlk V c 1 t
    | ⟨2, _⟩ => accAt V c t.val t.isLt
    | ⟨3, _⟩ => posAt V c t.val t.isLt
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem simDat_A (c : Dev nD) (w : Fin cfg1.W) : (simDat V c).A w = V c (Pipeline.arrRef spec1 w) := by
  dsimp only [simDat]
theorem simPhi_castSucc (c : Dev nD) (t : Fin cfg1.N) :
    (simDat V c).Φ t.castSucc = PhiS V c t.val (Nat.le_of_lt t.isLt) := by
  dsimp only [simDat]; simp only [Fin.coe_castSucc]
theorem simDat_after0 (c : Dev nD) (t : Fin cfg1.N) : (simDat V c).after 0 t = simBlk V c 0 t := by dsimp only [simDat]
theorem simDat_after1 (c : Dev nD) (t : Fin cfg1.N) : (simDat V c).after 1 t = simBlk V c 1 t := by dsimp only [simDat]
theorem simDat_after2 (c : Dev nD) (t : Fin cfg1.N) : (simDat V c).after 2 t = accAt V c t.val t.isLt := by dsimp only [simDat]
theorem simDat_after3 (c : Dev nD) (t : Fin cfg1.N) : (simDat V c).after 3 t = posAt V c t.val t.isLt := by dsimp only [simDat]
theorem simBefore0 (c : Dev nD) (t : Fin cfg1.N) (d) : (simDat V c).before 0 t d = simBlk V c 0 t :=
  simBefore0_of V (simDat V c) (simDat_A V c 0) (simDat_after0 V c) t d
theorem simBefore1 (c : Dev nD) (t : Fin cfg1.N) (d) : (simDat V c).before 1 t d = simBlk V c 1 t :=
  simBefore1_of V (simDat V c) (simDat_A V c 1) (simDat_after1 V c) t d

/-! ## The obligation at a point -/

def simPre (c : Dev nD) (t : Fin cfg1.N) : sProp 𝕄 :=
  iprop((simDat V c).Φ t.castSucc ∗ (simDat V c).owesAt () t.castSucc
    ∗ (∃ d, owns (c : Thread nD τ) (ms0 t) fullShare ((simDat V c).before 0 t d))
    ∗ (∃ d, owns (c : Thread nD τ) (ms1 t) fullShare ((simDat V c).before 1 t d))
    ∗ (∃ d, owns (c : Thread nD τ) (ms2 t) fullShare ((simDat V c).before 2 t d))
    ∗ (∃ d, owns (c : Thread nD τ) (ms3 t) fullShare ((simDat V c).before 3 t d)))

def simPost (c : Dev nD) (t : Fin cfg1.N) : sProp 𝕄 :=
  iprop((simDat V c).Φ t.succ ∗ (simDat V c).owesAt () t.succ
    ∗ (simDat V c).leavesExact 0 t
    ∗ (simDat V c).leavesExact 1 t
    ∗ (simDat V c).leavesExact 2 t
    ∗ (simDat V c).leavesExact 3 t)

set_option maxHeartbeats 8000000 in
theorem simBody (c : Dev nD) (t : Fin cfg1.N) :
    simPre V c t ⊢ wp frame (wpE (defs₀ (F := F)) Variants.none c none) Set.univ (bodyAt1 t) (fun _ => simPost V c t) := by
  unfold simPre simPost bodyAt1
  simp only [simBefore0, simBefore1]
  rw [show (simDat V c).owesAt () t.succ = (simDat V c).owesAt () t.castSucc from rfl]
  rw [show (simDat V c).Φ t.succ = PhiS V c (t.val + 1) t.isLt from rfl, PhiS_succ]
  have hN : t.val < 64 := lt_of_lt_of_eq t.isLt (show cfg1.N = 64 from N_1)
  by_cases h1 : t.val % 8 = 0
  · by_cases h2 : t.val / 8 = t.val % 8
    · have h4 : ¬ t.val % 8 = (t.val / 8 + 4) % 8 := by omega
      have h5 : ¬ t.val % 8 = 7 := by omega
      -- FD
      rw [show (simDat V c).leavesExact 0 t = owns (c : Thread nD τ) (ms0 t) fullShare ((simDat V c).after 0 t) from by
        unfold Dat.leavesExact; rw [simLive0 t], simDat_after0]
      rw [show (simDat V c).leavesExact 1 t = owns (c : Thread nD τ) (ms1 t) fullShare ((simDat V c).after 1 t) from by
        unfold Dat.leavesExact; rw [simLive1 t], simDat_after1]
      rw [Dat.leavesExact_idle (simDat V c) 2 t (simIdle2 t (fun h => h5 ((hcnd5 t).mp h))) (simNoFlush2 t (fun h => h5 ((hcnd5 t).mp h)))]
      rw [Dat.leavesExact_idle (simDat V c) 3 t (simIdle3 t (fun h => h5 ((hcnd5 t).mp h))) (simNoFlush3 t (fun h => h5 ((hcnd5 t).mp h)))]
      have hz : t.val = 0 := by omega
      rw [simPhi_castSucc V c t, PhiS_zero V c _ _ hz, PhiA1_eq]
      iintro ⟨⟨⟨Hr0, Hr1, Hr2, Hr3, HS0, HS1⟩, Hg⟩, Ho, ⟨%d0, H0⟩, ⟨%d1, H1⟩, ⟨%d2, H2⟩, ⟨%d3, H3⟩⟩
      iapply ((simRun_FD c (grid1.coords t) (ms0 t) (hs0 t) (ms1 t) (hs1 t) (ms2 t) (hs2 t) (ms3 t) (hs3 t) sc0 (Memref.isWhole_whole _) sc1 (Memref.isWhole_whole _) ((hcnd1 t).mpr h1) ((hcnd2 t).mpr h2) (fun h => ((hcnd3 t).mp h) h2) (fun h => h4 ((hcnd4 t).mp h)) (fun h => h5 ((hcnd5 t).mp h)) (simBlk V c 0 t) (simBlk V c 1 t)).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [Hr0 Hr1 Hr2 Hr3 HS0 HS1 Hg]
      · isplitr [Hg]
        · isplitl [Hr0]; · iexact Hr0
          isplitl [Hr1]; · iexact Hr1
          isplitl [Hr2]; · iexact Hr2
          isplitl [Hr3]; · iexact Hr3
          isplitl [HS0]
          · unfold owns; iexists _; isplitr
            swap; · iexact HS0
            ipureintro; exact (accVal_FD c (grid1.coords t) (ms0 t) (hs0 t) (ms1 t) (hs1 t) (ms2 t) (hs2 t) (ms3 t) (hs3 t) sc0 (Memref.isWhole_whole _) sc1 (Memref.isWhole_whole _) ((hcnd1 t).mpr h1) ((hcnd2 t).mpr h2) (fun h => ((hcnd3 t).mp h) h2) (fun h => h4 ((hcnd4 t).mp h)) (fun h => h5 ((hcnd5 t).mp h)) (simBlk V c 0 t) (simBlk V c 1 t) _).trans (accAt_FD V c t h1 h2).symm
          unfold owns; iexists _; isplitr
          swap; · iexact HS1
          ipureintro; exact (posVal_FD c (grid1.coords t) (ms0 t) (hs0 t) (ms1 t) (hs1 t) (ms2 t) (hs2 t) (ms3 t) (hs3 t) sc0 (Memref.isWhole_whole _) sc1 (Memref.isWhole_whole _) ((hcnd1 t).mpr h1) ((hcnd2 t).mpr h2) (fun h => ((hcnd3 t).mp h) h2) (fun h => h4 ((hcnd4 t).mp h)) (fun h => h5 ((hcnd5 t).mp h)) (simBlk V c 0 t) (simBlk V c 1 t) _).trans (posAt_F V c t h1 h4).symm
        iexact Hg
      isplitl [Ho]; · iexact Ho
      isplitl [H0]; · iexact H0
      isplitl [H1]; · iexact H1
      isplitl [H2]; · iexists _; iexact H2
      iexists _; iexact H3
    · have h5 : ¬ t.val % 8 = 7 := by omega
      by_cases h4 : t.val % 8 = (t.val / 8 + 4) % 8
      ·
        -- FP
        rw [show (simDat V c).leavesExact 0 t = owns (c : Thread nD τ) (ms0 t) fullShare ((simDat V c).after 0 t) from by
          unfold Dat.leavesExact; rw [simLive0 t], simDat_after0]
        rw [show (simDat V c).leavesExact 1 t = owns (c : Thread nD τ) (ms1 t) fullShare ((simDat V c).after 1 t) from by
          unfold Dat.leavesExact; rw [simLive1 t], simDat_after1]
        rw [Dat.leavesExact_idle (simDat V c) 2 t (simIdle2 t (fun h => h5 ((hcnd5 t).mp h))) (simNoFlush2 t (fun h => h5 ((hcnd5 t).mp h)))]
        rw [Dat.leavesExact_idle (simDat V c) 3 t (simIdle3 t (fun h => h5 ((hcnd5 t).mp h))) (simNoFlush3 t (fun h => h5 ((hcnd5 t).mp h)))]
        have hz : t.val ≠ 0 := by omega
        rw [simPhi_castSucc V c t, PhiS_pos V c _ _ hz]
        iintro ⟨⟨⟨Hr0, Hr1, Hr2, Hr3, HS0, HS1⟩, Hg⟩, Ho, ⟨%d0, H0⟩, ⟨%d1, H1⟩, ⟨%d2, H2⟩, ⟨%d3, H3⟩⟩
        iapply ((simRun_FP c (grid1.coords t) (ms0 t) (hs0 t) (ms1 t) (hs1 t) (ms2 t) (hs2 t) (ms3 t) (hs3 t) sc0 (Memref.isWhole_whole _) sc1 (Memref.isWhole_whole _) ((hcnd1 t).mpr h1) (fun h => h2 ((hcnd2 t).mp h)) ((hcnd3 t).mpr h2) ((hcnd4 t).mpr h4) (fun h => h5 ((hcnd5 t).mp h)) (simBlk V c 0 t) (simBlk V c 1 t)).2.2.2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [Hr0 Hr1 Hr2 Hr3 HS0 HS1 Hg]
        · isplitr [Hg]
          · isplitl [Hr0]; · iexact Hr0
            isplitl [Hr1]; · iexact Hr1
            isplitl [Hr2]; · iexact Hr2
            isplitl [Hr3]; · iexact Hr3
            isplitl [HS0]
            · unfold owns; iexists _; isplitr
              swap; · iexact HS0
              ipureintro; exact (accVal_FP c (grid1.coords t) (ms0 t) (hs0 t) (ms1 t) (hs1 t) (ms2 t) (hs2 t) (ms3 t) (hs3 t) sc0 (Memref.isWhole_whole _) sc1 (Memref.isWhole_whole _) ((hcnd1 t).mpr h1) (fun h => h2 ((hcnd2 t).mp h)) ((hcnd3 t).mpr h2) ((hcnd4 t).mpr h4) (fun h => h5 ((hcnd5 t).mp h)) (simBlk V c 0 t) (simBlk V c 1 t) _).trans (accAt_FO V c t h1 h2).symm
            unfold owns; iexists _; isplitr
            swap; · iexact HS1
            ipureintro; exact (posVal_FP c (grid1.coords t) (ms0 t) (hs0 t) (ms1 t) (hs1 t) (ms2 t) (hs2 t) (ms3 t) (hs3 t) sc0 (Memref.isWhole_whole _) sc1 (Memref.isWhole_whole _) ((hcnd1 t).mpr h1) (fun h => h2 ((hcnd2 t).mp h)) ((hcnd3 t).mpr h2) ((hcnd4 t).mpr h4) (fun h => h5 ((hcnd5 t).mp h)) (simBlk V c 0 t) (simBlk V c 1 t) _).trans (posAt_P V c t h4).symm
          iexact Hg
        isplitl [Ho]; · iexact Ho
        isplitl [H0]; · iexact H0
        isplitl [H1]; · iexact H1
        isplitl [H2]; · iexists _; iexact H2
        iexists _; iexact H3
      ·
        -- FO
        rw [show (simDat V c).leavesExact 0 t = owns (c : Thread nD τ) (ms0 t) fullShare ((simDat V c).after 0 t) from by
          unfold Dat.leavesExact; rw [simLive0 t], simDat_after0]
        rw [show (simDat V c).leavesExact 1 t = owns (c : Thread nD τ) (ms1 t) fullShare ((simDat V c).after 1 t) from by
          unfold Dat.leavesExact; rw [simLive1 t], simDat_after1]
        rw [Dat.leavesExact_idle (simDat V c) 2 t (simIdle2 t (fun h => h5 ((hcnd5 t).mp h))) (simNoFlush2 t (fun h => h5 ((hcnd5 t).mp h)))]
        rw [Dat.leavesExact_idle (simDat V c) 3 t (simIdle3 t (fun h => h5 ((hcnd5 t).mp h))) (simNoFlush3 t (fun h => h5 ((hcnd5 t).mp h)))]
        have hz : t.val ≠ 0 := by omega
        rw [simPhi_castSucc V c t, PhiS_pos V c _ _ hz]
        iintro ⟨⟨⟨Hr0, Hr1, Hr2, Hr3, HS0, HS1⟩, Hg⟩, Ho, ⟨%d0, H0⟩, ⟨%d1, H1⟩, ⟨%d2, H2⟩, ⟨%d3, H3⟩⟩
        iapply ((simRun_FO c (grid1.coords t) (ms0 t) (hs0 t) (ms1 t) (hs1 t) (ms2 t) (hs2 t) (ms3 t) (hs3 t) sc0 (Memref.isWhole_whole _) sc1 (Memref.isWhole_whole _) ((hcnd1 t).mpr h1) (fun h => h2 ((hcnd2 t).mp h)) ((hcnd3 t).mpr h2) (fun h => h4 ((hcnd4 t).mp h)) (fun h => h5 ((hcnd5 t).mp h)) (simBlk V c 0 t) (simBlk V c 1 t)).2.2.2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [Hr0 Hr1 Hr2 Hr3 HS0 HS1 Hg]
        · isplitr [Hg]
          · isplitl [Hr0]; · iexact Hr0
            isplitl [Hr1]; · iexact Hr1
            isplitl [Hr2]; · iexact Hr2
            isplitl [Hr3]; · iexact Hr3
            isplitl [HS0]
            · unfold owns; iexists _; isplitr
              swap; · iexact HS0
              ipureintro; exact (accVal_FO c (grid1.coords t) (ms0 t) (hs0 t) (ms1 t) (hs1 t) (ms2 t) (hs2 t) (ms3 t) (hs3 t) sc0 (Memref.isWhole_whole _) sc1 (Memref.isWhole_whole _) ((hcnd1 t).mpr h1) (fun h => h2 ((hcnd2 t).mp h)) ((hcnd3 t).mpr h2) (fun h => h4 ((hcnd4 t).mp h)) (fun h => h5 ((hcnd5 t).mp h)) (simBlk V c 0 t) (simBlk V c 1 t) _).trans (accAt_FO V c t h1 h2).symm
            unfold owns; iexists _; isplitr
            swap; · iexact HS1
            ipureintro; exact (posVal_FO c (grid1.coords t) (ms0 t) (hs0 t) (ms1 t) (hs1 t) (ms2 t) (hs2 t) (ms3 t) (hs3 t) sc0 (Memref.isWhole_whole _) sc1 (Memref.isWhole_whole _) ((hcnd1 t).mpr h1) (fun h => h2 ((hcnd2 t).mp h)) ((hcnd3 t).mpr h2) (fun h => h4 ((hcnd4 t).mp h)) (fun h => h5 ((hcnd5 t).mp h)) (simBlk V c 0 t) (simBlk V c 1 t) _).trans (posAt_F V c t h1 h4).symm
          iexact Hg
        isplitl [Ho]; · iexact Ho
        isplitl [H0]; · iexact H0
        isplitl [H1]; · iexact H1
        isplitl [H2]; · iexists _; iexact H2
        iexists _; iexact H3
  · by_cases h5 : t.val % 8 = 7
    · by_cases h2 : t.val / 8 = t.val % 8
      · have h4 : ¬ t.val % 8 = (t.val / 8 + 4) % 8 := by omega
        -- LD
        rw [show (simDat V c).leavesExact 0 t = owns (c : Thread nD τ) (ms0 t) fullShare ((simDat V c).after 0 t) from by
          unfold Dat.leavesExact; rw [simLive0 t], simDat_after0]
        rw [show (simDat V c).leavesExact 1 t = owns (c : Thread nD τ) (ms1 t) fullShare ((simDat V c).after 1 t) from by
          unfold Dat.leavesExact; rw [simLive1 t], simDat_after1]
        rw [show (simDat V c).leavesExact 2 t = owns (c : Thread nD τ) (ms2 t) fullShare ((simDat V c).after 2 t) from by
          unfold Dat.leavesExact; rw [simLive2 t ((hcnd5 t).mpr h5)], simDat_after2]
        rw [show (simDat V c).leavesExact 3 t = owns (c : Thread nD τ) (ms3 t) fullShare ((simDat V c).after 3 t) from by
          unfold Dat.leavesExact; rw [simLive3 t ((hcnd5 t).mpr h5)], simDat_after3]
        have hz : t.val ≠ 0 := by omega
        rw [simPhi_castSucc V c t, PhiS_pos V c _ _ hz]
        iintro ⟨⟨⟨Hr0, Hr1, Hr2, Hr3, HS0, HS1⟩, Hg⟩, Ho, ⟨%d0, H0⟩, ⟨%d1, H1⟩, ⟨%d2, H2⟩, ⟨%d3, H3⟩⟩
        iapply ((simRun_LD c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) ((hcnd2 t).mpr h2) (fun h => ((hcnd3 t).mp h) h2) (fun h => h4 ((hcnd4 t).mp h)) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt))).2.2.2.2 Set.univ _)
        isplitl [H0]; · iexact H0
        isplitl [H1]; · iexact H1
        isplitl [H2]; · iexists _; iexact H2
        isplitl [H3]; · iexists _; iexact H3
        isplitl [HS0]; · iexact HS0
        isplitl [HS1]; · iexact HS1
        iintro ⟨H0, H1, ⟨%e2, H2⟩, ⟨%e3, H3⟩, ⟨%es0, HS0⟩, HS1⟩
        isplitl [Hr0 Hr1 Hr2 Hr3 HS0 HS1 Hg]
        · isplitr [Hg]
          · isplitl [Hr0]; · iexact Hr0
            isplitl [Hr1]; · iexact Hr1
            isplitl [Hr2]; · iexact Hr2
            isplitl [Hr3]; · iexact Hr3
            isplitl [HS0]
            · unfold owns; iexists _; isplitr
              swap; · iexact HS0
              ipureintro; exact (accVal_LD c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) ((hcnd2 t).mpr h2) (fun h => ((hcnd3 t).mp h) h2) (fun h => h4 ((hcnd4 t).mp h)) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (accAt_ND V c t h1 h2).symm
            rw [posAt_keep V c t h1 h4]; iexact HS1
          iexact Hg
        isplitl [Ho]; · iexact Ho
        isplitl [H0]; · iexact H0
        isplitl [H1]; · iexact H1
        isplitl [H2]
        · unfold owns; iexists _; isplitr
          swap; · iexact H2
          ipureintro; exact (out2Val_LD c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) ((hcnd2 t).mpr h2) (fun h => ((hcnd3 t).mp h) h2) (fun h => h4 ((hcnd4 t).mp h)) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (accAt_ND V c t h1 h2).symm
        unfold owns; iexists _; isplitr
        swap; · iexact H3
        ipureintro; exact (out3Val_LD c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) ((hcnd2 t).mpr h2) (fun h => ((hcnd3 t).mp h) h2) (fun h => h4 ((hcnd4 t).mp h)) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (posAt_keep V c t h1 h4).symm
      · by_cases h4 : t.val % 8 = (t.val / 8 + 4) % 8
        ·
          -- LP
          rw [show (simDat V c).leavesExact 0 t = owns (c : Thread nD τ) (ms0 t) fullShare ((simDat V c).after 0 t) from by
            unfold Dat.leavesExact; rw [simLive0 t], simDat_after0]
          rw [show (simDat V c).leavesExact 1 t = owns (c : Thread nD τ) (ms1 t) fullShare ((simDat V c).after 1 t) from by
            unfold Dat.leavesExact; rw [simLive1 t], simDat_after1]
          rw [show (simDat V c).leavesExact 2 t = owns (c : Thread nD τ) (ms2 t) fullShare ((simDat V c).after 2 t) from by
            unfold Dat.leavesExact; rw [simLive2 t ((hcnd5 t).mpr h5)], simDat_after2]
          rw [show (simDat V c).leavesExact 3 t = owns (c : Thread nD τ) (ms3 t) fullShare ((simDat V c).after 3 t) from by
            unfold Dat.leavesExact; rw [simLive3 t ((hcnd5 t).mpr h5)], simDat_after3]
          have hz : t.val ≠ 0 := by omega
          rw [simPhi_castSucc V c t, PhiS_pos V c _ _ hz]
          iintro ⟨⟨⟨Hr0, Hr1, Hr2, Hr3, HS0, HS1⟩, Hg⟩, Ho, ⟨%d0, H0⟩, ⟨%d1, H1⟩, ⟨%d2, H2⟩, ⟨%d3, H3⟩⟩
          iapply ((simRun_LP c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) ((hcnd4 t).mpr h4) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt))).2.2.2.2 Set.univ _)
          isplitl [H0]; · iexact H0
          isplitl [H1]; · iexact H1
          isplitl [H2]; · iexists _; iexact H2
          isplitl [H3]; · iexists _; iexact H3
          isplitl [HS0]; · iexact HS0
          isplitl [HS1]; · iexact HS1
          iintro ⟨H0, H1, ⟨%e2, H2⟩, ⟨%e3, H3⟩, ⟨%es0, HS0⟩, ⟨%es1, HS1⟩⟩
          isplitl [Hr0 Hr1 Hr2 Hr3 HS0 HS1 Hg]
          · isplitr [Hg]
            · isplitl [Hr0]; · iexact Hr0
              isplitl [Hr1]; · iexact Hr1
              isplitl [Hr2]; · iexact Hr2
              isplitl [Hr3]; · iexact Hr3
              isplitl [HS0]
              · unfold owns; iexists _; isplitr
                swap; · iexact HS0
                ipureintro; exact (accVal_LP c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) ((hcnd4 t).mpr h4) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (accAt_NO V c t h1 h2).symm
              unfold owns; iexists _; isplitr
              swap; · iexact HS1
              ipureintro; exact (posVal_LP c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) ((hcnd4 t).mpr h4) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (posAt_P V c t h4).symm
            iexact Hg
          isplitl [Ho]; · iexact Ho
          isplitl [H0]; · iexact H0
          isplitl [H1]; · iexact H1
          isplitl [H2]
          · unfold owns; iexists _; isplitr
            swap; · iexact H2
            ipureintro; exact (out2Val_LP c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) ((hcnd4 t).mpr h4) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (accAt_NO V c t h1 h2).symm
          unfold owns; iexists _; isplitr
          swap; · iexact H3
          ipureintro; exact (out3Val_LP c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) ((hcnd4 t).mpr h4) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (posAt_P V c t h4).symm
        ·
          -- LO
          rw [show (simDat V c).leavesExact 0 t = owns (c : Thread nD τ) (ms0 t) fullShare ((simDat V c).after 0 t) from by
            unfold Dat.leavesExact; rw [simLive0 t], simDat_after0]
          rw [show (simDat V c).leavesExact 1 t = owns (c : Thread nD τ) (ms1 t) fullShare ((simDat V c).after 1 t) from by
            unfold Dat.leavesExact; rw [simLive1 t], simDat_after1]
          rw [show (simDat V c).leavesExact 2 t = owns (c : Thread nD τ) (ms2 t) fullShare ((simDat V c).after 2 t) from by
            unfold Dat.leavesExact; rw [simLive2 t ((hcnd5 t).mpr h5)], simDat_after2]
          rw [show (simDat V c).leavesExact 3 t = owns (c : Thread nD τ) (ms3 t) fullShare ((simDat V c).after 3 t) from by
            unfold Dat.leavesExact; rw [simLive3 t ((hcnd5 t).mpr h5)], simDat_after3]
          have hz : t.val ≠ 0 := by omega
          rw [simPhi_castSucc V c t, PhiS_pos V c _ _ hz]
          iintro ⟨⟨⟨Hr0, Hr1, Hr2, Hr3, HS0, HS1⟩, Hg⟩, Ho, ⟨%d0, H0⟩, ⟨%d1, H1⟩, ⟨%d2, H2⟩, ⟨%d3, H3⟩⟩
          iapply ((simRun_LO c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) (fun h => h4 ((hcnd4 t).mp h)) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt))).2.2.2.2 Set.univ _)
          isplitl [H0]; · iexact H0
          isplitl [H1]; · iexact H1
          isplitl [H2]; · iexists _; iexact H2
          isplitl [H3]; · iexists _; iexact H3
          isplitl [HS0]; · iexact HS0
          isplitl [HS1]; · iexact HS1
          iintro ⟨H0, H1, ⟨%e2, H2⟩, ⟨%e3, H3⟩, ⟨%es0, HS0⟩, HS1⟩
          isplitl [Hr0 Hr1 Hr2 Hr3 HS0 HS1 Hg]
          · isplitr [Hg]
            · isplitl [Hr0]; · iexact Hr0
              isplitl [Hr1]; · iexact Hr1
              isplitl [Hr2]; · iexact Hr2
              isplitl [Hr3]; · iexact Hr3
              isplitl [HS0]
              · unfold owns; iexists _; isplitr
                swap; · iexact HS0
                ipureintro; exact (accVal_LO c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) (fun h => h4 ((hcnd4 t).mp h)) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (accAt_NO V c t h1 h2).symm
              rw [posAt_keep V c t h1 h4]; iexact HS1
            iexact Hg
          isplitl [Ho]; · iexact Ho
          isplitl [H0]; · iexact H0
          isplitl [H1]; · iexact H1
          isplitl [H2]
          · unfold owns; iexists _; isplitr
            swap; · iexact H2
            ipureintro; exact (out2Val_LO c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) (fun h => h4 ((hcnd4 t).mp h)) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (accAt_NO V c t h1 h2).symm
          unfold owns; iexists _; isplitr
          swap; · iexact H3
          ipureintro; exact (out3Val_LO c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) (fun h => h4 ((hcnd4 t).mp h)) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (posAt_keep V c t h1 h4).symm
    · by_cases h2 : t.val / 8 = t.val % 8
      · have h4 : ¬ t.val % 8 = (t.val / 8 + 4) % 8 := by omega
        -- MD
        rw [show (simDat V c).leavesExact 0 t = owns (c : Thread nD τ) (ms0 t) fullShare ((simDat V c).after 0 t) from by
          unfold Dat.leavesExact; rw [simLive0 t], simDat_after0]
        rw [show (simDat V c).leavesExact 1 t = owns (c : Thread nD τ) (ms1 t) fullShare ((simDat V c).after 1 t) from by
          unfold Dat.leavesExact; rw [simLive1 t], simDat_after1]
        rw [Dat.leavesExact_idle (simDat V c) 2 t (simIdle2 t (fun h => h5 ((hcnd5 t).mp h))) (simNoFlush2 t (fun h => h5 ((hcnd5 t).mp h)))]
        rw [Dat.leavesExact_idle (simDat V c) 3 t (simIdle3 t (fun h => h5 ((hcnd5 t).mp h))) (simNoFlush3 t (fun h => h5 ((hcnd5 t).mp h)))]
        have hz : t.val ≠ 0 := by omega
        rw [simPhi_castSucc V c t, PhiS_pos V c _ _ hz]
        iintro ⟨⟨⟨Hr0, Hr1, Hr2, Hr3, HS0, HS1⟩, Hg⟩, Ho, ⟨%d0, H0⟩, ⟨%d1, H1⟩, ⟨%d2, H2⟩, ⟨%d3, H3⟩⟩
        iapply ((simRun_MD c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) ((hcnd2 t).mpr h2) (fun h => ((hcnd3 t).mp h) h2) (fun h => h4 ((hcnd4 t).mp h)) (fun h => h5 ((hcnd5 t).mp h)) (simBlk V c 0 t) (simBlk V c 1 t) (accAt V c (t.val - 1) (Nat.lt_of_le_of_lt (Nat.sub_le _ _) t.isLt)) (posAt V c (t.val - 1) (Nat.lt_of_le_of_lt (Nat.sub_le _ _) t.isLt))).2.2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, HS1⟩
        isplitl [Hr0 Hr1 Hr2 Hr3 HS0 HS1 Hg]
        · isplitr [Hg]
          · isplitl [Hr0]; · iexact Hr0
            isplitl [Hr1]; · iexact Hr1
            isplitl [Hr2]; · iexact Hr2
            isplitl [Hr3]; · iexact Hr3
            isplitl [HS0]
            · unfold owns; iexists _; isplitr
              swap; · iexact HS0
              ipureintro; exact (accVal_MD c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) ((hcnd2 t).mpr h2) (fun h => ((hcnd3 t).mp h) h2) (fun h => h4 ((hcnd4 t).mp h)) (fun h => h5 ((hcnd5 t).mp h)) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (accAt_ND V c t h1 h2).symm
            rw [posAt_keep V c t h1 h4]; iexact HS1
          iexact Hg
        isplitl [Ho]; · iexact Ho
        isplitl [H0]; · iexact H0
        isplitl [H1]; · iexact H1
        isplitl [H2]; · iexists _; iexact H2
        iexists _; iexact H3
      · by_cases h4 : t.val % 8 = (t.val / 8 + 4) % 8
        ·
          -- MP
          rw [show (simDat V c).leavesExact 0 t = owns (c : Thread nD τ) (ms0 t) fullShare ((simDat V c).after 0 t) from by
            unfold Dat.leavesExact; rw [simLive0 t], simDat_after0]
          rw [show (simDat V c).leavesExact 1 t = owns (c : Thread nD τ) (ms1 t) fullShare ((simDat V c).after 1 t) from by
            unfold Dat.leavesExact; rw [simLive1 t], simDat_after1]
          rw [Dat.leavesExact_idle (simDat V c) 2 t (simIdle2 t (fun h => h5 ((hcnd5 t).mp h))) (simNoFlush2 t (fun h => h5 ((hcnd5 t).mp h)))]
          rw [Dat.leavesExact_idle (simDat V c) 3 t (simIdle3 t (fun h => h5 ((hcnd5 t).mp h))) (simNoFlush3 t (fun h => h5 ((hcnd5 t).mp h)))]
          have hz : t.val ≠ 0 := by omega
          rw [simPhi_castSucc V c t, PhiS_pos V c _ _ hz]
          iintro ⟨⟨⟨Hr0, Hr1, Hr2, Hr3, HS0, HS1⟩, Hg⟩, Ho, ⟨%d0, H0⟩, ⟨%d1, H1⟩, ⟨%d2, H2⟩, ⟨%d3, H3⟩⟩
          iapply ((simRun_MP c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) ((hcnd4 t).mpr h4) (fun h => h5 ((hcnd5 t).mp h)) (simBlk V c 0 t) (simBlk V c 1 t) (accAt V c (t.val - 1) (Nat.lt_of_le_of_lt (Nat.sub_le _ _) t.isLt)) (posAt V c (t.val - 1) (Nat.lt_of_le_of_lt (Nat.sub_le _ _) t.isLt))).2.2.2.2 _ _ Set.univ _)
          isplitl [H0]; · iexact H0
          isplitl [H1]; · iexact H1
          isplitl [H2]; · iexact H2
          isplitl [H3]; · iexact H3
          isplitl [HS0]; · iexact HS0
          isplitl [HS1]; · iexact HS1
          iintro ⟨H0, H1, H2, H3, ⟨%es0, HS0⟩, ⟨%es1, HS1⟩⟩
          isplitl [Hr0 Hr1 Hr2 Hr3 HS0 HS1 Hg]
          · isplitr [Hg]
            · isplitl [Hr0]; · iexact Hr0
              isplitl [Hr1]; · iexact Hr1
              isplitl [Hr2]; · iexact Hr2
              isplitl [Hr3]; · iexact Hr3
              isplitl [HS0]
              · unfold owns; iexists _; isplitr
                swap; · iexact HS0
                ipureintro; exact (accVal_MP c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) ((hcnd4 t).mpr h4) (fun h => h5 ((hcnd5 t).mp h)) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (accAt_NO V c t h1 h2).symm
              unfold owns; iexists _; isplitr
              swap; · iexact HS1
              ipureintro; exact (posVal_MP c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) ((hcnd4 t).mpr h4) (fun h => h5 ((hcnd5 t).mp h)) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (posAt_P V c t h4).symm
            iexact Hg
          isplitl [Ho]; · iexact Ho
          isplitl [H0]; · iexact H0
          isplitl [H1]; · iexact H1
          isplitl [H2]; · iexists _; iexact H2
          iexists _; iexact H3
        ·
          -- MO
          rw [show (simDat V c).leavesExact 0 t = owns (c : Thread nD τ) (ms0 t) fullShare ((simDat V c).after 0 t) from by
            unfold Dat.leavesExact; rw [simLive0 t], simDat_after0]
          rw [show (simDat V c).leavesExact 1 t = owns (c : Thread nD τ) (ms1 t) fullShare ((simDat V c).after 1 t) from by
            unfold Dat.leavesExact; rw [simLive1 t], simDat_after1]
          rw [Dat.leavesExact_idle (simDat V c) 2 t (simIdle2 t (fun h => h5 ((hcnd5 t).mp h))) (simNoFlush2 t (fun h => h5 ((hcnd5 t).mp h)))]
          rw [Dat.leavesExact_idle (simDat V c) 3 t (simIdle3 t (fun h => h5 ((hcnd5 t).mp h))) (simNoFlush3 t (fun h => h5 ((hcnd5 t).mp h)))]
          have hz : t.val ≠ 0 := by omega
          rw [simPhi_castSucc V c t, PhiS_pos V c _ _ hz]
          iintro ⟨⟨⟨Hr0, Hr1, Hr2, Hr3, HS0, HS1⟩, Hg⟩, Ho, ⟨%d0, H0⟩, ⟨%d1, H1⟩, ⟨%d2, H2⟩, ⟨%d3, H3⟩⟩
          iapply ((simRun_MO c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) (fun h => h4 ((hcnd4 t).mp h)) (fun h => h5 ((hcnd5 t).mp h)) (simBlk V c 0 t) (simBlk V c 1 t) (accAt V c (t.val - 1) (Nat.lt_of_le_of_lt (Nat.sub_le _ _) t.isLt)) (posAt V c (t.val - 1) (Nat.lt_of_le_of_lt (Nat.sub_le _ _) t.isLt))).2.2.2.2 _ _ Set.univ _)
          isplitl [H0]; · iexact H0
          isplitl [H1]; · iexact H1
          isplitl [H2]; · iexact H2
          isplitl [H3]; · iexact H3
          isplitl [HS0]; · iexact HS0
          isplitl [HS1]; · iexact HS1
          iintro ⟨H0, H1, H2, H3, ⟨%es0, HS0⟩, HS1⟩
          isplitl [Hr0 Hr1 Hr2 Hr3 HS0 HS1 Hg]
          · isplitr [Hg]
            · isplitl [Hr0]; · iexact Hr0
              isplitl [Hr1]; · iexact Hr1
              isplitl [Hr2]; · iexact Hr2
              isplitl [Hr3]; · iexact Hr3
              isplitl [HS0]
              · unfold owns; iexists _; isplitr
                swap; · iexact HS0
                ipureintro; exact (accVal_MO c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) (fun h => h4 ((hcnd4 t).mp h)) (fun h => h5 ((hcnd5 t).mp h)) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (accAt_NO V c t h1 h2).symm
              rw [posAt_keep V c t h1 h4]; iexact HS1
            iexact Hg
          isplitl [Ho]; · iexact Ho
          isplitl [H0]; · iexact H0
          isplitl [H1]; · iexact H1
          isplitl [H2]; · iexists _; iexact H2
          iexists _; iexact H3

/-- The pipeline's obligation at every point. -/
theorem simObligation (c : Dev nD) : BodyObligation (simDat (F := F) V c) (defs₀ (F := F)) Variants.none () Set.univ := fun t => by
  rw [bigSep_W1, bigSep_W1]
  exact simBody V c t

end Cert.Kernel.Hand

end
-- ==== Proof.KSimShare.lean ====
/-
  The similarity kernel reads the array of unit rows through two of its four windows at once, so the core's three
  distinct buffers behind the windows' arrays — the unit rows and the two outputs, each held whole — are not the four
  windows' arrays one for one. The full share of the unit rows splits into its left and right halves, one for each of the
  two input windows; the two outputs go over as they are. Both directions: splitting when the kernel is entered, and
  joining the halves again when it is left.
-/
import proofs.«102017_j44607530336758_2_alg».proof.Proof.KSimFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Entering: the three buffers, each whole at the full share, give the four windows their arrays, the unit rows half and half. -/
theorem simArrays_of_bufs (c : Dev nD) (Vv : (b : Ref sig .tc) → Buf (Elt F) ((c : Thread nD τ).loc b))
    (Fw : (w : Fin cfg1.W) → Buf (Elt F) ((cfg1.win w).arr.view.loc (c.tc : Thread nD τ)))
    (hF : ∀ w, Fw w = Vv (Pipeline.arrRef spec1 w)) :
    (Pipeline.arrBufs spec1 c Vv : sProp 𝕄) ⊢ (simDat V c).arrays Fw := by
  have hs : ∀ w : Fin cfg1.W, (cfg1.win w).arr.view.set = Finset.univ := fun w => (arr_whole1 w).set_eq_univ
  have hq0 : (simDat V c).share 0 = fullShare.left := rfl
  have hq1 : (simDat V c).share 1 = fullShare.right := rfl
  have hq2 : (simDat V c).share 2 = fullShare := rfl
  have hq3 : (simDat V c).share 3 = fullShare := rfl
  unfold Pipeline.arrBufs Dat.arrays
  rw [bigSep_eq_bigSepL_of_eq [main_v0, main_v1_0, main_v1_1] (by decide) (by decide), bigSep_W1,
    hF 0, hF 1, hF 2, hF 3, hs 0, hs 2, hs 3, hq0, hq1, hq2, hq3]
  show iprop((((c : Thread nD τ).loc main_v0) ↦{fullShare} Vv main_v0) ∗ (((c : Thread nD τ).loc main_v1_0) ↦{fullShare} Vv main_v1_0)
      ∗ (((c : Thread nD τ).loc main_v1_1) ↦{fullShare} Vv main_v1_1))
    ⊢ (iprop((((c : Thread nD τ).loc main_v0) ↦{fullShare.left} Vv main_v0) ∗ (((c : Thread nD τ).loc main_v0) ↦{fullShare.right} Vv main_v0)
      ∗ (((c : Thread nD τ).loc main_v1_0) ↦{fullShare} Vv main_v1_0) ∗ (((c : Thread nD τ).loc main_v1_1) ↦{fullShare} Vv main_v1_1)) : sProp 𝕄)
  iintro ⟨H0, H1, H2⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  iexact H2

/-- Leaving: the two halves of the unit rows join to the full share again, beside the two outputs. -/
theorem simBufs_of_arrays (c : Dev nD) (Vv : (b : Ref sig .tc) → Buf (Elt F) ((c : Thread nD τ).loc b))
    (Fw : (w : Fin cfg1.W) → Buf (Elt F) ((cfg1.win w).arr.view.loc (c.tc : Thread nD τ)))
    (hF : ∀ w, Fw w = Vv (Pipeline.arrRef spec1 w)) :
    (simDat V c).arrays Fw ⊢ (Pipeline.arrBufs spec1 c Vv : sProp 𝕄) := by
  have hs : ∀ w : Fin cfg1.W, (cfg1.win w).arr.view.set = Finset.univ := fun w => (arr_whole1 w).set_eq_univ
  have hq0 : (simDat V c).share 0 = fullShare.left := rfl
  have hq1 : (simDat V c).share 1 = fullShare.right := rfl
  have hq2 : (simDat V c).share 2 = fullShare := rfl
  have hq3 : (simDat V c).share 3 = fullShare := rfl
  unfold Pipeline.arrBufs Dat.arrays
  rw [bigSep_eq_bigSepL_of_eq [main_v0, main_v1_0, main_v1_1] (by decide) (by decide), bigSep_W1,
    hF 0, hF 1, hF 2, hF 3, hs 0, hs 2, hs 3, hq0, hq1, hq2, hq3]
  show (iprop((((c : Thread nD τ).loc main_v0) ↦{fullShare.left} Vv main_v0) ∗ (((c : Thread nD τ).loc main_v0) ↦{fullShare.right} Vv main_v0)
      ∗ (((c : Thread nD τ).loc main_v1_0) ↦{fullShare} Vv main_v1_0) ∗ (((c : Thread nD τ).loc main_v1_1) ↦{fullShare} Vv main_v1_1)) : sProp 𝕄)
    ⊢ iprop((((c : Thread nD τ).loc main_v0) ↦{fullShare} Vv main_v0) ∗ (((c : Thread nD τ).loc main_v1_0) ↦{fullShare} Vv main_v1_0)
      ∗ (((c : Thread nD τ).loc main_v1_1) ↦{fullShare} Vv main_v1_1))
  iintro ⟨Hl, Hr, H1, H2⟩
  isplitl [Hl Hr]
  · iapply (pointsTo_share (PosShare.mem_left_op_right fullShare)).2
    isplitl [Hl]; · iexact Hl
    iexact Hr
  isplitl [H1]; · iexact H1
  iexact H2

end Cert.Kernel.Hand

end
-- ==== Proof.KKRun.lean ====
/-
  The whole kernel program run from the launch to the return, at any float instance: the row-normalising launch, the
  similarity launch, then the host operations. Between two items every buffer of the core that is not a kernel's
  own holds named contents: the launch contents; then the first launch's output array overwritten by what its
  write-backs leave; then the second launch's two output arrays overwritten likewise; then the host operations
  applied. The array of unit rows is read by the second launch through two windows at once: it is split in two
  halves when that launch is entered and joined again when it is left.
-/
import proofs.«102017_j44607530336758_2_alg».proof.Proof.Gen.Kernel.Launch
import proofs.«102017_j44607530336758_2_alg».proof.Proof.Gen.Kernel.Skeleton
import proofs.«102017_j44607530336758_2_alg».proof.Proof.Gen.Kernel.Points
import proofs.«102017_j44607530336758_2_alg».proof.Proof.KNormRegion
import proofs.«102017_j44607530336758_2_alg».proof.Proof.KSimFrame
import proofs.«102017_j44607530336758_2_alg».proof.Proof.KSimShare
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-- After the last point the invariant gives back what the pipeline handed over: the running buffers' contents are forgotten. -/
theorem simPhi_last (V : (c : Dev nD) → (b : Ref sig .tc) → Buf (Elt F) ((c : Thread nD τ).loc b)) (c : Dev nD) :
    (simDat V c).Φ (Fin.last cfg1.N) ⊢ Pipeline.ΦA spec1 c := by
  have hne : (Fin.last cfg1.N).val ≠ 0 := by rw [Fin.val_last]; have : cfg1.N = 64 := N_1; omega
  rw [show (simDat V c).Φ (Fin.last cfg1.N) = PhiS V c (Fin.last cfg1.N).val (Nat.le_of_lt_succ (Fin.last cfg1.N).isLt) from rfl,
    PhiS_pos V c _ _ hne, PhiA1_eq]
  iintro ⟨⟨Hr0, Hr1, Hr2, Hr3, HS0, HS1⟩, Hg⟩
  isplitr [Hg]
  · isplitl [Hr0]; · iexact Hr0
    isplitl [Hr1]; · iexact Hr1
    isplitl [Hr2]; · iexact Hr2
    isplitl [Hr3]; · iexact Hr3
    isplitl [HS0]; · iexists _; iexact HS0
    iexists _; iexact HS1
  iexact Hg

variable (m : (ℓ : Loc nD τ sig) → Buf (Elt F) ℓ) (ρ : Dev nD → PrngReg)

/-! ## The buffers' contents between items -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the normalising launch: its arrays at what its write-backs leave, every other buffer as before. -/
def W1 (c : Dev nD) : Valuation τ sig (Elt F) :=
  Pipeline.withArrays spec0 c (W0 m ρ c) fun w => (normDat (V0 m ρ) c).arrAt w cfg0.N
theorem W1_arr (c : Dev nD) (w : Fin cfg0.W) :
    W1 m ρ c (Proc.devRef .tc (Pipeline.arrRef spec0 w)) = (normDat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem normExit_arr (c : Dev nD) (w : Fin cfg0.W) : (normDat (V0 m ρ) c).arrAt w cfg0.N = V1 m ρ c (Pipeline.arrRef spec0 w) :=
  (W1_arr m ρ c w).symm
theorem normExit_rest (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the similarity launch: its two output arrays at what its write-backs leave, every other buffer as before. -/
def W2 (c : Dev nD) : Valuation τ sig (Elt F) :=
  Function.update (Function.update (W1 m ρ c) (Proc.devRef .tc main_v1_0) ((simDat (V1 m ρ) c).arrAt 2 cfg1.N))
    (Proc.devRef .tc main_v1_1) ((simDat (V1 m ρ) c).arrAt 3 cfg1.N)
abbrev V2 : (c : Dev nD) → (b : Ref sig .tc) → Buf (Elt F) ((c : Thread nD τ).loc b) := fun c b => W2 m ρ c b
theorem W2_out2 (c : Dev nD) : W2 m ρ c (Proc.devRef .tc main_v1_0) = (simDat (V1 m ρ) c).arrAt 2 cfg1.N := by
  unfold W2
  rw [Function.update_of_ne (StableHlo.devRef_ne_of_ne (by decide) : (Proc.devRef .tc main_v1_0 : DevRef τ sig) ≠ Proc.devRef .tc main_v1_1), Function.update_self]
theorem W2_out3 (c : Dev nD) : W2 m ρ c (Proc.devRef .tc main_v1_1) = (simDat (V1 m ρ) c).arrAt 3 cfg1.N := by
  unfold W2; rw [Function.update_self]
theorem W2_of_ne (c : Dev nD) (b : Ref sig .tc) (h0 : b ≠ main_v1_0) (h1 : b ≠ main_v1_1) :
    W2 m ρ c (Proc.devRef .tc b) = W1 m ρ c (Proc.devRef .tc b) := by
  unfold W2
  rw [Function.update_of_ne (StableHlo.devRef_ne_of_ne h1 : (Proc.devRef .tc b : DevRef τ sig) ≠ Proc.devRef .tc main_v1_1),
    Function.update_of_ne (StableHlo.devRef_ne_of_ne h0 : (Proc.devRef .tc b : DevRef τ sig) ≠ Proc.devRef .tc main_v1_0)]
/-- After the host operations. -/
abbrev W3 : Dev nD → Valuation τ sig (Elt F) := fun c => StableHlo.after hostOps2 (W2 m ρ c)

/-- The argument ends as launched: no host operation and no launch writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide) (by decide)
    _ = W0 m ρ c (Proc.devRef .tc main_arg0) := (W1_arr m ρ c 0).trans (((normDat (V0 m ρ) c).arrAt_in 0 rfl _).trans (normDat_A (V0 m ρ) c 0))
    _ = m ((c : Thread nD τ).loc main_arg0) := rfl

/-! ## The proof data of the two launches and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => normDat (V0 m ρ) c
  | ⟨1, _⟩ => fun c => simDat (V1 m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)

theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host operations as one item, from the contents the similarity launch leaves. -/
abbrev tailSeg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m ρ) R

/-- The last state without what is owed: every buffer at the last contents. -/
abbrev Tend (c : Dev nD) : sProp 𝕄 := StableHlo.held (c : Thread nD τ) (Pipeline.ucRefs τ sig) (W3 m ρ c)

/-! ## The normalising launch as an item -/

set_option backward.isDefEq.respectTransparency.types false in
def normSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (normObligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (normExit_arr m ρ c) (normExit_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The similarity launch as an item -/

theorem simEntry_arr (c : Dev nD) : ∀ w, (simDat (V1 m ρ) c).arrAt w 0 = V1 m ρ c (Pipeline.arrRef spec1 w) := fun _ => rfl

theorem simExit_arr (c : Dev nD) : ∀ w, (simDat (V1 m ρ) c).arrAt w cfg1.N = V2 m ρ c (Pipeline.arrRef spec1 w)
  | ⟨0, _⟩ => (((simDat (V1 m ρ) c).arrAt_in 0 rfl _).trans (simDat_A (V1 m ρ) c 0)).trans (W2_of_ne m ρ c main_v0 (by decide) (by decide)).symm
  | ⟨1, _⟩ => (((simDat (V1 m ρ) c).arrAt_in 1 rfl _).trans (simDat_A (V1 m ρ) c 1)).trans (W2_of_ne m ρ c main_v0 (by decide) (by decide)).symm
  | ⟨2, _⟩ => (W2_out2 m ρ c).symm
  | ⟨3, _⟩ => (W2_out3 m ρ c).symm

theorem simExit_rest (c : Dev nD) : ∀ b, b ∉ Finset.univ.image (Pipeline.arrRef spec1) → V2 m ρ c b = V1 m ρ c b :=
  fun b hb => W2_of_ne m ρ c b
    (fun e => hb (Finset.mem_image.mpr ⟨2, Finset.mem_univ _, e.symm⟩))
    (fun e => hb (Finset.mem_image.mpr ⟨3, Finset.mem_univ _, e.symm⟩))

set_option backward.isDefEq.respectTransparency.types false in
def simSeg : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (simObligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit : (StableHlo.held (c : Thread nD τ) (Pipeline.ucRefs τ sig) (W1 m ρ c) : sProp 𝕄)
        ⊢ iprop((pdats m ρ 1 c).arrays ((pdats m ρ 1 c).arrAt · 0) ∗ Pipeline.unscopedRest spec1 c (V1 m ρ c)) := by
      rw [← Pipeline.unscopedBufs_held (Ix := Unit) (Name := ℕ) (U := UR sig nD τ) (Lvl := ℕ) c (W1 m ρ c),
        Pipeline.unscopedBufs_split₀ (Ix := Unit) (Name := ℕ) (U := UR sig nD τ) (Lvl := ℕ) cfgs 1 winFacts₀1.arr_unscoped c (V1 m ρ c)]
      exact sep_mono (simArrays_of_bufs (V1 m ρ) c (V1 m ρ c) _ (simEntry_arr m ρ c)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (simPhi_last (V1 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V1 m ρ c))
        ⊢ (StableHlo.held (c : Thread nD τ) (Pipeline.ucRefs τ sig) (W2 m ρ c) : sProp 𝕄) := by
      rw [← Pipeline.unscopedBufs_held (Ix := Unit) (Name := ℕ) (U := UR sig nD τ) (Lvl := ℕ) c (W2 m ρ c),
        Pipeline.unscopedBufs_split₀ (Ix := Unit) (Name := ℕ) (U := UR sig nD τ) (Lvl := ℕ) cfgs 1 winFacts₀1.arr_unscoped c (V2 m ρ c)]
      refine sep_mono (simBufs_of_arrays (V1 m ρ) c (V2 m ρ c) _ (simExit_arr m ρ c)) (Entails.of_eq ?_)
      unfold Pipeline.unscopedRest
      exact bigSep_congr fun b hb => by rw [simExit_rest m ρ c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its three items, and the run -/

abbrev segs : List (Pipeline.Seg (pcfgs (F := F)) adm (pdats m ρ) () defs₀ 𝒱₀ L lv) :=
  [ .region (normSeg m ρ), .region (simSeg m ρ), .host (tailSeg m ρ) ]

theorem main_run (c : Dev nD) : main (F := F) c = Pipeline.Seg.run (segs m ρ) := (main_chain c).trans (by chain_rfl)

set_option backward.isDefEq.respectTransparency.types false in
/-- From any memory with zero counters every weakly fair execution of the program ends, nothing faulting, with every
    buffer of the core that is not a kernel's own at the contents named above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      show iprop(StableHlo.held (c : Thread nD τ) (Pipeline.ucRefs τ sig) (W3 m ρ c) ∗ SI s') ⊢ _
      unfold StableHlo.held
      iintro ⟨Hh, HSI⟩
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.NormRegion.lean ====
/-
  The row-normalising kernel (the first of the program's two kernels) at every grid point: one block of 1024 rows
  of the input is loaded, every row divided by its length (bounded below), and the block stored, rounded to
  half-width words, into the output window's buffer. Stated at any float instance and at ANY contents V of the
  core's buffers when the kernel is entered: what the output window's buffer holds after the body (normOut), the
  body's run, the per-point proof data and the obligation the pipeline asks at each of the eight grid points.
-/
import proofs.«102017_j44607530336758_2_alg».proof.Proof.Gen.KernelIdeal.Launch
import proofs.«102017_j44607530336758_2_alg».proof.Proof.Gen.KernelIdeal.Skeleton
import proofs.«102017_j44607530336758_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block of 1024 rows at grid point t, read off its array as the kernel finds it. -/
def normBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's buffer holds its block at every point (it is fetched at every point). -/
theorem normBefore_of {c : Dev nD} (dat : Dat τ (Elt F) Unit ℕ (UR sig nD τ) ℕ cfg0 c) (hA : dat.A 0 = V c (Pipeline.arrRef spec0 0))
    (hafter : ∀ t, dat.after 0 t = normBlk V c 0 t) (t : Fin cfg0.N) (d) : dat.before 0 t d = normBlk V c 0 t :=
  (dat.before_in_eq_fetched 0 rfl (fun _ => rfl) (fun _ _ _ => rfl) (fun t => by rw [hafter]; unfold Dat.blockOf normBlk; rw [hA]; try rfl) t d).trans
    (by unfold Dat.fetched Dat.blockOf normBlk; rw [hA]; try rfl)

/-- The whole block: the one rectangle the body loads and stores through. -/
abbrev wholeBlk : Rect S1024x256 := Rect.unit (s := S1024x256) ![0, 0] S1024x256.size inb_S1024x256_S1024x256_0_0

/-- The output window's buffer after the body: its one store, of the normalised rows of the loaded block. -/
def normOut (x0 : Vec F S1024x256 .f32) : Vec F S1024x256 .bf16 :=
  View.canon [⟨wholeBlk, k0_pay1 (View.ld x0 wholeBlk)⟩]

/-- The one store covers the buffer. -/
theorem normCover (p0 : Vec F S1024x256 .bf16) (y : S1024x256.Idx) :
    ∃ pc ∈ ([⟨wholeBlk, p0⟩] : List (View.Piece (Elt F) S1024x256 .bf16)), y ∈ pc.1.set :=
  View.cover_of_tiled [⟨wholeBlk, p0⟩] S1024x256.size (by rfl) y

set_option maxHeartbeats 1000000 in
/-- The body on whole buffers, the input's at x0 and the output's at anything, runs to the input's unchanged and the
    output's at normOut x0. -/
theorem normKernel (c : Dev nD) (E : Set ℕ) (i : grid0.Coords) (arg1 : Memref sig .tc .vmem S1024x256 .f32) (harg1 : arg1.IsWhole)
    (arg2 : Memref sig .tc .vmem S1024x256 .bf16) (harg2 : arg2.IsWhole)
    (x0 : Vec F S1024x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (normOut x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (normCover _)

/-- The proof data of the normalising pipeline on core c: the arrays as the kernel finds them; after the body the
    input's buffer at its block, the output's at the normalised block; nothing else touched, nothing owed. -/
def normDat (c : Dev nD) : Dat τ (Elt F) Unit ℕ (UR sig nD τ) ℕ cfg0 c where
  A w := V c (Pipeline.arrRef spec0 w)
  after w t := match w with
    | ⟨0, _⟩ => normBlk V c 0 t
    | ⟨1, _⟩ => normOut (normBlk V c 0 t)
  Φ _ := Pipeline.ΦA spec0 c
  q _ := fullShare
  owed _ := 0

theorem normDat_A (c : Dev nD) (w : Fin cfg0.W) : (normDat V c).A w = V c (Pipeline.arrRef spec0 w) := by
  dsimp only [normDat]
theorem normDat_after0 (c : Dev nD) (t : Fin cfg0.N) : (normDat V c).after 0 t = normBlk V c 0 t := by dsimp only [normDat]
theorem normDat_after1 (c : Dev nD) (t : Fin cfg0.N) : (normDat V c).after 1 t = normOut (normBlk V c 0 t) := by dsimp only [normDat]

theorem normDat_before0 (c : Dev nD) (t : Fin cfg0.N) (d) : (normDat V c).before 0 t d = normBlk V c 0 t :=
  normBefore_of V (normDat V c) (normDat_A V c 0) (normDat_after0 V c) t d

/-- What the body is called with at point t, -/
def normPre (c : Dev nD) (t : Fin cfg0.N) : sProp 𝕄 :=
  iprop((normDat V c).Φ t.castSucc ∗ (normDat V c).owesAt () t.castSucc
    ∗ (∃ d, owns (c : Thread nD τ) (st0_0 t) fullShare ((normDat V c).before 0 t d))
    ∗ (∃ d, owns (c : Thread nD τ) (st0_1 t) fullShare ((normDat V c).before 1 t d)))

/-- and what it returns. -/
def normPost (c : Dev nD) (t : Fin cfg0.N) : sProp 𝕄 :=
  iprop((normDat V c).Φ t.succ ∗ (normDat V c).owesAt () t.succ
    ∗ owns (c : Thread nD τ) (st0_0 t) fullShare ((normDat V c).after 0 t)
    ∗ owns (c : Thread nD τ) (st0_1 t) fullShare ((normDat V c).after 1 t))

theorem normBody (c : Dev nD) (t : Fin cfg0.N) :
    normPre V c t ⊢ wp frame (wpE (defs₀ (F := F)) Variants.none c none) Set.univ (bodyAt0 t) (fun _ => normPost V c t) := by
  unfold normPre normPost bodyAt0
  simp only [normDat_before0]
  rw [show (normDat V c).Φ t.succ = (normDat V c).Φ t.castSucc from rfl,
    show (normDat V c).owesAt () t.succ = (normDat V c).owesAt () t.castSucc from rfl,
    normDat_after0, normDat_after1]
  iintro ⟨HΦ, Ho, ⟨%d0, H0⟩, ⟨%d1, H1⟩⟩
  iapply (normKernel c Set.univ _ _ _ _ _ (normBlk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's obligation at every point. -/
theorem normObligation (c : Dev nD) : BodyObligation (normDat (F := F) V c) (defs₀ (F := F)) Variants.none () Set.univ := fun t => by
  rw [bigSep_W0, bigSep_W0]
  exact normBody V c t

end Cert.KernelIdeal.Hand

end
-- ==== Proof.SimRuns.lean ====
/-
  The similarity kernel's body at a grid point, in each of the nine combinations of its five conditions that the
  8 × 8 grid meets (first / middle / last column tile of a row tile; diagonal tile, partner tile, or neither):
  the conditions in closed form over the grid, and per combination the body's run on whole buffers with the pieces
  its stores leave in the two outputs, the running denominator and the positives.
-/
import proofs.«102017_j44607530336758_2_alg».proof.Proof.Gen.KernelIdeal.Launch
import proofs.«102017_j44607530336758_2_alg».proof.Proof.Gen.KernelIdeal.Skeleton
import proofs.«102017_j44607530336758_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's five conditions, from the grid coordinates (row tile i 0, column tile i 1) -/

/-- First column tile: the two running buffers are reset. -/
abbrev cnd1 (i : grid1.Coords) : Prop := (Scalar.cmpi .ne (Scalar.extui (Scalar.cmpi .eq (BitVec.ofNat 32 (i 1).val) 0#32)) 0#32) = 1#1
/-- Diagonal tile: the row's own column is left out of the sum. -/
abbrev cnd2 (i : grid1.Coords) : Prop := (Scalar.cmpi .ne (Scalar.extui (Scalar.cmpi .eq (BitVec.ofNat 32 (i 0).val) (BitVec.ofNat 32 (i 1).val))) 0#32) = 1#1
/-- Off the diagonal: the whole tile is summed. -/
abbrev cnd3 (i : grid1.Coords) : Prop := (Scalar.cmpi .ne (Scalar.extui (Scalar.cmpi .ne (BitVec.ofNat 32 (i 0).val) (BitVec.ofNat 32 (i 1).val))) 0#32) = 1#1
/-- The partner tile, four column tiles further on cyclically: the positives are taken. -/
abbrev cnd4 (i : grid1.Coords) : Prop :=
  let arg0 : BitVec 32 := BitVec.ofNat 32 (i 0).val
  let arg1 : BitVec 32 := BitVec.ofNat 32 (i 1).val
  let v21 : BitVec 32 := Scalar.addi arg0 4#32
  let v22 : BitVec 1 := Scalar.cmpi .eq 8#32 0#32
  let v23 : BitVec 32 := Scalar.select v22 1#32 8#32
  let v24 : BitVec 32 := Scalar.remsi v21 v23
  let v25 : BitVec 1 := Scalar.cmpi .ne v24 0#32
  let v26 : BitVec 1 := Scalar.cmpi .slt v24 0#32
  let v27 : BitVec 1 := Scalar.cmpi .slt v23 0#32
  let v28 : BitVec 1 := Scalar.xori v26 v27
  let v29 : BitVec 1 := Scalar.andi v28 v25
  let v30 : BitVec 32 := Scalar.addi v24 v23
  let v31 : BitVec 32 := Scalar.select v29 v30 v24
  let v32 : BitVec 1 := Scalar.cmpi .eq arg1 v31
  let v33 : BitVec 32 := Scalar.extui v32
  let v34 : BitVec 1 := Scalar.cmpi .ne v33 0#32
  v34 = 1#1
/-- Last column tile: the two running buffers are copied to the outputs. -/
abbrev cnd5 (i : grid1.Coords) : Prop := k1_cond5 i = 1#1

/-- The conditions in closed form over the 64 grid points (point t is row tile t / 8, column tile t % 8). -/
theorem hcnd1 : ∀ t : Fin cfg1.N, cnd1 (grid1.coords t) ↔ t.val % 8 = 0 :=
  (by decide +kernel : ∀ t : Fin grid1.N, cnd1 (grid1.coords t) ↔ t.val % 8 = 0)
theorem hcnd2 : ∀ t : Fin cfg1.N, cnd2 (grid1.coords t) ↔ t.val / 8 = t.val % 8 :=
  (by decide +kernel : ∀ t : Fin grid1.N, cnd2 (grid1.coords t) ↔ t.val / 8 = t.val % 8)
theorem hcnd3 : ∀ t : Fin cfg1.N, cnd3 (grid1.coords t) ↔ ¬ t.val / 8 = t.val % 8 :=
  (by decide +kernel : ∀ t : Fin grid1.N, cnd3 (grid1.coords t) ↔ ¬ t.val / 8 = t.val % 8)
theorem hcnd4 : ∀ t : Fin cfg1.N, cnd4 (grid1.coords t) ↔ t.val % 8 = (t.val / 8 + 4) % 8 :=
  (by decide +kernel : ∀ t : Fin grid1.N, cnd4 (grid1.coords t) ↔ t.val % 8 = (t.val / 8 + 4) % 8)
theorem hcnd5 : ∀ t : Fin cfg1.N, cnd5 (grid1.coords t) ↔ t.val % 8 = 7 :=
  (by decide +kernel : ∀ t : Fin grid1.N, cnd5 (grid1.coords t) ↔ t.val % 8 = 7)

/-! ## The nine runs -/

set_option maxHeartbeats 2000000 in
/-- The body at the first column tile of a row tile, on the diagonal: the pieces it leaves in the two output buffers, the running denominator and the positives
    (found by the run), with the run itself. -/
noncomputable def simRun_FD (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cnd1 i) (hc2 : cnd2 i) (hc3 : ¬cnd3 i) (hc4 : ¬cnd4 i) (hc5 : ¬cnd5 i)
    (x0 : Vec F S1024x256 .bf16) (x1 : Vec F S8192x256 .bf16) :
    Σ' (L2 L3 LS0 : List (View.Piece (Elt F) S1024x1 .f32)), { LS1 : List (View.Piece (Elt F) S1024x1 .f32) //
      ∀ (xi2 xi3 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ (∃ d, owns (c : Thread nD τ) arg6 fullShare d)
            ∗ (∃ d, owns (c : Thread nD τ) arg7 fullShare d)
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__sim_kernel i arg2 harg2 arg3 harg3 arg4 harg4 arg5 harg5 arg6 harg6 arg7 harg7) K } := by
  refine ⟨[], [], ?_, ?_, fun xi2 xi3 E K => ?run⟩
  case run =>
    simp only [cc1__sim_kernel_eq_skeleton, k1_part1_eq_skeleton]; unfold cc1__sim_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

set_option maxHeartbeats 2000000 in
/-- The body at the first column tile of a row tile, the partner tile: the pieces it leaves in the two output buffers, the running denominator and the positives
    (found by the run), with the run itself. -/
noncomputable def simRun_FP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cnd1 i) (hc2 : ¬cnd2 i) (hc3 : cnd3 i) (hc4 : cnd4 i) (hc5 : ¬cnd5 i)
    (x0 : Vec F S1024x256 .bf16) (x1 : Vec F S8192x256 .bf16) :
    Σ' (L2 L3 LS0 : List (View.Piece (Elt F) S1024x1 .f32)), { LS1 : List (View.Piece (Elt F) S1024x1 .f32) //
      ∀ (xi2 xi3 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ (∃ d, owns (c : Thread nD τ) arg6 fullShare d)
            ∗ (∃ d, owns (c : Thread nD τ) arg7 fullShare d)
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__sim_kernel i arg2 harg2 arg3 harg3 arg4 harg4 arg5 harg5 arg6 harg6 arg7 harg7) K } := by
  refine ⟨[], [], ?_, ?_, fun xi2 xi3 E K => ?run⟩
  case run =>
    simp only [cc1__sim_kernel_eq_skeleton, k1_part1_eq_skeleton]; unfold cc1__sim_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

set_option maxHeartbeats 2000000 in
/-- The body at the first column tile of a row tile, neither the diagonal nor the partner: the pieces it leaves in the two output buffers, the running denominator and the positives
    (found by the run), with the run itself. -/
noncomputable def simRun_FO (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cnd1 i) (hc2 : ¬cnd2 i) (hc3 : cnd3 i) (hc4 : ¬cnd4 i) (hc5 : ¬cnd5 i)
    (x0 : Vec F S1024x256 .bf16) (x1 : Vec F S8192x256 .bf16) :
    Σ' (L2 L3 LS0 : List (View.Piece (Elt F) S1024x1 .f32)), { LS1 : List (View.Piece (Elt F) S1024x1 .f32) //
      ∀ (xi2 xi3 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ (∃ d, owns (c : Thread nD τ) arg6 fullShare d)
            ∗ (∃ d, owns (c : Thread nD τ) arg7 fullShare d)
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__sim_kernel i arg2 harg2 arg3 harg3 arg4 harg4 arg5 harg5 arg6 harg6 arg7 harg7) K } := by
  refine ⟨[], [], ?_, ?_, fun xi2 xi3 E K => ?run⟩
  case run =>
    simp only [cc1__sim_kernel_eq_skeleton, k1_part1_eq_skeleton]; unfold cc1__sim_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

set_option maxHeartbeats 2000000 in
/-- The body at a middle column tile of a row tile, on the diagonal: the pieces it leaves in the two output buffers, the running denominator and the positives
    (found by the run), with the run itself. -/
noncomputable def simRun_MD (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : cnd2 i) (hc3 : ¬cnd3 i) (hc4 : ¬cnd4 i) (hc5 : ¬cnd5 i)
    (x0 : Vec F S1024x256 .bf16) (x1 : Vec F S8192x256 .bf16) (xs0 xs1 : Vec F S1024x1 .f32) :
    Σ' (L2 L3 LS0 : List (View.Piece (Elt F) S1024x1 .f32)), { LS1 : List (View.Piece (Elt F) S1024x1 .f32) //
      ∀ (xi2 xi3 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ owns (c : Thread nD τ) arg6 fullShare xs0
            ∗ owns (c : Thread nD τ) arg7 fullShare xs1
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ (∃ f, arg6.view.loc (c : Thread nD τ) ↦[arg6.view.set]{fullShare} arg6.view.writes (Elt F) f LS0)
                ∗ owns (c : Thread nD τ) arg7 fullShare xs1) -∗ K ⟨⟩))
          ⊢ wp frame (wpE (defs₀ (F := F)) Variants.none c none) E (cc1__sim_kernel i arg2 harg2 arg3 harg3 arg4 harg4 arg5 harg5 arg6 harg6 arg7 harg7) K } := by
  refine ⟨[], [], ?_, [], fun xi2 xi3 E K => ?run⟩
  case run =>
    simp only [cc1__sim_kernel_eq_skeleton, k1_part1_eq_skeleton]; unfold cc1__sim_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; isplitr; · ipureintro; exact harg7.read_unread _
    iexact HS1

set_option maxHeartbeats 2000000 in
/-- The body at a middle column tile of a row tile, the partner tile: the pieces it leaves in the two output buffers, the running denominator and the positives
    (found by the run), with the run itself. -/
noncomputable def simRun_MP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : cnd4 i) (hc5 : ¬cnd5 i)
    (x0 : Vec F S1024x256 .bf16) (x1 : Vec F S8192x256 .bf16) (xs0 xs1 : Vec F S1024x1 .f32) :
    Σ' (L2 L3 LS0 : List (View.Piece (Elt F) S1024x1 .f32)), { LS1 : List (View.Piece (Elt F) S1024x1 .f32) //
      ∀ (xi2 xi3 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ owns (c : Thread nD τ) arg6 fullShare xs0
            ∗ owns (c : Thread nD τ) arg7 fullShare xs1
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__sim_kernel i arg2 harg2 arg3 harg3 arg4 harg4 arg5 harg5 arg6 harg6 arg7 harg7) K } := by
  refine ⟨[], [], ?_, ?_, fun xi2 xi3 E K => ?run⟩
  case run =>
    simp only [cc1__sim_kernel_eq_skeleton, k1_part1_eq_skeleton]; unfold cc1__sim_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

set_option maxHeartbeats 2000000 in
/-- The body at a middle column tile of a row tile, neither the diagonal nor the partner: the pieces it leaves in the two output buffers, the running denominator and the positives
    (found by the run), with the run itself. -/
noncomputable def simRun_MO (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : ¬cnd4 i) (hc5 : ¬cnd5 i)
    (x0 : Vec F S1024x256 .bf16) (x1 : Vec F S8192x256 .bf16) (xs0 xs1 : Vec F S1024x1 .f32) :
    Σ' (L2 L3 LS0 : List (View.Piece (Elt F) S1024x1 .f32)), { LS1 : List (View.Piece (Elt F) S1024x1 .f32) //
      ∀ (xi2 xi3 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ owns (c : Thread nD τ) arg6 fullShare xs0
            ∗ owns (c : Thread nD τ) arg7 fullShare xs1
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ (∃ f, arg6.view.loc (c : Thread nD τ) ↦[arg6.view.set]{fullShare} arg6.view.writes (Elt F) f LS0)
                ∗ owns (c : Thread nD τ) arg7 fullShare xs1) -∗ K ⟨⟩))
          ⊢ wp frame (wpE (defs₀ (F := F)) Variants.none c none) E (cc1__sim_kernel i arg2 harg2 arg3 harg3 arg4 harg4 arg5 harg5 arg6 harg6 arg7 harg7) K } := by
  refine ⟨[], [], ?_, [], fun xi2 xi3 E K => ?run⟩
  case run =>
    simp only [cc1__sim_kernel_eq_skeleton, k1_part1_eq_skeleton]; unfold cc1__sim_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; isplitr; · ipureintro; exact harg7.read_unread _
    iexact HS1

set_option maxHeartbeats 2000000 in
/-- The body at the last column tile of a row tile, on the diagonal: the pieces it leaves in the two output buffers, the running denominator and the positives
    (found by the run), with the run itself. -/
noncomputable def simRun_LD (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : cnd2 i) (hc3 : ¬cnd3 i) (hc4 : ¬cnd4 i) (hc5 : cnd5 i)
    (x0 : Vec F S1024x256 .bf16) (x1 : Vec F S8192x256 .bf16) (xs0 xs1 : Vec F S1024x1 .f32) :
    Σ' (L2 L3 LS0 : List (View.Piece (Elt F) S1024x1 .f32)), { LS1 : List (View.Piece (Elt F) S1024x1 .f32) //
      ∀ (E : Set ℕ) (K : PUnit → sProp 𝕄),
        iprop(owns (c : Thread nD τ) arg2 fullShare x0
            ∗ owns (c : Thread nD τ) arg3 fullShare x1
            ∗ (∃ d, owns (c : Thread nD τ) arg4 fullShare d)
            ∗ (∃ d, owns (c : Thread nD τ) arg5 fullShare d)
            ∗ owns (c : Thread nD τ) arg6 fullShare xs0
            ∗ owns (c : Thread nD τ) arg7 fullShare xs1
            ∗ (iprop(owns (c : Thread nD τ) arg2 fullShare x0
                ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ owns (c : Thread nD τ) arg7 fullShare xs1) -∗ K ⟨⟩))
          ⊢ wp frame (wpE (defs₀ (F := F)) Variants.none c none) E (cc1__sim_kernel i arg2 harg2 arg3 harg3 arg4 harg4 arg5 harg5 arg6 harg6 arg7 harg7) K } := by
  refine ⟨?_, ?_, ?_, [], fun E K => ?run⟩
  case run =>
    simp only [cc1__sim_kernel_eq_skeleton, k1_part1_eq_skeleton]; unfold cc1__sim_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    isplitl [HS0]
    · iexists _; iexact HS0
    iexists _; isplitr; · ipureintro; exact harg7.read_unread _
    iexact HS1

set_option maxHeartbeats 2000000 in
/-- The body at the last column tile of a row tile, the partner tile: the pieces it leaves in the two output buffers, the running denominator and the positives
    (found by the run), with the run itself. -/
noncomputable def simRun_LP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : cnd4 i) (hc5 : cnd5 i)
    (x0 : Vec F S1024x256 .bf16) (x1 : Vec F S8192x256 .bf16) (xs0 xs1 : Vec F S1024x1 .f32) :
    Σ' (L2 L3 LS0 : List (View.Piece (Elt F) S1024x1 .f32)), { LS1 : List (View.Piece (Elt F) S1024x1 .f32) //
      ∀ (E : Set ℕ) (K : PUnit → sProp 𝕄),
        iprop(owns (c : Thread nD τ) arg2 fullShare x0
            ∗ owns (c : Thread nD τ) arg3 fullShare x1
            ∗ (∃ d, owns (c : Thread nD τ) arg4 fullShare d)
            ∗ (∃ d, owns (c : Thread nD τ) arg5 fullShare d)
            ∗ owns (c : Thread nD τ) arg6 fullShare xs0
            ∗ owns (c : Thread nD τ) arg7 fullShare xs1
            ∗ (iprop(owns (c : Thread nD τ) arg2 fullShare x0
                ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__sim_kernel i arg2 harg2 arg3 harg3 arg4 harg4 arg5 harg5 arg6 harg6 arg7 harg7) K } := by
  refine ⟨?_, ?_, ?_, ?_, fun E K => ?run⟩
  case run =>
    simp only [cc1__sim_kernel_eq_skeleton, k1_part1_eq_skeleton]; unfold cc1__sim_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    isplitl [HS0]
    · iexists _; iexact HS0
    iexists _; iexact HS1

set_option maxHeartbeats 2000000 in
/-- The body at the last column tile of a row tile, neither the diagonal nor the partner: the pieces it leaves in the two output buffers, the running denominator and the positives
    (found by the run), with the run itself. -/
noncomputable def simRun_LO (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : ¬cnd4 i) (hc5 : cnd5 i)
    (x0 : Vec F S1024x256 .bf16) (x1 : Vec F S8192x256 .bf16) (xs0 xs1 : Vec F S1024x1 .f32) :
    Σ' (L2 L3 LS0 : List (View.Piece (Elt F) S1024x1 .f32)), { LS1 : List (View.Piece (Elt F) S1024x1 .f32) //
      ∀ (E : Set ℕ) (K : PUnit → sProp 𝕄),
        iprop(owns (c : Thread nD τ) arg2 fullShare x0
            ∗ owns (c : Thread nD τ) arg3 fullShare x1
            ∗ (∃ d, owns (c : Thread nD τ) arg4 fullShare d)
            ∗ (∃ d, owns (c : Thread nD τ) arg5 fullShare d)
            ∗ owns (c : Thread nD τ) arg6 fullShare xs0
            ∗ owns (c : Thread nD τ) arg7 fullShare xs1
            ∗ (iprop(owns (c : Thread nD τ) arg2 fullShare x0
                ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ owns (c : Thread nD τ) arg7 fullShare xs1) -∗ K ⟨⟩))
          ⊢ wp frame (wpE (defs₀ (F := F)) Variants.none c none) E (cc1__sim_kernel i arg2 harg2 arg3 harg3 arg4 harg4 arg5 harg5 arg6 harg6 arg7 harg7) K } := by
  refine ⟨?_, ?_, ?_, [], fun E K => ?run⟩
  case run =>
    simp only [cc1__sim_kernel_eq_skeleton, k1_part1_eq_skeleton]; unfold cc1__sim_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    isplitl [HS0]
    · iexists _; iexact HS0
    iexists _; isplitr; · ipureintro; exact harg7.read_unread _
    iexact HS1

end Cert.KernelIdeal.Hand

end
-- ==== Proof.SimVals.lean ====
/-
  What the similarity kernel's body leaves in its buffers, in each of its nine cases, read back as values: the
  running denominator after the body is the tile's row sums (the diagonal left out on the diagonal tile) added to
  what it held — to zero on the first column tile —; the positives are the row-wise dot products on the partner
  tile, zero after the first tile otherwise, else what they were; and on the last column tile the two outputs
  hold the two running buffers.
-/
import proofs.«102017_j44607530336758_2_alg».proof.Proof.Gen.KernelIdeal.Launch
import proofs.«102017_j44607530336758_2_alg».proof.Proof.Gen.KernelIdeal.Skeleton
import proofs.«102017_j44607530336758_2_alg».proof.Proof.Gen.KernelIdeal.Points
import proofs.«102017_j44607530336758_2_alg».proof.Proof.SimRuns
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a rank-2 rectangle. -/
theorem zeroOff2 : (![0, 0] : Fin 2 → Nat) = fun _ => 0 := funext fun a => by match a with | ⟨0, _⟩ => rfl | ⟨1, _⟩ => rfl

/-- The 1024 rows of the whole array of unit rows that column tile (i 1) holds: what the body loads at its offset. -/
def tileOfRows (i : grid1.Coords) (x1 : Vec F S8192x256 .bf16) : Vec F S1024x256 .bf16 :=
  View.ld x1 (Rect.unit (s := S8192x256) (k1_off1 i) S1024x256.size (k1_off1_inb i))

/-! ### FD -/

theorem accVal_FD (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cnd1 i) (hc2 : cnd2 i) (hc3 : ¬cnd3 i) (hc4 : ¬cnd4 i) (hc5 : ¬cnd5 i)
    (x0 : Vec F S1024x256 .bf16) (x1 : Vec F S8192x256 .bf16)
    (f : arg6.view.ty.Contents (Elt F)) :
    arg6.view.read (Elt F) (arg6.view.writes (Elt F) f (simRun_FD c i arg2 harg2 arg3 harg3 arg4 harg4 arg5 harg5 arg6 harg6 arg7 harg7 hc1 hc2 hc3 hc4 hc5 x0 x1).2.2.1) = k1_pay6 x0 (tileOfRows i x1) (k1_pay1 (F := F)) := by
  rw [View.read_writes_eq_canon _ _ _ (View.cover_of_tiledL _ S1024x1.size (by sl_kernel_rfl))]
  unfold simRun_FD; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem posVal_FD (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cnd1 i) (hc2 : cnd2 i) (hc3 : ¬cnd3 i) (hc4 : ¬cnd4 i) (hc5 : ¬cnd5 i)
    (x0 : Vec F S1024x256 .bf16) (x1 : Vec F S8192x256 .bf16)
    (f : arg7.view.ty.Contents (Elt F)) :
    arg7.view.read (Elt F) (arg7.view.writes (Elt F) f (simRun_FD c i arg2 harg2 arg3 harg3 arg4 harg4 arg5 harg5 arg6 harg6 arg7 harg7 hc1 hc2 hc3 hc4 hc5 x0 x1).2.2.2.1) = (k1_pay2 (F := F)) := by
  rw [View.read_writes_eq_canon _ _ _ (View.cover_of_tiledL _ S1024x1.size (by sl_kernel_rfl))]
  unfold simRun_FD; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

/-! ### FP -/

theorem accVal_FP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cnd1 i) (hc2 : ¬cnd2 i) (hc3 : cnd3 i) (hc4 : cnd4 i) (hc5 : ¬cnd5 i)
    (x0 : Vec F S1024x256 .bf16) (x1 : Vec F S8192x256 .bf16)
    (f : arg6.view.ty.Contents (Elt F)) :
    arg6.view.read (Elt F) (arg6.view.writes (Elt F) f (simRun_FP c i arg2 harg2 arg3 harg3 arg4 harg4 arg5 harg5 arg6 harg6 arg7 harg7 hc1 hc2 hc3 hc4 hc5 x0 x1).2.2.1) = k1_pay7 x0 (tileOfRows i x1) (k1_pay1 (F := F)) := by
  rw [View.read_writes_eq_canon _ _ _ (View.cover_of_tiledL _ S1024x1.size (by sl_kernel_rfl))]
  unfold simRun_FP; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem posVal_FP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cnd1 i) (hc2 : ¬cnd2 i) (hc3 : cnd3 i) (hc4 : cnd4 i) (hc5 : ¬cnd5 i)
    (x0 : Vec F S1024x256 .bf16) (x1 : Vec F S8192x256 .bf16)
    (f : arg7.view.ty.Contents (Elt F)) :
    arg7.view.read (Elt F) (arg7.view.writes (Elt F) f (simRun_FP c i arg2 harg2 arg3 harg3 arg4 harg4 arg5 harg5 arg6 harg6 arg7 harg7 hc1 hc2 hc3 hc4 hc5 x0 x1).2.2.2.1) = k1_pay8 x0 (tileOfRows i x1) := by
  rw [View.read_writes_eq_canon _ _ _ (View.cover_of_tiledL _ S1024x1.size (by sl_kernel_rfl))]
  unfold simRun_FP; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

/-! ### FO -/

theorem accVal_FO (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cnd1 i) (hc2 : ¬cnd2 i) (hc3 : cnd3 i) (hc4 : ¬cnd4 i) (hc5 : ¬cnd5 i)
    (x0 : Vec F S1024x256 .bf16) (x1 : Vec F S8192x256 .bf16)
    (f : arg6.view.ty.Contents (Elt F)) :
    arg6.view.read (Elt F) (arg6.view.writes (Elt F) f (simRun_FO c i arg2 harg2 arg3 harg3 arg4 harg4 arg5 harg5 arg6 harg6 arg7 harg7 hc1 hc2 hc3 hc4 hc5 x0 x1).2.2.1) = k1_pay7 x0 (tileOfRows i x1) (k1_pay1 (F := F)) := by
  rw [View.read_writes_eq_canon _ _ _ (View.cover_of_tiledL _ S1024x1.size (by sl_kernel_rfl))]
  unfold simRun_FO; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem posVal_FO (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cnd1 i) (hc2 : ¬cnd2 i) (hc3 : cnd3 i) (hc4 : ¬cnd4 i) (hc5 : ¬cnd5 i)
    (x0 : Vec F S1024x256 .bf16) (x1 : Vec F S8192x256 .bf16)
    (f : arg7.view.ty.Contents (Elt F)) :
    arg7.view.read (Elt F) (arg7.view.writes (Elt F) f (simRun_FO c i arg2 harg2 arg3 harg3 arg4 harg4 arg5 harg5 arg6 harg6 arg7 harg7 hc1 hc2 hc3 hc4 hc5 x0 x1).2.2.2.1) = (k1_pay2 (F := F)) := by
  rw [View.read_writes_eq_canon _ _ _ (View.cover_of_tiledL _ S1024x1.size (by sl_kernel_rfl))]
  unfold simRun_FO; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

/-! ### MD -/

theorem accVal_MD (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : cnd2 i) (hc3 : ¬cnd3 i) (hc4 : ¬cnd4 i) (hc5 : ¬cnd5 i)
    (x0 : Vec F S1024x256 .bf16) (x1 : Vec F S8192x256 .bf16) (xs0 xs1 : Vec F S1024x1 .f32)
    (f : arg6.view.ty.Contents (Elt F)) :
    arg6.view.read (Elt F) (arg6.view.writes (Elt F) f (simRun_MD c i arg2 harg2 arg3 harg3 arg4 harg4 arg5 harg5 arg6 harg6 arg7 harg7 hc1 hc2 hc3 hc4 hc5 x0 x1 xs0 xs1).2.2.1) = k1_pay6 x0 (tileOfRows i x1) xs0 := by
  rw [View.read_writes_eq_canon _ _ _ (View.cover_of_tiledL _ S1024x1.size (by sl_kernel_rfl))]
  unfold simRun_MD; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

/-! ### MP -/

theorem accVal_MP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : cnd4 i) (hc5 : ¬cnd5 i)
    (x0 : Vec F S1024x256 .bf16) (x1 : Vec F S8192x256 .bf16) (xs0 xs1 : Vec F S1024x1 .f32)
    (f : arg6.view.ty.Contents (Elt F)) :
    arg6.view.read (Elt F) (arg6.view.writes (Elt F) f (simRun_MP c i arg2 harg2 arg3 harg3 arg4 harg4 arg5 harg5 arg6 harg6 arg7 harg7 hc1 hc2 hc3 hc4 hc5 x0 x1 xs0 xs1).2.2.1) = k1_pay7 x0 (tileOfRows i x1) xs0 := by
  rw [View.read_writes_eq_canon _ _ _ (View.cover_of_tiledL _ S1024x1.size (by sl_kernel_rfl))]
  unfold simRun_MP; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem posVal_MP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : cnd4 i) (hc5 : ¬cnd5 i)
    (x0 : Vec F S1024x256 .bf16) (x1 : Vec F S8192x256 .bf16) (xs0 xs1 : Vec F S1024x1 .f32)
    (f : arg7.view.ty.Contents (Elt F)) :
    arg7.view.read (Elt F) (arg7.view.writes (Elt F) f (simRun_MP c i arg2 harg2 arg3 harg3 arg4 harg4 arg5 harg5 arg6 harg6 arg7 harg7 hc1 hc2 hc3 hc4 hc5 x0 x1 xs0 xs1).2.2.2.1) = k1_pay8 x0 (tileOfRows i x1) := by
  rw [View.read_writes_eq_canon _ _ _ (View.cover_of_tiledL _ S1024x1.size (by sl_kernel_rfl))]
  unfold simRun_MP; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

/-! ### MO -/

theorem accVal_MO (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : ¬cnd4 i) (hc5 : ¬cnd5 i)
    (x0 : Vec F S1024x256 .bf16) (x1 : Vec F S8192x256 .bf16) (xs0 xs1 : Vec F S1024x1 .f32)
    (f : arg6.view.ty.Contents (Elt F)) :
    arg6.view.read (Elt F) (arg6.view.writes (Elt F) f (simRun_MO c i arg2 harg2 arg3 harg3 arg4 harg4 arg5 harg5 arg6 harg6 arg7 harg7 hc1 hc2 hc3 hc4 hc5 x0 x1 xs0 xs1).2.2.1) = k1_pay7 x0 (tileOfRows i x1) xs0 := by
  rw [View.read_writes_eq_canon _ _ _ (View.cover_of_tiledL _ S1024x1.size (by sl_kernel_rfl))]
  unfold simRun_MO; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

/-! ### LD -/

theorem accVal_LD (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : cnd2 i) (hc3 : ¬cnd3 i) (hc4 : ¬cnd4 i) (hc5 : cnd5 i)
    (x0 : Vec F S1024x256 .bf16) (x1 : Vec F S8192x256 .bf16) (xs0 xs1 : Vec F S1024x1 .f32)
    (f : arg6.view.ty.Contents (Elt F)) :
    arg6.view.read (Elt F) (arg6.view.writes (Elt F) f (simRun_LD c i arg2 harg2 arg3 harg3 arg4 harg4 arg5 harg5 arg6 harg6 arg7 harg7 hc1 hc2 hc3 hc4 hc5 x0 x1 xs0 xs1).2.2.1) = k1_pay6 x0 (tileOfRows i x1) xs0 := by
  rw [View.read_writes_eq_canon _ _ _ (View.cover_of_tiledL _ S1024x1.size (by sl_kernel_rfl))]
  unfold simRun_LD; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem out2Val_LD (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : cnd2 i) (hc3 : ¬cnd3 i) (hc4 : ¬cnd4 i) (hc5 : cnd5 i)
    (x0 : Vec F S1024x256 .bf16) (x1 : Vec F S8192x256 .bf16) (xs0 xs1 : Vec F S1024x1 .f32)
    (f : arg4.view.ty.Contents (Elt F)) :
    arg4.view.read (Elt F) (arg4.view.writes (Elt F) f (simRun_LD c i arg2 harg2 arg3 harg3 arg4 harg4 arg5 harg5 arg6 harg6 arg7 harg7 hc1 hc2 hc3 hc4 hc5 x0 x1 xs0 xs1).1) = k1_pay6 x0 (tileOfRows i x1) xs0 := by
  rw [View.read_writes_eq_canon _ _ _ (View.cover_of_tiledL _ S1024x1.size (by sl_kernel_rfl))]
  unfold simRun_LD; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem out3Val_LD (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : cnd2 i) (hc3 : ¬cnd3 i) (hc4 : ¬cnd4 i) (hc5 : cnd5 i)
    (x0 : Vec F S1024x256 .bf16) (x1 : Vec F S8192x256 .bf16) (xs0 xs1 : Vec F S1024x1 .f32)
    (f : arg5.view.ty.Contents (Elt F)) :
    arg5.view.read (Elt F) (arg5.view.writes (Elt F) f (simRun_LD c i arg2 harg2 arg3 harg3 arg4 harg4 arg5 harg5 arg6 harg6 arg7 harg7 hc1 hc2 hc3 hc4 hc5 x0 x1 xs0 xs1).2.1) = xs1 := by
  rw [View.read_writes_eq_canon _ _ _ (View.cover_of_tiledL _ S1024x1.size (by sl_kernel_rfl))]
  unfold simRun_LD; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

/-! ### LP -/

theorem accVal_LP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : cnd4 i) (hc5 : cnd5 i)
    (x0 : Vec F S1024x256 .bf16) (x1 : Vec F S8192x256 .bf16) (xs0 xs1 : Vec F S1024x1 .f32)
    (f : arg6.view.ty.Contents (Elt F)) :
    arg6.view.read (Elt F) (arg6.view.writes (Elt F) f (simRun_LP c i arg2 harg2 arg3 harg3 arg4 harg4 arg5 harg5 arg6 harg6 arg7 harg7 hc1 hc2 hc3 hc4 hc5 x0 x1 xs0 xs1).2.2.1) = k1_pay7 x0 (tileOfRows i x1) xs0 := by
  rw [View.read_writes_eq_canon _ _ _ (View.cover_of_tiledL _ S1024x1.size (by sl_kernel_rfl))]
  unfold simRun_LP; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem posVal_LP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : cnd4 i) (hc5 : cnd5 i)
    (x0 : Vec F S1024x256 .bf16) (x1 : Vec F S8192x256 .bf16) (xs0 xs1 : Vec F S1024x1 .f32)
    (f : arg7.view.ty.Contents (Elt F)) :
    arg7.view.read (Elt F) (arg7.view.writes (Elt F) f (simRun_LP c i arg2 harg2 arg3 harg3 arg4 harg4 arg5 harg5 arg6 harg6 arg7 harg7 hc1 hc2 hc3 hc4 hc5 x0 x1 xs0 xs1).2.2.2.1) = k1_pay8 x0 (tileOfRows i x1) := by
  rw [View.read_writes_eq_canon _ _ _ (View.cover_of_tiledL _ S1024x1.size (by sl_kernel_rfl))]
  unfold simRun_LP; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem out2Val_LP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : cnd4 i) (hc5 : cnd5 i)
    (x0 : Vec F S1024x256 .bf16) (x1 : Vec F S8192x256 .bf16) (xs0 xs1 : Vec F S1024x1 .f32)
    (f : arg4.view.ty.Contents (Elt F)) :
    arg4.view.read (Elt F) (arg4.view.writes (Elt F) f (simRun_LP c i arg2 harg2 arg3 harg3 arg4 harg4 arg5 harg5 arg6 harg6 arg7 harg7 hc1 hc2 hc3 hc4 hc5 x0 x1 xs0 xs1).1) = k1_pay7 x0 (tileOfRows i x1) xs0 := by
  rw [View.read_writes_eq_canon _ _ _ (View.cover_of_tiledL _ S1024x1.size (by sl_kernel_rfl))]
  unfold simRun_LP; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem out3Val_LP (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : cnd4 i) (hc5 : cnd5 i)
    (x0 : Vec F S1024x256 .bf16) (x1 : Vec F S8192x256 .bf16) (xs0 xs1 : Vec F S1024x1 .f32)
    (f : arg5.view.ty.Contents (Elt F)) :
    arg5.view.read (Elt F) (arg5.view.writes (Elt F) f (simRun_LP c i arg2 harg2 arg3 harg3 arg4 harg4 arg5 harg5 arg6 harg6 arg7 harg7 hc1 hc2 hc3 hc4 hc5 x0 x1 xs0 xs1).2.1) = k1_pay8 x0 (tileOfRows i x1) := by
  rw [View.read_writes_eq_canon _ _ _ (View.cover_of_tiledL _ S1024x1.size (by sl_kernel_rfl))]
  unfold simRun_LP; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

/-! ### LO -/

theorem accVal_LO (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : ¬cnd4 i) (hc5 : cnd5 i)
    (x0 : Vec F S1024x256 .bf16) (x1 : Vec F S8192x256 .bf16) (xs0 xs1 : Vec F S1024x1 .f32)
    (f : arg6.view.ty.Contents (Elt F)) :
    arg6.view.read (Elt F) (arg6.view.writes (Elt F) f (simRun_LO c i arg2 harg2 arg3 harg3 arg4 harg4 arg5 harg5 arg6 harg6 arg7 harg7 hc1 hc2 hc3 hc4 hc5 x0 x1 xs0 xs1).2.2.1) = k1_pay7 x0 (tileOfRows i x1) xs0 := by
  rw [View.read_writes_eq_canon _ _ _ (View.cover_of_tiledL _ S1024x1.size (by sl_kernel_rfl))]
  unfold simRun_LO; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem out2Val_LO (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : ¬cnd4 i) (hc5 : cnd5 i)
    (x0 : Vec F S1024x256 .bf16) (x1 : Vec F S8192x256 .bf16) (xs0 xs1 : Vec F S1024x1 .f32)
    (f : arg4.view.ty.Contents (Elt F)) :
    arg4.view.read (Elt F) (arg4.view.writes (Elt F) f (simRun_LO c i arg2 harg2 arg3 harg3 arg4 harg4 arg5 harg5 arg6 harg6 arg7 harg7 hc1 hc2 hc3 hc4 hc5 x0 x1 xs0 xs1).1) = k1_pay7 x0 (tileOfRows i x1) xs0 := by
  rw [View.read_writes_eq_canon _ _ _ (View.cover_of_tiledL _ S1024x1.size (by sl_kernel_rfl))]
  unfold simRun_LO; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

theorem out3Val_LO (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cnd1 i) (hc2 : ¬cnd2 i) (hc3 : cnd3 i) (hc4 : ¬cnd4 i) (hc5 : cnd5 i)
    (x0 : Vec F S1024x256 .bf16) (x1 : Vec F S8192x256 .bf16) (xs0 xs1 : Vec F S1024x1 .f32)
    (f : arg5.view.ty.Contents (Elt F)) :
    arg5.view.read (Elt F) (arg5.view.writes (Elt F) f (simRun_LO c i arg2 harg2 arg3 harg3 arg4 harg4 arg5 harg5 arg6 harg6 arg7 harg7 hc1 hc2 hc3 hc4 hc5 x0 x1 xs0 xs1).2.1) = xs1 := by
  rw [View.read_writes_eq_canon _ _ _ (View.cover_of_tiledL _ S1024x1.size (by sl_kernel_rfl))]
  unfold simRun_LO; dsimp only; sl_unfold_words
  (simp only [View.canon_cons_unit_zero (S := S1024x1) zeroOff2, View.canon_unit_zero (S := S1024x1) zeroOff2,
    View.readCov_unit_zero (S := S1024x1) _ zeroOff2, View.readAt_eq_ld, harg2.read_unread, harg3.read_unread, harg6.read_unread,
    harg7.read_unread, View.ld_unit_zero (S := S1024x256) zeroOff2, View.ld_unit_zero (S := S1024x1) zeroOff2, tileOfRows]) <;> rfl

end Cert.KernelIdeal.Hand

end
-- ==== Proof.SimFrame.lean ====
/-
  The similarity kernel over its 8 × 8 grid, at any float instance and at ANY contents V of the core's buffers when
  the kernel is entered. Grid point t is row tile t / 8 and column tile t % 8. After point t the running
  denominator holds the sum, over the column tiles 0 … t % 8 of the row tile, of each tile's row sums (the row's own
  column left out on the diagonal tile), and the positives hold the row-wise dot products with the partner tile once
  that tile has been met (zero before it): accAt and posAt, by recursion on the point. The two outputs are stored
  at the last column tile only, with what the two running buffers then hold. The per-point proof data, the
  invariant that carries the two running buffers from one point to the next, and the obligation the pipeline asks
  at each of the 64 points, by cases on where the point sits.
-/
import proofs.«102017_j44607530336758_2_alg».proof.Proof.Gen.KernelIdeal.Launch
import proofs.«102017_j44607530336758_2_alg».proof.Proof.Gen.KernelIdeal.Skeleton
import proofs.«102017_j44607530336758_2_alg».proof.Proof.Gen.KernelIdeal.Points
import proofs.«102017_j44607530336758_2_alg».proof.Proof.SimVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the kernel finds it: window 0's is the row tile's 1024
    unit rows, window 1's the whole array of unit rows. -/
def simBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's buffer holds its block at every point, fetched there or not. -/
theorem simBefore0_of {c : Dev nD} (dat : Dat τ (Elt F) Unit ℕ (UR sig nD τ) ℕ cfg1 c) (hA : dat.A 0 = V c (Pipeline.arrRef spec1 0))
    (hafter : ∀ t, dat.after 0 t = simBlk V c 0 t) (t : Fin cfg1.N) (d) : dat.before 0 t d = simBlk V c 0 t :=
  (dat.before_in_eq_fetched 0 rfl (fun _ => rfl) (fun _ _ _ => rfl) (fun t => by rw [hafter]; unfold Dat.blockOf simBlk; rw [hA]; try rfl) t d).trans
    (by unfold Dat.fetched Dat.blockOf simBlk; rw [hA]; try rfl)
theorem simBefore1_of {c : Dev nD} (dat : Dat τ (Elt F) Unit ℕ (UR sig nD τ) ℕ cfg1 c) (hA : dat.A 1 = V c (Pipeline.arrRef spec1 1))
    (hafter : ∀ t, dat.after 1 t = simBlk V c 1 t) (t : Fin cfg1.N) (d) : dat.before 1 t d = simBlk V c 1 t :=
  (dat.before_in_eq_fetched 1 rfl (fun _ => rfl) (fun _ _ _ => rfl) (fun t => by rw [hafter]; unfold Dat.blockOf simBlk; rw [hA]; try rfl) t d).trans
    (by unfold Dat.fetched Dat.blockOf simBlk; rw [hA]; try rfl)

/-! ## The buffers the body is called with at a point -/

abbrev ms0 (t : Fin cfg1.N) : Memref sig .tc .vmem S1024x256 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x256 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1 .f32 := win1_3.stage (cfg1.slots t 3)
abbrev hs3 (t : Fin cfg1.N) : (ms3 t).IsWhole := hstage1_3 ((cfg1.slots t 3).cast nbuf1_3)
/-- The running denominator's and the positives' buffers. -/
abbrev sc0 : Memref sig .tc .vmem S1024x1 .f32 := Memref.whole cc1_scratch0
abbrev sc1 : Memref sig .tc .vmem S1024x1 .f32 := Memref.whole cc1_scratch1

/-! ## Where the windows are idle -/

theorem simLive0 : ∀ t : Fin cfg1.N, cfg1.idle 0 (grid1.coords t) = false := by decide +kernel
theorem simLive1 : ∀ t : Fin cfg1.N, cfg1.idle 1 (grid1.coords t) = false := by decide +kernel
theorem simLive2 : ∀ t : Fin cfg1.N, cnd5 (grid1.coords t) → cfg1.idle 2 (grid1.coords t) = false := by decide +kernel
theorem simLive3 : ∀ t : Fin cfg1.N, cnd5 (grid1.coords t) → cfg1.idle 3 (grid1.coords t) = false := by decide +kernel
theorem simIdle2 : ∀ t : Fin cfg1.N, ¬cnd5 (grid1.coords t) → cfg1.idle 2 (grid1.coords t) = true := by decide +kernel
theorem simIdle3 : ∀ t : Fin cfg1.N, ¬cnd5 (grid1.coords t) → cfg1.idle 3 (grid1.coords t) = true := by decide +kernel
theorem simNoFlush2 : ∀ t : Fin cfg1.N, ¬cnd5 (grid1.coords t) → (cfg1.win 2).flush t = false := by decide +kernel
theorem simNoFlush3 : ∀ t : Fin cfg1.N, ¬cnd5 (grid1.coords t) → (cfg1.win 3).flush t = false := by decide +kernel

/-! ## The two running buffers after each point -/

/-- The running denominator after point t, from what it held before: on the first column tile it starts from zero;
    the tile's row sums are added, the diagonal left out on the diagonal tile. -/
def accStep (c : Dev nD) (t : Fin cfg1.N) (a : Vec F S1024x1 .f32) : Vec F S1024x1 .f32 :=
  if t.val / 8 = t.val % 8 then k1_pay6 (simBlk V c 0 t) (tileOfRows (grid1.coords t) (simBlk V c 1 t)) (if t.val % 8 = 0 then k1_pay1 (F := F) else a)
  else k1_pay7 (simBlk V c 0 t) (tileOfRows (grid1.coords t) (simBlk V c 1 t)) (if t.val % 8 = 0 then k1_pay1 (F := F) else a)

/-- The positives after point t: the dot products on the partner tile; zero after the first column tile otherwise;
    else what they were. -/
def posStep (c : Dev nD) (t : Fin cfg1.N) (p : Vec F S1024x1 .f32) : Vec F S1024x1 .f32 :=
  if t.val % 8 = (t.val / 8 + 4) % 8 then k1_pay8 (simBlk V c 0 t) (tileOfRows (grid1.coords t) (simBlk V c 1 t))
  else if t.val % 8 = 0 then k1_pay2 (F := F) else p

def accAt (c : Dev nD) : (n : ℕ) → n < cfg1.N → Vec F S1024x1 .f32
  | 0, hn => accStep V c ⟨0, hn⟩ (k1_pay1 (F := F))
  | n + 1, hn => accStep V c ⟨n + 1, hn⟩ (accAt c n (Nat.lt_of_succ_lt hn))

def posAt (c : Dev nD) : (n : ℕ) → n < cfg1.N → Vec F S1024x1 .f32
  | 0, hn => posStep V c ⟨0, hn⟩ (k1_pay2 (F := F))
  | n + 1, hn => posStep V c ⟨n + 1, hn⟩ (posAt c n (Nat.lt_of_succ_lt hn))

theorem accAt_pos (c : Dev nD) (t : Fin cfg1.N) (hz : t.val ≠ 0) :
    accAt V c t.val t.isLt = accStep V c t (accAt V c (t.val - 1) (Nat.lt_of_le_of_lt (Nat.sub_le _ _) t.isLt)) := by
  obtain ⟨n, hn⟩ := t
  cases n with
  | zero => exact absurd rfl hz
  | succ n => rfl
theorem posAt_pos (c : Dev nD) (t : Fin cfg1.N) (hz : t.val ≠ 0) :
    posAt V c t.val t.isLt = posStep V c t (posAt V c (t.val - 1) (Nat.lt_of_le_of_lt (Nat.sub_le _ _) t.isLt)) := by
  obtain ⟨n, hn⟩ := t
  cases n with
  | zero => exact absurd rfl hz
  | succ n => rfl
theorem accAt_zero (c : Dev nD) (t : Fin cfg1.N) (hz : t.val = 0) :
    accAt V c t.val t.isLt = accStep V c t (k1_pay1 (F := F)) := by
  obtain ⟨n, hn⟩ := t; subst hz; rfl
theorem posAt_zero (c : Dev nD) (t : Fin cfg1.N) (hz : t.val = 0) :
    posAt V c t.val t.isLt = posStep V c t (k1_pay2 (F := F)) := by
  obtain ⟨n, hn⟩ := t; subst hz; rfl

theorem accAt_FD (c : Dev nD) (t : Fin cfg1.N) (h1 : t.val % 8 = 0) (h2 : t.val / 8 = t.val % 8) :
    accAt V c t.val t.isLt = k1_pay6 (simBlk V c 0 t) (tileOfRows (grid1.coords t) (simBlk V c 1 t)) (k1_pay1 (F := F)) := by
  by_cases hz : t.val = 0
  · rw [accAt_zero V c t hz]; unfold accStep; rw [if_pos h2, if_pos h1]
  · rw [accAt_pos V c t hz]; unfold accStep; rw [if_pos h2, if_pos h1]
theorem accAt_FO (c : Dev nD) (t : Fin cfg1.N) (h1 : t.val % 8 = 0) (h2 : ¬ t.val / 8 = t.val % 8) :
    accAt V c t.val t.isLt = k1_pay7 (simBlk V c 0 t) (tileOfRows (grid1.coords t) (simBlk V c 1 t)) (k1_pay1 (F := F)) := by
  by_cases hz : t.val = 0
  · rw [accAt_zero V c t hz]; unfold accStep; rw [if_neg h2, if_pos h1]
  · rw [accAt_pos V c t hz]; unfold accStep; rw [if_neg h2, if_pos h1]
theorem accAt_ND (c : Dev nD) (t : Fin cfg1.N) (h1 : ¬ t.val % 8 = 0) (h2 : t.val / 8 = t.val % 8) :
    accAt V c t.val t.isLt = k1_pay6 (simBlk V c 0 t) (tileOfRows (grid1.coords t) (simBlk V c 1 t)) (accAt V c (t.val - 1) (Nat.lt_of_le_of_lt (Nat.sub_le _ _) t.isLt)) := by
  rw [accAt_pos V c t (fun hz => h1 (by rw [hz]))]; unfold accStep; rw [if_pos h2, if_neg h1]
theorem accAt_NO (c : Dev nD) (t : Fin cfg1.N) (h1 : ¬ t.val % 8 = 0) (h2 : ¬ t.val / 8 = t.val % 8) :
    accAt V c t.val t.isLt = k1_pay7 (simBlk V c 0 t) (tileOfRows (grid1.coords t) (simBlk V c 1 t)) (accAt V c (t.val - 1) (Nat.lt_of_le_of_lt (Nat.sub_le _ _) t.isLt)) := by
  rw [accAt_pos V c t (fun hz => h1 (by rw [hz]))]; unfold accStep; rw [if_neg h2, if_neg h1]
theorem posAt_P (c : Dev nD) (t : Fin cfg1.N) (h4 : t.val % 8 = (t.val / 8 + 4) % 8) :
    posAt V c t.val t.isLt = k1_pay8 (simBlk V c 0 t) (tileOfRows (grid1.coords t) (simBlk V c 1 t)) := by
  by_cases hz : t.val = 0
  · rw [posAt_zero V c t hz]; unfold posStep; rw [if_pos h4]
  · rw [posAt_pos V c t hz]; unfold posStep; rw [if_pos h4]
theorem posAt_F (c : Dev nD) (t : Fin cfg1.N) (h1 : t.val % 8 = 0) (h4 : ¬ t.val % 8 = (t.val / 8 + 4) % 8) :
    posAt V c t.val t.isLt = k1_pay2 (F := F) := by
  by_cases hz : t.val = 0
  · rw [posAt_zero V c t hz]; unfold posStep; rw [if_neg h4, if_pos h1]
  · rw [posAt_pos V c t hz]; unfold posStep; rw [if_neg h4, if_pos h1]
theorem posAt_keep (c : Dev nD) (t : Fin cfg1.N) (h1 : ¬ t.val % 8 = 0) (h4 : ¬ t.val % 8 = (t.val / 8 + 4) % 8) :
    posAt V c t.val t.isLt = (posAt V c (t.val - 1) (Nat.lt_of_le_of_lt (Nat.sub_le _ _) t.isLt)) := by
  rw [posAt_pos V c t (fun hz => h1 (by rw [hz]))]; unfold posStep; rw [if_neg h4, if_neg h1]

/-! ## The invariant between points -/

/-- What the pipeline hands the kernel before the first point: the first kernel's four buffers (which this kernel
    never touches) and the two running buffers, each at anything, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) sc0 fullShare d) ∗ (∃ d, owns (c : Thread nD τ) sc1 fullShare d)) ∗ (∃ r, prngReg c r)) := by
  unfold Pipeline.ΦA; rw [scopedRest1_eq]; simp only [sc0, sc1, owns_whole]; try rfl

/-- Before point n: before the first point whatever the pipeline hands over; afterwards the two running buffers at
    what the point before left in them. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) sc0 fullShare (accAt V c n hn) ∗ owns (c : Thread nD τ) sc1 fullShare (posAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) sc0 fullShare (accAt V c n hn) ∗ owns (c : Thread nD τ) sc1 fullShare (posAt V c n hn)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) sc0 fullShare (accAt V c (n - 1) (by omega)) ∗ owns (c : Thread nD τ) sc1 fullShare (posAt V c (n - 1) (by omega))) ∗ (∃ r, prngReg c r)) := by
  cases n with
  | zero => exact absurd rfl hz
  | succ n => rfl

/-! ## The proof data -/

/-- The array of unit rows is read through two windows at once: each holds half of it. -/
def simDat (c : Dev nD) : Dat τ (Elt F) Unit ℕ (UR sig nD τ) ℕ cfg1 c where
  A w := V c (Pipeline.arrRef spec1 w)
  after w t := match w with
    | ⟨0, _⟩ => simBlk V c 0 t
    | ⟨1, _⟩ => simBlk V c 1 t
    | ⟨2, _⟩ => accAt V c t.val t.isLt
    | ⟨3, _⟩ => posAt V c t.val t.isLt
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem simDat_A (c : Dev nD) (w : Fin cfg1.W) : (simDat V c).A w = V c (Pipeline.arrRef spec1 w) := by
  dsimp only [simDat]
theorem simPhi_castSucc (c : Dev nD) (t : Fin cfg1.N) :
    (simDat V c).Φ t.castSucc = PhiS V c t.val (Nat.le_of_lt t.isLt) := by
  dsimp only [simDat]; simp only [Fin.coe_castSucc]
theorem simDat_after0 (c : Dev nD) (t : Fin cfg1.N) : (simDat V c).after 0 t = simBlk V c 0 t := by dsimp only [simDat]
theorem simDat_after1 (c : Dev nD) (t : Fin cfg1.N) : (simDat V c).after 1 t = simBlk V c 1 t := by dsimp only [simDat]
theorem simDat_after2 (c : Dev nD) (t : Fin cfg1.N) : (simDat V c).after 2 t = accAt V c t.val t.isLt := by dsimp only [simDat]
theorem simDat_after3 (c : Dev nD) (t : Fin cfg1.N) : (simDat V c).after 3 t = posAt V c t.val t.isLt := by dsimp only [simDat]
theorem simBefore0 (c : Dev nD) (t : Fin cfg1.N) (d) : (simDat V c).before 0 t d = simBlk V c 0 t :=
  simBefore0_of V (simDat V c) (simDat_A V c 0) (simDat_after0 V c) t d
theorem simBefore1 (c : Dev nD) (t : Fin cfg1.N) (d) : (simDat V c).before 1 t d = simBlk V c 1 t :=
  simBefore1_of V (simDat V c) (simDat_A V c 1) (simDat_after1 V c) t d

/-! ## The obligation at a point -/

def simPre (c : Dev nD) (t : Fin cfg1.N) : sProp 𝕄 :=
  iprop((simDat V c).Φ t.castSucc ∗ (simDat V c).owesAt () t.castSucc
    ∗ (∃ d, owns (c : Thread nD τ) (ms0 t) fullShare ((simDat V c).before 0 t d))
    ∗ (∃ d, owns (c : Thread nD τ) (ms1 t) fullShare ((simDat V c).before 1 t d))
    ∗ (∃ d, owns (c : Thread nD τ) (ms2 t) fullShare ((simDat V c).before 2 t d))
    ∗ (∃ d, owns (c : Thread nD τ) (ms3 t) fullShare ((simDat V c).before 3 t d)))

def simPost (c : Dev nD) (t : Fin cfg1.N) : sProp 𝕄 :=
  iprop((simDat V c).Φ t.succ ∗ (simDat V c).owesAt () t.succ
    ∗ (simDat V c).leavesExact 0 t
    ∗ (simDat V c).leavesExact 1 t
    ∗ (simDat V c).leavesExact 2 t
    ∗ (simDat V c).leavesExact 3 t)

set_option maxHeartbeats 8000000 in
theorem simBody (c : Dev nD) (t : Fin cfg1.N) :
    simPre V c t ⊢ wp frame (wpE (defs₀ (F := F)) Variants.none c none) Set.univ (bodyAt1 t) (fun _ => simPost V c t) := by
  unfold simPre simPost bodyAt1
  simp only [simBefore0, simBefore1]
  rw [show (simDat V c).owesAt () t.succ = (simDat V c).owesAt () t.castSucc from rfl]
  rw [show (simDat V c).Φ t.succ = PhiS V c (t.val + 1) t.isLt from rfl, PhiS_succ]
  have hN : t.val < 64 := lt_of_lt_of_eq t.isLt (show cfg1.N = 64 from N_1)
  by_cases h1 : t.val % 8 = 0
  · by_cases h2 : t.val / 8 = t.val % 8
    · have h4 : ¬ t.val % 8 = (t.val / 8 + 4) % 8 := by omega
      have h5 : ¬ t.val % 8 = 7 := by omega
      -- FD
      rw [show (simDat V c).leavesExact 0 t = owns (c : Thread nD τ) (ms0 t) fullShare ((simDat V c).after 0 t) from by
        unfold Dat.leavesExact; rw [simLive0 t], simDat_after0]
      rw [show (simDat V c).leavesExact 1 t = owns (c : Thread nD τ) (ms1 t) fullShare ((simDat V c).after 1 t) from by
        unfold Dat.leavesExact; rw [simLive1 t], simDat_after1]
      rw [Dat.leavesExact_idle (simDat V c) 2 t (simIdle2 t (fun h => h5 ((hcnd5 t).mp h))) (simNoFlush2 t (fun h => h5 ((hcnd5 t).mp h)))]
      rw [Dat.leavesExact_idle (simDat V c) 3 t (simIdle3 t (fun h => h5 ((hcnd5 t).mp h))) (simNoFlush3 t (fun h => h5 ((hcnd5 t).mp h)))]
      have hz : t.val = 0 := by omega
      rw [simPhi_castSucc V c t, PhiS_zero V c _ _ hz, PhiA1_eq]
      iintro ⟨⟨⟨Hr0, Hr1, Hr2, Hr3, HS0, HS1⟩, Hg⟩, Ho, ⟨%d0, H0⟩, ⟨%d1, H1⟩, ⟨%d2, H2⟩, ⟨%d3, H3⟩⟩
      iapply ((simRun_FD c (grid1.coords t) (ms0 t) (hs0 t) (ms1 t) (hs1 t) (ms2 t) (hs2 t) (ms3 t) (hs3 t) sc0 (Memref.isWhole_whole _) sc1 (Memref.isWhole_whole _) ((hcnd1 t).mpr h1) ((hcnd2 t).mpr h2) (fun h => ((hcnd3 t).mp h) h2) (fun h => h4 ((hcnd4 t).mp h)) (fun h => h5 ((hcnd5 t).mp h)) (simBlk V c 0 t) (simBlk V c 1 t)).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [Hr0 Hr1 Hr2 Hr3 HS0 HS1 Hg]
      · isplitr [Hg]
        · isplitl [Hr0]; · iexact Hr0
          isplitl [Hr1]; · iexact Hr1
          isplitl [Hr2]; · iexact Hr2
          isplitl [Hr3]; · iexact Hr3
          isplitl [HS0]
          · unfold owns; iexists _; isplitr
            swap; · iexact HS0
            ipureintro; exact (accVal_FD c (grid1.coords t) (ms0 t) (hs0 t) (ms1 t) (hs1 t) (ms2 t) (hs2 t) (ms3 t) (hs3 t) sc0 (Memref.isWhole_whole _) sc1 (Memref.isWhole_whole _) ((hcnd1 t).mpr h1) ((hcnd2 t).mpr h2) (fun h => ((hcnd3 t).mp h) h2) (fun h => h4 ((hcnd4 t).mp h)) (fun h => h5 ((hcnd5 t).mp h)) (simBlk V c 0 t) (simBlk V c 1 t) _).trans (accAt_FD V c t h1 h2).symm
          unfold owns; iexists _; isplitr
          swap; · iexact HS1
          ipureintro; exact (posVal_FD c (grid1.coords t) (ms0 t) (hs0 t) (ms1 t) (hs1 t) (ms2 t) (hs2 t) (ms3 t) (hs3 t) sc0 (Memref.isWhole_whole _) sc1 (Memref.isWhole_whole _) ((hcnd1 t).mpr h1) ((hcnd2 t).mpr h2) (fun h => ((hcnd3 t).mp h) h2) (fun h => h4 ((hcnd4 t).mp h)) (fun h => h5 ((hcnd5 t).mp h)) (simBlk V c 0 t) (simBlk V c 1 t) _).trans (posAt_F V c t h1 h4).symm
        iexact Hg
      isplitl [Ho]; · iexact Ho
      isplitl [H0]; · iexact H0
      isplitl [H1]; · iexact H1
      isplitl [H2]; · iexists _; iexact H2
      iexists _; iexact H3
    · have h5 : ¬ t.val % 8 = 7 := by omega
      by_cases h4 : t.val % 8 = (t.val / 8 + 4) % 8
      ·
        -- FP
        rw [show (simDat V c).leavesExact 0 t = owns (c : Thread nD τ) (ms0 t) fullShare ((simDat V c).after 0 t) from by
          unfold Dat.leavesExact; rw [simLive0 t], simDat_after0]
        rw [show (simDat V c).leavesExact 1 t = owns (c : Thread nD τ) (ms1 t) fullShare ((simDat V c).after 1 t) from by
          unfold Dat.leavesExact; rw [simLive1 t], simDat_after1]
        rw [Dat.leavesExact_idle (simDat V c) 2 t (simIdle2 t (fun h => h5 ((hcnd5 t).mp h))) (simNoFlush2 t (fun h => h5 ((hcnd5 t).mp h)))]
        rw [Dat.leavesExact_idle (simDat V c) 3 t (simIdle3 t (fun h => h5 ((hcnd5 t).mp h))) (simNoFlush3 t (fun h => h5 ((hcnd5 t).mp h)))]
        have hz : t.val ≠ 0 := by omega
        rw [simPhi_castSucc V c t, PhiS_pos V c _ _ hz]
        iintro ⟨⟨⟨Hr0, Hr1, Hr2, Hr3, HS0, HS1⟩, Hg⟩, Ho, ⟨%d0, H0⟩, ⟨%d1, H1⟩, ⟨%d2, H2⟩, ⟨%d3, H3⟩⟩
        iapply ((simRun_FP c (grid1.coords t) (ms0 t) (hs0 t) (ms1 t) (hs1 t) (ms2 t) (hs2 t) (ms3 t) (hs3 t) sc0 (Memref.isWhole_whole _) sc1 (Memref.isWhole_whole _) ((hcnd1 t).mpr h1) (fun h => h2 ((hcnd2 t).mp h)) ((hcnd3 t).mpr h2) ((hcnd4 t).mpr h4) (fun h => h5 ((hcnd5 t).mp h)) (simBlk V c 0 t) (simBlk V c 1 t)).2.2.2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [Hr0 Hr1 Hr2 Hr3 HS0 HS1 Hg]
        · isplitr [Hg]
          · isplitl [Hr0]; · iexact Hr0
            isplitl [Hr1]; · iexact Hr1
            isplitl [Hr2]; · iexact Hr2
            isplitl [Hr3]; · iexact Hr3
            isplitl [HS0]
            · unfold owns; iexists _; isplitr
              swap; · iexact HS0
              ipureintro; exact (accVal_FP c (grid1.coords t) (ms0 t) (hs0 t) (ms1 t) (hs1 t) (ms2 t) (hs2 t) (ms3 t) (hs3 t) sc0 (Memref.isWhole_whole _) sc1 (Memref.isWhole_whole _) ((hcnd1 t).mpr h1) (fun h => h2 ((hcnd2 t).mp h)) ((hcnd3 t).mpr h2) ((hcnd4 t).mpr h4) (fun h => h5 ((hcnd5 t).mp h)) (simBlk V c 0 t) (simBlk V c 1 t) _).trans (accAt_FO V c t h1 h2).symm
            unfold owns; iexists _; isplitr
            swap; · iexact HS1
            ipureintro; exact (posVal_FP c (grid1.coords t) (ms0 t) (hs0 t) (ms1 t) (hs1 t) (ms2 t) (hs2 t) (ms3 t) (hs3 t) sc0 (Memref.isWhole_whole _) sc1 (Memref.isWhole_whole _) ((hcnd1 t).mpr h1) (fun h => h2 ((hcnd2 t).mp h)) ((hcnd3 t).mpr h2) ((hcnd4 t).mpr h4) (fun h => h5 ((hcnd5 t).mp h)) (simBlk V c 0 t) (simBlk V c 1 t) _).trans (posAt_P V c t h4).symm
          iexact Hg
        isplitl [Ho]; · iexact Ho
        isplitl [H0]; · iexact H0
        isplitl [H1]; · iexact H1
        isplitl [H2]; · iexists _; iexact H2
        iexists _; iexact H3
      ·
        -- FO
        rw [show (simDat V c).leavesExact 0 t = owns (c : Thread nD τ) (ms0 t) fullShare ((simDat V c).after 0 t) from by
          unfold Dat.leavesExact; rw [simLive0 t], simDat_after0]
        rw [show (simDat V c).leavesExact 1 t = owns (c : Thread nD τ) (ms1 t) fullShare ((simDat V c).after 1 t) from by
          unfold Dat.leavesExact; rw [simLive1 t], simDat_after1]
        rw [Dat.leavesExact_idle (simDat V c) 2 t (simIdle2 t (fun h => h5 ((hcnd5 t).mp h))) (simNoFlush2 t (fun h => h5 ((hcnd5 t).mp h)))]
        rw [Dat.leavesExact_idle (simDat V c) 3 t (simIdle3 t (fun h => h5 ((hcnd5 t).mp h))) (simNoFlush3 t (fun h => h5 ((hcnd5 t).mp h)))]
        have hz : t.val ≠ 0 := by omega
        rw [simPhi_castSucc V c t, PhiS_pos V c _ _ hz]
        iintro ⟨⟨⟨Hr0, Hr1, Hr2, Hr3, HS0, HS1⟩, Hg⟩, Ho, ⟨%d0, H0⟩, ⟨%d1, H1⟩, ⟨%d2, H2⟩, ⟨%d3, H3⟩⟩
        iapply ((simRun_FO c (grid1.coords t) (ms0 t) (hs0 t) (ms1 t) (hs1 t) (ms2 t) (hs2 t) (ms3 t) (hs3 t) sc0 (Memref.isWhole_whole _) sc1 (Memref.isWhole_whole _) ((hcnd1 t).mpr h1) (fun h => h2 ((hcnd2 t).mp h)) ((hcnd3 t).mpr h2) (fun h => h4 ((hcnd4 t).mp h)) (fun h => h5 ((hcnd5 t).mp h)) (simBlk V c 0 t) (simBlk V c 1 t)).2.2.2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [Hr0 Hr1 Hr2 Hr3 HS0 HS1 Hg]
        · isplitr [Hg]
          · isplitl [Hr0]; · iexact Hr0
            isplitl [Hr1]; · iexact Hr1
            isplitl [Hr2]; · iexact Hr2
            isplitl [Hr3]; · iexact Hr3
            isplitl [HS0]
            · unfold owns; iexists _; isplitr
              swap; · iexact HS0
              ipureintro; exact (accVal_FO c (grid1.coords t) (ms0 t) (hs0 t) (ms1 t) (hs1 t) (ms2 t) (hs2 t) (ms3 t) (hs3 t) sc0 (Memref.isWhole_whole _) sc1 (Memref.isWhole_whole _) ((hcnd1 t).mpr h1) (fun h => h2 ((hcnd2 t).mp h)) ((hcnd3 t).mpr h2) (fun h => h4 ((hcnd4 t).mp h)) (fun h => h5 ((hcnd5 t).mp h)) (simBlk V c 0 t) (simBlk V c 1 t) _).trans (accAt_FO V c t h1 h2).symm
            unfold owns; iexists _; isplitr
            swap; · iexact HS1
            ipureintro; exact (posVal_FO c (grid1.coords t) (ms0 t) (hs0 t) (ms1 t) (hs1 t) (ms2 t) (hs2 t) (ms3 t) (hs3 t) sc0 (Memref.isWhole_whole _) sc1 (Memref.isWhole_whole _) ((hcnd1 t).mpr h1) (fun h => h2 ((hcnd2 t).mp h)) ((hcnd3 t).mpr h2) (fun h => h4 ((hcnd4 t).mp h)) (fun h => h5 ((hcnd5 t).mp h)) (simBlk V c 0 t) (simBlk V c 1 t) _).trans (posAt_F V c t h1 h4).symm
          iexact Hg
        isplitl [Ho]; · iexact Ho
        isplitl [H0]; · iexact H0
        isplitl [H1]; · iexact H1
        isplitl [H2]; · iexists _; iexact H2
        iexists _; iexact H3
  · by_cases h5 : t.val % 8 = 7
    · by_cases h2 : t.val / 8 = t.val % 8
      · have h4 : ¬ t.val % 8 = (t.val / 8 + 4) % 8 := by omega
        -- LD
        rw [show (simDat V c).leavesExact 0 t = owns (c : Thread nD τ) (ms0 t) fullShare ((simDat V c).after 0 t) from by
          unfold Dat.leavesExact; rw [simLive0 t], simDat_after0]
        rw [show (simDat V c).leavesExact 1 t = owns (c : Thread nD τ) (ms1 t) fullShare ((simDat V c).after 1 t) from by
          unfold Dat.leavesExact; rw [simLive1 t], simDat_after1]
        rw [show (simDat V c).leavesExact 2 t = owns (c : Thread nD τ) (ms2 t) fullShare ((simDat V c).after 2 t) from by
          unfold Dat.leavesExact; rw [simLive2 t ((hcnd5 t).mpr h5)], simDat_after2]
        rw [show (simDat V c).leavesExact 3 t = owns (c : Thread nD τ) (ms3 t) fullShare ((simDat V c).after 3 t) from by
          unfold Dat.leavesExact; rw [simLive3 t ((hcnd5 t).mpr h5)], simDat_after3]
        have hz : t.val ≠ 0 := by omega
        rw [simPhi_castSucc V c t, PhiS_pos V c _ _ hz]
        iintro ⟨⟨⟨Hr0, Hr1, Hr2, Hr3, HS0, HS1⟩, Hg⟩, Ho, ⟨%d0, H0⟩, ⟨%d1, H1⟩, ⟨%d2, H2⟩, ⟨%d3, H3⟩⟩
        iapply ((simRun_LD c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) ((hcnd2 t).mpr h2) (fun h => ((hcnd3 t).mp h) h2) (fun h => h4 ((hcnd4 t).mp h)) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt))).2.2.2.2 Set.univ _)
        isplitl [H0]; · iexact H0
        isplitl [H1]; · iexact H1
        isplitl [H2]; · iexists _; iexact H2
        isplitl [H3]; · iexists _; iexact H3
        isplitl [HS0]; · iexact HS0
        isplitl [HS1]; · iexact HS1
        iintro ⟨H0, H1, ⟨%e2, H2⟩, ⟨%e3, H3⟩, ⟨%es0, HS0⟩, HS1⟩
        isplitl [Hr0 Hr1 Hr2 Hr3 HS0 HS1 Hg]
        · isplitr [Hg]
          · isplitl [Hr0]; · iexact Hr0
            isplitl [Hr1]; · iexact Hr1
            isplitl [Hr2]; · iexact Hr2
            isplitl [Hr3]; · iexact Hr3
            isplitl [HS0]
            · unfold owns; iexists _; isplitr
              swap; · iexact HS0
              ipureintro; exact (accVal_LD c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) ((hcnd2 t).mpr h2) (fun h => ((hcnd3 t).mp h) h2) (fun h => h4 ((hcnd4 t).mp h)) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (accAt_ND V c t h1 h2).symm
            rw [posAt_keep V c t h1 h4]; iexact HS1
          iexact Hg
        isplitl [Ho]; · iexact Ho
        isplitl [H0]; · iexact H0
        isplitl [H1]; · iexact H1
        isplitl [H2]
        · unfold owns; iexists _; isplitr
          swap; · iexact H2
          ipureintro; exact (out2Val_LD c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) ((hcnd2 t).mpr h2) (fun h => ((hcnd3 t).mp h) h2) (fun h => h4 ((hcnd4 t).mp h)) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (accAt_ND V c t h1 h2).symm
        unfold owns; iexists _; isplitr
        swap; · iexact H3
        ipureintro; exact (out3Val_LD c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) ((hcnd2 t).mpr h2) (fun h => ((hcnd3 t).mp h) h2) (fun h => h4 ((hcnd4 t).mp h)) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (posAt_keep V c t h1 h4).symm
      · by_cases h4 : t.val % 8 = (t.val / 8 + 4) % 8
        ·
          -- LP
          rw [show (simDat V c).leavesExact 0 t = owns (c : Thread nD τ) (ms0 t) fullShare ((simDat V c).after 0 t) from by
            unfold Dat.leavesExact; rw [simLive0 t], simDat_after0]
          rw [show (simDat V c).leavesExact 1 t = owns (c : Thread nD τ) (ms1 t) fullShare ((simDat V c).after 1 t) from by
            unfold Dat.leavesExact; rw [simLive1 t], simDat_after1]
          rw [show (simDat V c).leavesExact 2 t = owns (c : Thread nD τ) (ms2 t) fullShare ((simDat V c).after 2 t) from by
            unfold Dat.leavesExact; rw [simLive2 t ((hcnd5 t).mpr h5)], simDat_after2]
          rw [show (simDat V c).leavesExact 3 t = owns (c : Thread nD τ) (ms3 t) fullShare ((simDat V c).after 3 t) from by
            unfold Dat.leavesExact; rw [simLive3 t ((hcnd5 t).mpr h5)], simDat_after3]
          have hz : t.val ≠ 0 := by omega
          rw [simPhi_castSucc V c t, PhiS_pos V c _ _ hz]
          iintro ⟨⟨⟨Hr0, Hr1, Hr2, Hr3, HS0, HS1⟩, Hg⟩, Ho, ⟨%d0, H0⟩, ⟨%d1, H1⟩, ⟨%d2, H2⟩, ⟨%d3, H3⟩⟩
          iapply ((simRun_LP c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) ((hcnd4 t).mpr h4) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt))).2.2.2.2 Set.univ _)
          isplitl [H0]; · iexact H0
          isplitl [H1]; · iexact H1
          isplitl [H2]; · iexists _; iexact H2
          isplitl [H3]; · iexists _; iexact H3
          isplitl [HS0]; · iexact HS0
          isplitl [HS1]; · iexact HS1
          iintro ⟨H0, H1, ⟨%e2, H2⟩, ⟨%e3, H3⟩, ⟨%es0, HS0⟩, ⟨%es1, HS1⟩⟩
          isplitl [Hr0 Hr1 Hr2 Hr3 HS0 HS1 Hg]
          · isplitr [Hg]
            · isplitl [Hr0]; · iexact Hr0
              isplitl [Hr1]; · iexact Hr1
              isplitl [Hr2]; · iexact Hr2
              isplitl [Hr3]; · iexact Hr3
              isplitl [HS0]
              · unfold owns; iexists _; isplitr
                swap; · iexact HS0
                ipureintro; exact (accVal_LP c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) ((hcnd4 t).mpr h4) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (accAt_NO V c t h1 h2).symm
              unfold owns; iexists _; isplitr
              swap; · iexact HS1
              ipureintro; exact (posVal_LP c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) ((hcnd4 t).mpr h4) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (posAt_P V c t h4).symm
            iexact Hg
          isplitl [Ho]; · iexact Ho
          isplitl [H0]; · iexact H0
          isplitl [H1]; · iexact H1
          isplitl [H2]
          · unfold owns; iexists _; isplitr
            swap; · iexact H2
            ipureintro; exact (out2Val_LP c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) ((hcnd4 t).mpr h4) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (accAt_NO V c t h1 h2).symm
          unfold owns; iexists _; isplitr
          swap; · iexact H3
          ipureintro; exact (out3Val_LP c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) ((hcnd4 t).mpr h4) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (posAt_P V c t h4).symm
        ·
          -- LO
          rw [show (simDat V c).leavesExact 0 t = owns (c : Thread nD τ) (ms0 t) fullShare ((simDat V c).after 0 t) from by
            unfold Dat.leavesExact; rw [simLive0 t], simDat_after0]
          rw [show (simDat V c).leavesExact 1 t = owns (c : Thread nD τ) (ms1 t) fullShare ((simDat V c).after 1 t) from by
            unfold Dat.leavesExact; rw [simLive1 t], simDat_after1]
          rw [show (simDat V c).leavesExact 2 t = owns (c : Thread nD τ) (ms2 t) fullShare ((simDat V c).after 2 t) from by
            unfold Dat.leavesExact; rw [simLive2 t ((hcnd5 t).mpr h5)], simDat_after2]
          rw [show (simDat V c).leavesExact 3 t = owns (c : Thread nD τ) (ms3 t) fullShare ((simDat V c).after 3 t) from by
            unfold Dat.leavesExact; rw [simLive3 t ((hcnd5 t).mpr h5)], simDat_after3]
          have hz : t.val ≠ 0 := by omega
          rw [simPhi_castSucc V c t, PhiS_pos V c _ _ hz]
          iintro ⟨⟨⟨Hr0, Hr1, Hr2, Hr3, HS0, HS1⟩, Hg⟩, Ho, ⟨%d0, H0⟩, ⟨%d1, H1⟩, ⟨%d2, H2⟩, ⟨%d3, H3⟩⟩
          iapply ((simRun_LO c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) (fun h => h4 ((hcnd4 t).mp h)) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt))).2.2.2.2 Set.univ _)
          isplitl [H0]; · iexact H0
          isplitl [H1]; · iexact H1
          isplitl [H2]; · iexists _; iexact H2
          isplitl [H3]; · iexists _; iexact H3
          isplitl [HS0]; · iexact HS0
          isplitl [HS1]; · iexact HS1
          iintro ⟨H0, H1, ⟨%e2, H2⟩, ⟨%e3, H3⟩, ⟨%es0, HS0⟩, HS1⟩
          isplitl [Hr0 Hr1 Hr2 Hr3 HS0 HS1 Hg]
          · isplitr [Hg]
            · isplitl [Hr0]; · iexact Hr0
              isplitl [Hr1]; · iexact Hr1
              isplitl [Hr2]; · iexact Hr2
              isplitl [Hr3]; · iexact Hr3
              isplitl [HS0]
              · unfold owns; iexists _; isplitr
                swap; · iexact HS0
                ipureintro; exact (accVal_LO c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) (fun h => h4 ((hcnd4 t).mp h)) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (accAt_NO V c t h1 h2).symm
              rw [posAt_keep V c t h1 h4]; iexact HS1
            iexact Hg
          isplitl [Ho]; · iexact Ho
          isplitl [H0]; · iexact H0
          isplitl [H1]; · iexact H1
          isplitl [H2]
          · unfold owns; iexists _; isplitr
            swap; · iexact H2
            ipureintro; exact (out2Val_LO c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) (fun h => h4 ((hcnd4 t).mp h)) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (accAt_NO V c t h1 h2).symm
          unfold owns; iexists _; isplitr
          swap; · iexact H3
          ipureintro; exact (out3Val_LO c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) (fun h => h4 ((hcnd4 t).mp h)) ((hcnd5 t).mpr h5) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (posAt_keep V c t h1 h4).symm
    · by_cases h2 : t.val / 8 = t.val % 8
      · have h4 : ¬ t.val % 8 = (t.val / 8 + 4) % 8 := by omega
        -- MD
        rw [show (simDat V c).leavesExact 0 t = owns (c : Thread nD τ) (ms0 t) fullShare ((simDat V c).after 0 t) from by
          unfold Dat.leavesExact; rw [simLive0 t], simDat_after0]
        rw [show (simDat V c).leavesExact 1 t = owns (c : Thread nD τ) (ms1 t) fullShare ((simDat V c).after 1 t) from by
          unfold Dat.leavesExact; rw [simLive1 t], simDat_after1]
        rw [Dat.leavesExact_idle (simDat V c) 2 t (simIdle2 t (fun h => h5 ((hcnd5 t).mp h))) (simNoFlush2 t (fun h => h5 ((hcnd5 t).mp h)))]
        rw [Dat.leavesExact_idle (simDat V c) 3 t (simIdle3 t (fun h => h5 ((hcnd5 t).mp h))) (simNoFlush3 t (fun h => h5 ((hcnd5 t).mp h)))]
        have hz : t.val ≠ 0 := by omega
        rw [simPhi_castSucc V c t, PhiS_pos V c _ _ hz]
        iintro ⟨⟨⟨Hr0, Hr1, Hr2, Hr3, HS0, HS1⟩, Hg⟩, Ho, ⟨%d0, H0⟩, ⟨%d1, H1⟩, ⟨%d2, H2⟩, ⟨%d3, H3⟩⟩
        iapply ((simRun_MD c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) ((hcnd2 t).mpr h2) (fun h => ((hcnd3 t).mp h) h2) (fun h => h4 ((hcnd4 t).mp h)) (fun h => h5 ((hcnd5 t).mp h)) (simBlk V c 0 t) (simBlk V c 1 t) (accAt V c (t.val - 1) (Nat.lt_of_le_of_lt (Nat.sub_le _ _) t.isLt)) (posAt V c (t.val - 1) (Nat.lt_of_le_of_lt (Nat.sub_le _ _) t.isLt))).2.2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, HS1⟩
        isplitl [Hr0 Hr1 Hr2 Hr3 HS0 HS1 Hg]
        · isplitr [Hg]
          · isplitl [Hr0]; · iexact Hr0
            isplitl [Hr1]; · iexact Hr1
            isplitl [Hr2]; · iexact Hr2
            isplitl [Hr3]; · iexact Hr3
            isplitl [HS0]
            · unfold owns; iexists _; isplitr
              swap; · iexact HS0
              ipureintro; exact (accVal_MD c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) ((hcnd2 t).mpr h2) (fun h => ((hcnd3 t).mp h) h2) (fun h => h4 ((hcnd4 t).mp h)) (fun h => h5 ((hcnd5 t).mp h)) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (accAt_ND V c t h1 h2).symm
            rw [posAt_keep V c t h1 h4]; iexact HS1
          iexact Hg
        isplitl [Ho]; · iexact Ho
        isplitl [H0]; · iexact H0
        isplitl [H1]; · iexact H1
        isplitl [H2]; · iexists _; iexact H2
        iexists _; iexact H3
      · by_cases h4 : t.val % 8 = (t.val / 8 + 4) % 8
        ·
          -- MP
          rw [show (simDat V c).leavesExact 0 t = owns (c : Thread nD τ) (ms0 t) fullShare ((simDat V c).after 0 t) from by
            unfold Dat.leavesExact; rw [simLive0 t], simDat_after0]
          rw [show (simDat V c).leavesExact 1 t = owns (c : Thread nD τ) (ms1 t) fullShare ((simDat V c).after 1 t) from by
            unfold Dat.leavesExact; rw [simLive1 t], simDat_after1]
          rw [Dat.leavesExact_idle (simDat V c) 2 t (simIdle2 t (fun h => h5 ((hcnd5 t).mp h))) (simNoFlush2 t (fun h => h5 ((hcnd5 t).mp h)))]
          rw [Dat.leavesExact_idle (simDat V c) 3 t (simIdle3 t (fun h => h5 ((hcnd5 t).mp h))) (simNoFlush3 t (fun h => h5 ((hcnd5 t).mp h)))]
          have hz : t.val ≠ 0 := by omega
          rw [simPhi_castSucc V c t, PhiS_pos V c _ _ hz]
          iintro ⟨⟨⟨Hr0, Hr1, Hr2, Hr3, HS0, HS1⟩, Hg⟩, Ho, ⟨%d0, H0⟩, ⟨%d1, H1⟩, ⟨%d2, H2⟩, ⟨%d3, H3⟩⟩
          iapply ((simRun_MP c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) ((hcnd4 t).mpr h4) (fun h => h5 ((hcnd5 t).mp h)) (simBlk V c 0 t) (simBlk V c 1 t) (accAt V c (t.val - 1) (Nat.lt_of_le_of_lt (Nat.sub_le _ _) t.isLt)) (posAt V c (t.val - 1) (Nat.lt_of_le_of_lt (Nat.sub_le _ _) t.isLt))).2.2.2.2 _ _ Set.univ _)
          isplitl [H0]; · iexact H0
          isplitl [H1]; · iexact H1
          isplitl [H2]; · iexact H2
          isplitl [H3]; · iexact H3
          isplitl [HS0]; · iexact HS0
          isplitl [HS1]; · iexact HS1
          iintro ⟨H0, H1, H2, H3, ⟨%es0, HS0⟩, ⟨%es1, HS1⟩⟩
          isplitl [Hr0 Hr1 Hr2 Hr3 HS0 HS1 Hg]
          · isplitr [Hg]
            · isplitl [Hr0]; · iexact Hr0
              isplitl [Hr1]; · iexact Hr1
              isplitl [Hr2]; · iexact Hr2
              isplitl [Hr3]; · iexact Hr3
              isplitl [HS0]
              · unfold owns; iexists _; isplitr
                swap; · iexact HS0
                ipureintro; exact (accVal_MP c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) ((hcnd4 t).mpr h4) (fun h => h5 ((hcnd5 t).mp h)) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (accAt_NO V c t h1 h2).symm
              unfold owns; iexists _; isplitr
              swap; · iexact HS1
              ipureintro; exact (posVal_MP c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) ((hcnd4 t).mpr h4) (fun h => h5 ((hcnd5 t).mp h)) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (posAt_P V c t h4).symm
            iexact Hg
          isplitl [Ho]; · iexact Ho
          isplitl [H0]; · iexact H0
          isplitl [H1]; · iexact H1
          isplitl [H2]; · iexists _; iexact H2
          iexists _; iexact H3
        ·
          -- MO
          rw [show (simDat V c).leavesExact 0 t = owns (c : Thread nD τ) (ms0 t) fullShare ((simDat V c).after 0 t) from by
            unfold Dat.leavesExact; rw [simLive0 t], simDat_after0]
          rw [show (simDat V c).leavesExact 1 t = owns (c : Thread nD τ) (ms1 t) fullShare ((simDat V c).after 1 t) from by
            unfold Dat.leavesExact; rw [simLive1 t], simDat_after1]
          rw [Dat.leavesExact_idle (simDat V c) 2 t (simIdle2 t (fun h => h5 ((hcnd5 t).mp h))) (simNoFlush2 t (fun h => h5 ((hcnd5 t).mp h)))]
          rw [Dat.leavesExact_idle (simDat V c) 3 t (simIdle3 t (fun h => h5 ((hcnd5 t).mp h))) (simNoFlush3 t (fun h => h5 ((hcnd5 t).mp h)))]
          have hz : t.val ≠ 0 := by omega
          rw [simPhi_castSucc V c t, PhiS_pos V c _ _ hz]
          iintro ⟨⟨⟨Hr0, Hr1, Hr2, Hr3, HS0, HS1⟩, Hg⟩, Ho, ⟨%d0, H0⟩, ⟨%d1, H1⟩, ⟨%d2, H2⟩, ⟨%d3, H3⟩⟩
          iapply ((simRun_MO c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) (fun h => h4 ((hcnd4 t).mp h)) (fun h => h5 ((hcnd5 t).mp h)) (simBlk V c 0 t) (simBlk V c 1 t) (accAt V c (t.val - 1) (Nat.lt_of_le_of_lt (Nat.sub_le _ _) t.isLt)) (posAt V c (t.val - 1) (Nat.lt_of_le_of_lt (Nat.sub_le _ _) t.isLt))).2.2.2.2 _ _ Set.univ _)
          isplitl [H0]; · iexact H0
          isplitl [H1]; · iexact H1
          isplitl [H2]; · iexact H2
          isplitl [H3]; · iexact H3
          isplitl [HS0]; · iexact HS0
          isplitl [HS1]; · iexact HS1
          iintro ⟨H0, H1, H2, H3, ⟨%es0, HS0⟩, HS1⟩
          isplitl [Hr0 Hr1 Hr2 Hr3 HS0 HS1 Hg]
          · isplitr [Hg]
            · isplitl [Hr0]; · iexact Hr0
              isplitl [Hr1]; · iexact Hr1
              isplitl [Hr2]; · iexact Hr2
              isplitl [Hr3]; · iexact Hr3
              isplitl [HS0]
              · unfold owns; iexists _; isplitr
                swap; · iexact HS0
                ipureintro; exact (accVal_MO c (grid1.coords t) (ms0 t) (hs0 t) (ms1 t) (hs1 t) (ms2 t) (hs2 t) (ms3 t) (hs3 t) sc0 (Memref.isWhole_whole _) sc1 (Memref.isWhole_whole _) (fun h => h1 ((hcnd1 t).mp h)) (fun h => h2 ((hcnd2 t).mp h)) ((hcnd3 t).mpr h2) (fun h => h4 ((hcnd4 t).mp h)) (fun h => h5 ((hcnd5 t).mp h)) (simBlk V c 0 t) (simBlk V c 1 t) (accAt V c (t.val - 1) (Nat.lt_of_le_of_lt (Nat.sub_le _ _) t.isLt)) (posAt V c (t.val - 1) (Nat.lt_of_le_of_lt (Nat.sub_le _ _) t.isLt)) _).trans (accAt_NO V c t h1 h2).symm
              rw [posAt_keep V c t h1 h4]; iexact HS1
            iexact Hg
          isplitl [Ho]; · iexact Ho
          isplitl [H0]; · iexact H0
          isplitl [H1]; · iexact H1
          isplitl [H2]; · iexists _; iexact H2
          iexists _; iexact H3

/-- The pipeline's obligation at every point. -/
theorem simObligation (c : Dev nD) : BodyObligation (simDat (F := F) V c) (defs₀ (F := F)) Variants.none () Set.univ := fun t => by
  rw [bigSep_W1, bigSep_W1]
  exact simBody V c t

end Cert.KernelIdeal.Hand

end
-- ==== Proof.SimShare.lean ====
/-
  The similarity kernel reads the array of unit rows through two of its four windows at once, so the core's three
  distinct buffers behind the windows' arrays — the unit rows and the two outputs, each held whole — are not the four
  windows' arrays one for one. The full share of the unit rows splits into its left and right halves, one for each of the
  two input windows; the two outputs go over as they are. Both directions: splitting when the kernel is entered, and
  joining the halves again when it is left.
-/
import proofs.«102017_j44607530336758_2_alg».proof.Proof.SimFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Entering: the three buffers, each whole at the full share, give the four windows their arrays, the unit rows half and half. -/
theorem simArrays_of_bufs (c : Dev nD) (Vv : (b : Ref sig .tc) → Buf (Elt F) ((c : Thread nD τ).loc b))
    (Fw : (w : Fin cfg1.W) → Buf (Elt F) ((cfg1.win w).arr.view.loc (c.tc : Thread nD τ)))
    (hF : ∀ w, Fw w = Vv (Pipeline.arrRef spec1 w)) :
    (Pipeline.arrBufs spec1 c Vv : sProp 𝕄) ⊢ (simDat V c).arrays Fw := by
  have hs : ∀ w : Fin cfg1.W, (cfg1.win w).arr.view.set = Finset.univ := fun w => (arr_whole1 w).set_eq_univ
  have hq0 : (simDat V c).share 0 = fullShare.left := rfl
  have hq1 : (simDat V c).share 1 = fullShare.right := rfl
  have hq2 : (simDat V c).share 2 = fullShare := rfl
  have hq3 : (simDat V c).share 3 = fullShare := rfl
  unfold Pipeline.arrBufs Dat.arrays
  rw [bigSep_eq_bigSepL_of_eq [main_v0, main_v1_0, main_v1_1] (by decide) (by decide), bigSep_W1,
    hF 0, hF 1, hF 2, hF 3, hs 0, hs 2, hs 3, hq0, hq1, hq2, hq3]
  show iprop((((c : Thread nD τ).loc main_v0) ↦{fullShare} Vv main_v0) ∗ (((c : Thread nD τ).loc main_v1_0) ↦{fullShare} Vv main_v1_0)
      ∗ (((c : Thread nD τ).loc main_v1_1) ↦{fullShare} Vv main_v1_1))
    ⊢ (iprop((((c : Thread nD τ).loc main_v0) ↦{fullShare.left} Vv main_v0) ∗ (((c : Thread nD τ).loc main_v0) ↦{fullShare.right} Vv main_v0)
      ∗ (((c : Thread nD τ).loc main_v1_0) ↦{fullShare} Vv main_v1_0) ∗ (((c : Thread nD τ).loc main_v1_1) ↦{fullShare} Vv main_v1_1)) : sProp 𝕄)
  iintro ⟨H0, H1, H2⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  iexact H2

/-- Leaving: the two halves of the unit rows join to the full share again, beside the two outputs. -/
theorem simBufs_of_arrays (c : Dev nD) (Vv : (b : Ref sig .tc) → Buf (Elt F) ((c : Thread nD τ).loc b))
    (Fw : (w : Fin cfg1.W) → Buf (Elt F) ((cfg1.win w).arr.view.loc (c.tc : Thread nD τ)))
    (hF : ∀ w, Fw w = Vv (Pipeline.arrRef spec1 w)) :
    (simDat V c).arrays Fw ⊢ (Pipeline.arrBufs spec1 c Vv : sProp 𝕄) := by
  have hs : ∀ w : Fin cfg1.W, (cfg1.win w).arr.view.set = Finset.univ := fun w => (arr_whole1 w).set_eq_univ
  have hq0 : (simDat V c).share 0 = fullShare.left := rfl
  have hq1 : (simDat V c).share 1 = fullShare.right := rfl
  have hq2 : (simDat V c).share 2 = fullShare := rfl
  have hq3 : (simDat V c).share 3 = fullShare := rfl
  unfold Pipeline.arrBufs Dat.arrays
  rw [bigSep_eq_bigSepL_of_eq [main_v0, main_v1_0, main_v1_1] (by decide) (by decide), bigSep_W1,
    hF 0, hF 1, hF 2, hF 3, hs 0, hs 2, hs 3, hq0, hq1, hq2, hq3]
  show (iprop((((c : Thread nD τ).loc main_v0) ↦{fullShare.left} Vv main_v0) ∗ (((c : Thread nD τ).loc main_v0) ↦{fullShare.right} Vv main_v0)
      ∗ (((c : Thread nD τ).loc main_v1_0) ↦{fullShare} Vv main_v1_0) ∗ (((c : Thread nD τ).loc main_v1_1) ↦{fullShare} Vv main_v1_1)) : sProp 𝕄)
    ⊢ iprop((((c : Thread nD τ).loc main_v0) ↦{fullShare} Vv main_v0) ∗ (((c : Thread nD τ).loc main_v1_0) ↦{fullShare} Vv main_v1_0)
      ∗ (((c : Thread nD τ).loc main_v1_1) ↦{fullShare} Vv main_v1_1))
  iintro ⟨Hl, Hr, H1, H2⟩
  isplitl [Hl Hr]
  · iapply (pointsTo_share (PosShare.mem_left_op_right fullShare)).2
    isplitl [Hl]; · iexact Hl
    iexact Hr
  isplitl [H1]; · iexact H1
  iexact H2

end Cert.KernelIdeal.Hand

end
-- ==== Proof.KRun.lean ====
/-
  The whole kernel program run from the launch to the return, at any float instance: the row-normalising launch, the
  similarity launch, then the host operations. Between two items every buffer of the core that is not a kernel's
  own holds named contents: the launch contents; then the first launch's output array overwritten by what its
  write-backs leave; then the second launch's two output arrays overwritten likewise; then the host operations
  applied. The array of unit rows is read by the second launch through two windows at once: it is split in two
  halves when that launch is entered and joined again when it is left.
-/
import proofs.«102017_j44607530336758_2_alg».proof.Proof.Gen.KernelIdeal.Launch
import proofs.«102017_j44607530336758_2_alg».proof.Proof.Gen.KernelIdeal.Skeleton
import proofs.«102017_j44607530336758_2_alg».proof.Proof.Gen.KernelIdeal.Points
import proofs.«102017_j44607530336758_2_alg».proof.Proof.NormRegion
import proofs.«102017_j44607530336758_2_alg».proof.Proof.SimFrame
import proofs.«102017_j44607530336758_2_alg».proof.Proof.SimShare
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-- After the last point the invariant gives back what the pipeline handed over: the running buffers' contents are forgotten. -/
theorem simPhi_last (V : (c : Dev nD) → (b : Ref sig .tc) → Buf (Elt F) ((c : Thread nD τ).loc b)) (c : Dev nD) :
    (simDat V c).Φ (Fin.last cfg1.N) ⊢ Pipeline.ΦA spec1 c := by
  have hne : (Fin.last cfg1.N).val ≠ 0 := by rw [Fin.val_last]; have : cfg1.N = 64 := N_1; omega
  rw [show (simDat V c).Φ (Fin.last cfg1.N) = PhiS V c (Fin.last cfg1.N).val (Nat.le_of_lt_succ (Fin.last cfg1.N).isLt) from rfl,
    PhiS_pos V c _ _ hne, PhiA1_eq]
  iintro ⟨⟨Hr0, Hr1, Hr2, Hr3, HS0, HS1⟩, Hg⟩
  isplitr [Hg]
  · isplitl [Hr0]; · iexact Hr0
    isplitl [Hr1]; · iexact Hr1
    isplitl [Hr2]; · iexact Hr2
    isplitl [Hr3]; · iexact Hr3
    isplitl [HS0]; · iexists _; iexact HS0
    iexists _; iexact HS1
  iexact Hg

variable (m : (ℓ : Loc nD τ sig) → Buf (Elt F) ℓ) (ρ : Dev nD → PrngReg)

/-! ## The buffers' contents between items -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the normalising launch: its arrays at what its write-backs leave, every other buffer as before. -/
def W1 (c : Dev nD) : Valuation τ sig (Elt F) :=
  Pipeline.withArrays spec0 c (W0 m ρ c) fun w => (normDat (V0 m ρ) c).arrAt w cfg0.N
theorem W1_arr (c : Dev nD) (w : Fin cfg0.W) :
    W1 m ρ c (Proc.devRef .tc (Pipeline.arrRef spec0 w)) = (normDat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem normExit_arr (c : Dev nD) (w : Fin cfg0.W) : (normDat (V0 m ρ) c).arrAt w cfg0.N = V1 m ρ c (Pipeline.arrRef spec0 w) :=
  (W1_arr m ρ c w).symm
theorem normExit_rest (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the similarity launch: its two output arrays at what its write-backs leave, every other buffer as before. -/
def W2 (c : Dev nD) : Valuation τ sig (Elt F) :=
  Function.update (Function.update (W1 m ρ c) (Proc.devRef .tc main_v1_0) ((simDat (V1 m ρ) c).arrAt 2 cfg1.N))
    (Proc.devRef .tc main_v1_1) ((simDat (V1 m ρ) c).arrAt 3 cfg1.N)
abbrev V2 : (c : Dev nD) → (b : Ref sig .tc) → Buf (Elt F) ((c : Thread nD τ).loc b) := fun c b => W2 m ρ c b
theorem W2_out2 (c : Dev nD) : W2 m ρ c (Proc.devRef .tc main_v1_0) = (simDat (V1 m ρ) c).arrAt 2 cfg1.N := by
  unfold W2
  rw [Function.update_of_ne (StableHlo.devRef_ne_of_ne (by decide) : (Proc.devRef .tc main_v1_0 : DevRef τ sig) ≠ Proc.devRef .tc main_v1_1), Function.update_self]
theorem W2_out3 (c : Dev nD) : W2 m ρ c (Proc.devRef .tc main_v1_1) = (simDat (V1 m ρ) c).arrAt 3 cfg1.N := by
  unfold W2; rw [Function.update_self]
theorem W2_of_ne (c : Dev nD) (b : Ref sig .tc) (h0 : b ≠ main_v1_0) (h1 : b ≠ main_v1_1) :
    W2 m ρ c (Proc.devRef .tc b) = W1 m ρ c (Proc.devRef .tc b) := by
  unfold W2
  rw [Function.update_of_ne (StableHlo.devRef_ne_of_ne h1 : (Proc.devRef .tc b : DevRef τ sig) ≠ Proc.devRef .tc main_v1_1),
    Function.update_of_ne (StableHlo.devRef_ne_of_ne h0 : (Proc.devRef .tc b : DevRef τ sig) ≠ Proc.devRef .tc main_v1_0)]
/-- After the host operations. -/
abbrev W3 : Dev nD → Valuation τ sig (Elt F) := fun c => StableHlo.after hostOps2 (W2 m ρ c)

/-- The argument ends as launched: no host operation and no launch writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide) (by decide)
    _ = W0 m ρ c (Proc.devRef .tc main_arg0) := (W1_arr m ρ c 0).trans (((normDat (V0 m ρ) c).arrAt_in 0 rfl _).trans (normDat_A (V0 m ρ) c 0))
    _ = m ((c : Thread nD τ).loc main_arg0) := rfl

/-! ## The proof data of the two launches and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => normDat (V0 m ρ) c
  | ⟨1, _⟩ => fun c => simDat (V1 m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)

theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host operations as one item, from the contents the similarity launch leaves. -/
abbrev tailSeg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m ρ) R

/-- The last state without what is owed: every buffer at the last contents. -/
abbrev Tend (c : Dev nD) : sProp 𝕄 := StableHlo.held (c : Thread nD τ) (Pipeline.ucRefs τ sig) (W3 m ρ c)

/-! ## The normalising launch as an item -/

set_option backward.isDefEq.respectTransparency.types false in
def normSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (normObligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (normExit_arr m ρ c) (normExit_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The similarity launch as an item -/

theorem simEntry_arr (c : Dev nD) : ∀ w, (simDat (V1 m ρ) c).arrAt w 0 = V1 m ρ c (Pipeline.arrRef spec1 w) := fun _ => rfl

theorem simExit_arr (c : Dev nD) : ∀ w, (simDat (V1 m ρ) c).arrAt w cfg1.N = V2 m ρ c (Pipeline.arrRef spec1 w)
  | ⟨0, _⟩ => (((simDat (V1 m ρ) c).arrAt_in 0 rfl _).trans (simDat_A (V1 m ρ) c 0)).trans (W2_of_ne m ρ c main_v0 (by decide) (by decide)).symm
  | ⟨1, _⟩ => (((simDat (V1 m ρ) c).arrAt_in 1 rfl _).trans (simDat_A (V1 m ρ) c 1)).trans (W2_of_ne m ρ c main_v0 (by decide) (by decide)).symm
  | ⟨2, _⟩ => (W2_out2 m ρ c).symm
  | ⟨3, _⟩ => (W2_out3 m ρ c).symm

theorem simExit_rest (c : Dev nD) : ∀ b, b ∉ Finset.univ.image (Pipeline.arrRef spec1) → V2 m ρ c b = V1 m ρ c b :=
  fun b hb => W2_of_ne m ρ c b
    (fun e => hb (Finset.mem_image.mpr ⟨2, Finset.mem_univ _, e.symm⟩))
    (fun e => hb (Finset.mem_image.mpr ⟨3, Finset.mem_univ _, e.symm⟩))

set_option backward.isDefEq.respectTransparency.types false in
def simSeg : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (simObligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit : (StableHlo.held (c : Thread nD τ) (Pipeline.ucRefs τ sig) (W1 m ρ c) : sProp 𝕄)
        ⊢ iprop((pdats m ρ 1 c).arrays ((pdats m ρ 1 c).arrAt · 0) ∗ Pipeline.unscopedRest spec1 c (V1 m ρ c)) := by
      rw [← Pipeline.unscopedBufs_held (Ix := Unit) (Name := ℕ) (U := UR sig nD τ) (Lvl := ℕ) c (W1 m ρ c),
        Pipeline.unscopedBufs_split₀ (Ix := Unit) (Name := ℕ) (U := UR sig nD τ) (Lvl := ℕ) cfgs 1 winFacts₀1.arr_unscoped c (V1 m ρ c)]
      exact sep_mono (simArrays_of_bufs (V1 m ρ) c (V1 m ρ c) _ (simEntry_arr m ρ c)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (simPhi_last (V1 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V1 m ρ c))
        ⊢ (StableHlo.held (c : Thread nD τ) (Pipeline.ucRefs τ sig) (W2 m ρ c) : sProp 𝕄) := by
      rw [← Pipeline.unscopedBufs_held (Ix := Unit) (Name := ℕ) (U := UR sig nD τ) (Lvl := ℕ) c (W2 m ρ c),
        Pipeline.unscopedBufs_split₀ (Ix := Unit) (Name := ℕ) (U := UR sig nD τ) (Lvl := ℕ) cfgs 1 winFacts₀1.arr_unscoped c (V2 m ρ c)]
      refine sep_mono (simBufs_of_arrays (V1 m ρ) c (V2 m ρ c) _ (simExit_arr m ρ c)) (Entails.of_eq ?_)
      unfold Pipeline.unscopedRest
      exact bigSep_congr fun b hb => by rw [simExit_rest m ρ c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its three items, and the run -/

abbrev segs : List (Pipeline.Seg (pcfgs (F := F)) adm (pdats m ρ) () defs₀ 𝒱₀ L lv) :=
  [ .region (normSeg m ρ), .region (simSeg m ρ), .host (tailSeg m ρ) ]

theorem main_run (c : Dev nD) : main (F := F) c = Pipeline.Seg.run (segs m ρ) := (main_chain c).trans (by chain_rfl)

set_option backward.isDefEq.respectTransparency.types false in
/-- From any memory with zero counters every weakly fair execution of the program ends, nothing faulting, with every
    buffer of the core that is not a kernel's own at the contents named above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      show iprop(StableHlo.held (c : Thread nD τ) (Pipeline.ucRefs τ sig) (W3 m ρ c) ∗ SI s') ⊢ _
      unfold StableHlo.held
      iintro ⟨Hh, HSI⟩
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.Spec.lean ====
/-
  The loss both programs compute, as one function of the [8192, 256] input array over the extended reals.

  Rows are scaled to unit length (the length bounded below by a small constant), the similarity of two rows is
  their dot product, and for every row n
    * the denominator is the sum, over all columns k ≠ n, of exp (2 · sim n k), taken tile by tile over the
      eight tiles of 1024 columns, the column tile that holds n itself with its n-th term replaced by 0;
    * the positive is sim n (n + 4096 mod 8192): the row 4096 places further on, cyclically — the same offset
      inside the tile four tiles further on;
  the loss is the sum over n of  −(positive / ½) + log denominator,  divided by 4096.
-/
import Idealize.ShloMosaic.PureOps.Ideal
import Idealize.ShloMosaic.Lib.ValueIdx

noncomputable section

namespace Cert.NTXent

open Idealize.ShloMosaic Idealize.ShloMosaic.ValueIdx

/-- An [8192, 256] array of extended reals. -/
abbrev Mat : Type := (⟨2, ![8192, 256]⟩ : Shape).Idx → EReal

/-- The lower bound of a row's length. -/
def eps : EReal := Ideal.ofBits .f32 0x2B8CBCCC#32
/-- The factor 2 = 1 / ½ the kernel multiplies a similarity by. -/
def two : EReal := Ideal.ofBits .f32 0x40000000#32
/-- The temperature ½ both programs divide by. -/
def half : EReal := Ideal.ofBits .f32 0x3F000000#32
/-- The batch size 4096 both programs divide the sum by. -/
def batch : EReal := Ideal.ofBits .f32 0x45800000#32

/-- Row n's squared length. -/
def sqLen (x : Mat) (n : Fin 8192) : EReal := ∑ d : Fin 256, x (ix2 n d) * x (ix2 n d)

/-- Entry (n, d) of the rows scaled to unit length. -/
def unitEntry (x : Mat) (n : Fin 8192) (d : Fin 256) : EReal :=
  Ideal.div (x (ix2 n d)) (max (Ideal.sqrt (sqLen x n)) eps)

/-- The rows scaled to unit length, as an array. -/
def unitRows (x : Mat) : Mat := fun i => unitEntry x (i 0) (i 1)

/-- The similarity of rows n and k of z. -/
def sim (z : Mat) (n k : Fin 8192) : EReal := ∑ d : Fin 256, z (ix2 n d) * z (ix2 k d)

/-- Row (or column) r of tile b. -/
def tileRow (b : Fin 8) (r : Fin 1024) : Fin 8192 := ⟨1024 * b.val + r.val, by omega⟩

/-- What column tile b adds to the denominator of row r of row tile a: the sum over the tile's columns of
    exp (2 · sim); on the diagonal tile (a = b) the term of the row's own column is 0. -/
def tileSum (z : Mat) (a : Fin 8) (r : Fin 1024) (b : Fin 8) : EReal :=
  if a = b then ∑ c : Fin 1024, (if r = c then 0 else Ideal.exp (sim z (tileRow a r) (tileRow b c) * two))
  else ∑ c : Fin 1024, Ideal.exp (sim z (tileRow a r) (tileRow b c) * two)

/-- The denominator of row r of row tile a after the first k column tiles, accumulated from 0 in tile order. -/
def denomUpTo (z : Mat) (a : Fin 8) (r : Fin 1024) : ℕ → EReal
  | 0 => 0
  | k + 1 => denomUpTo z a r k + (if h : k < 8 then tileSum z a r ⟨k, h⟩ else 0)

/-- The denominator of row r of row tile a. -/
def denom (z : Mat) (a : Fin 8) (r : Fin 1024) : EReal := denomUpTo z a r 8

/-- The tile four places further on, cyclically. -/
def partnerTile (a : Fin 8) : Fin 8 := ⟨(a.val + 4) % 8, Nat.mod_lt _ (by decide)⟩

/-- The positive of row r of row tile a: its similarity with the same row of the partner tile. -/
def positive (z : Mat) (a : Fin 8) (r : Fin 1024) : EReal :=
  ∑ d : Fin 256, z (ix2 (tileRow a r) d) * z (ix2 (tileRow (partnerTile a) r) d)

/-- Row n's tile and its offset in the tile. -/
def tileOf (n : Fin 8192) : Fin 8 := ⟨n.val / 1024, by omega⟩
def offOf (n : Fin 8192) : Fin 1024 := ⟨n.val % 1024, Nat.mod_lt _ (by decide)⟩

/-- The loss of the unit rows z, from the per-row denominators D and positives P: the sum over n of
    −(P n / ½) + log (D n), divided by 4096. -/
def lossOf (D P : Fin 8192 → EReal) : EReal :=
  Ideal.div (0 + ∑ n : Fin 8192, (-(Ideal.div (P n) half) + Ideal.log (D n))) batch

/-- The loss of the input array x. -/
def loss (x : Mat) : EReal :=
  lossOf (fun n => denom (unitRows x) (tileOf n) (offOf n)) (fun n => positive (unitRows x) (tileOf n) (offOf n))

end Cert.NTXent

end
-- ==== Proof.ValPayload.lean ====
/-
  What the row-normalising body stores, entry by entry, over the extended reals.

  The body squares the loaded block, sums each row's 256 squares, takes the square root of the sum, bounds it below
  by a small constant, spreads that length over the row's lanes and divides the block by it; the narrowing of the
  quotient to half-width words changes nothing over the extended reals. So entry (r, d) of what is stored is the
  loaded entry (r, d) divided by the larger of the length of row r and the constant. The block is stored through the
  one rectangle that is the whole buffer, so the buffer afterwards is exactly what was stored.
-/
import proofs.«102017_j44607530336758_2_alg».proof.Proof.NormRegion
import proofs.«102017_j44607530336758_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-- The whole block's rectangle starts at the origin. -/
theorem originOff : (![0, 0] : Fin 2 → Nat) = fun _ => 0 := funext fun a => by fin_cases a <;> rfl

/-- A column of 1024 entries spread over 256 lanes reads, at (r, d), the column's entry r. -/
theorem spreadColumn_apply {α : Type} (v : S1024x1.Idx → α) (h : S1024x1.Broadcasts S1024x256) (r : Fin 1024) (d : Fin 256) :
    broadcastTo S1024x256 v h (ix2 r d) = v (ix2 r (0 : Fin 1)) :=
  broadcastTo_apply v h (ix2 r d) (ix2 r (0 : Fin 1)) fun a => by
    match a with
    | ⟨0, _⟩ => rfl
    | ⟨1, _⟩ => rfl

/-- A vector of 1024 entries recast as a column reads, at (r, 0), the vector's entry r. -/
theorem asColumn_apply {α : Type} (v : S1024.Idx → α) (h : S1024.ShapeCasts S1024x1) (r : Fin 1024) :
    shapeCast S1024x1 v h (ix2 r (0 : Fin 1)) = v (ix1 r) :=
  shapeCast_apply v h (ix2 r (0 : Fin 1)) (ix1 r) (by
    rw [Shape.rowMajor_val_one, Shape.rowMajor_val_two]
    show r.val = r.val * 1 + 0
    omega)

/-- The sum over the 256 lanes of a block, read at row r: the sum of the row's entries. -/
theorem laneSum_apply (v : FVec Ideal S1024x256 .f32) (h : S1024x256.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ k : Fin 256, v (ix2 r k) :=
  (Ideal.multiReduction_add_single v 0x00000000#32 h hφ hacc (ix1 r)).trans
    (Finset.sum_congr rfl fun k _ => congrArg v (funext fun c => Fin.ext (by
      match c with
      | ⟨0, _⟩ => rfl
      | ⟨1, _⟩ => rfl)))

/-- What the normalising body stores, read at row r and lane d: the loaded entry divided by the row's length, the
    length being the square root of the sum of the row's squares, bounded below by the small constant. -/
theorem normPayload_apply (x0 : Vec Ideal S1024x256 .f32) (r : Fin 1024) (d : Fin 256) :
    k0_pay1 (F := Ideal) x0 (ix2 r d)
      = Ideal.div (x0 (ix2 r d)) (max (Ideal.sqrt (∑ k : Fin 256, x0 (ix2 r k) * x0 (ix2 r k))) Cert.NTXent.eps) := by
  unfold k0_pay1
  refine congrArg (Ideal.div (x0 (ix2 r d))) ?_
  refine (spreadColumn_apply _ _ r d).trans ?_
  refine congrArg (fun s => max (Ideal.sqrt s) Cert.NTXent.eps) ?_
  refine (asColumn_apply _ _ r).trans ?_
  exact laneSum_apply _ _ _ _ r

/-- The output buffer after the body, read at row r and lane d. -/
theorem normOut_apply (x0 : Vec Ideal S1024x256 .f32) (r : Fin 1024) (d : Fin 256) :
    normOut (F := Ideal) x0 (ix2 r d)
      = Ideal.div (x0 (ix2 r d)) (max (Ideal.sqrt (∑ k : Fin 256, x0 (ix2 r k) * x0 (ix2 r k))) Cert.NTXent.eps) := by
  unfold normOut
  rw [View.canon_unit_zero originOff, View.ld_unit_zero (S := S1024x256) originOff]
  exact normPayload_apply x0 r d

end Cert.KernelIdeal.Hand

end
-- ==== Proof.ValFinal.lean ====
/-
  What the first kernel leaves in its output array, over the extended reals: the input's rows scaled to unit length.

  The grid has eight points. At point t both the input window and the output window hold block t: rows
  1024 t … 1024 t + 1023, all 256 lanes (the block's index is (t, 0)). The body's stored entry (r, d) is the loaded
  entry divided by the larger of the loaded row's length and the small constant, and the loaded row r of block t is
  row 1024 t + r of the input array; so what point t writes back is block t of the unit rows of the input array.
  Row n of the output array lies in the block of point n / 1024, so the eight blocks cover the array, and after the
  last point the array holds the unit rows everywhere.
-/
import proofs.«102017_j44607530336758_2_alg».proof.Proof.ValPayload
import proofs.«102017_j44607530336758_2_alg».proof.Proof.Gen.KernelIdeal.Points
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- At grid point t both windows' blocks start at block row t, block column 0. -/
theorem blockIndex : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The grid has eight points. -/
theorem point_lt (t : Fin cfg0.N) : t.val < 8 := Nat.lt_of_lt_of_eq t.isLt N_0

/-- Row r of block t is row 1024 t + r of the array. -/
def blockRow (t : Fin cfg0.N) (r : Fin 1024) : Fin 8192 :=
  ⟨1024 * t.val + r.val, by have h := point_lt t; omega⟩

/-- The input window's block at point t, read at (r, d): the input array at row 1024 t + r, lane d. -/
theorem normBlk_apply (c : Dev nD) (t : Fin cfg0.N) (r : Fin 1024) (d : Fin 256) :
    (normBlk V c 0 t : Vec Ideal S1024x256 .f32) (ix2 r d)
      = (V c main_arg0 : S8192x256.Idx → EReal) (ix2 (blockRow t r) d) := by
  obtain ⟨e0, e1, -, -⟩ := blockIndex t
  unfold normBlk
  rw [View.read_apply]
  show (V c main_arg0 : S8192x256.Idx → EReal) _ = (V c main_arg0 : S8192x256.Idx → EReal) _
  refine congrArg (V c main_arg0 : S8192x256.Idx → EReal) (funext fun a => Fin.ext ?_)
  match a with
  | ⟨0, _⟩ => show win0_0.index t (0 : Fin 2) * 1024 + 1 * r.val = 1024 * t.val + r.val; rw [e0]; omega
  | ⟨1, _⟩ => show win0_0.index t (1 : Fin 2) * 256 + 1 * d.val = d.val; rw [e1]; omega

/-- Entry (r, d) of the output window's block at point t sits at row 1024 t + r, lane d of the output array. -/
theorem outBlk_emb (t : Fin cfg0.N) (r : Fin 1024) (d : Fin 256) :
    ((cfg0.win 1).blk t).view.emb (ix2 r d) = (ix2 (blockRow t r) d : S8192x256.Idx) := by
  obtain ⟨-, -, e0, e1⟩ := blockIndex t
  refine funext fun a => Fin.ext ?_
  match a with
  | ⟨0, _⟩ => show win0_1.index t (0 : Fin 2) * 1024 + 1 * r.val = 1024 * t.val + r.val; rw [e0]; omega
  | ⟨1, _⟩ => show win0_1.index t (1 : Fin 2) * 256 + 1 * d.val = d.val; rw [e1]; omega

/-- What point t writes back is block t of the unit rows of the input array. -/
theorem normFlushed_eq (c : Dev nD) (t : Fin cfg0.N) :
    (normDat V c).flushed 1 t
      = ((cfg0.win 1).blk t).view.read (Elt Ideal) (Cert.NTXent.unitRows (V c main_arg0 : S8192x256.Idx → EReal)) := by
  show (cfg0.win 1).cut (grid0.coords t) ((normDat V c).after 1 t) = _
  rw [normDat_after1]
  funext j
  obtain ⟨r, d, rfl⟩ : ∃ (r : Fin 1024) (d : Fin 256), j = ix2 r d := ⟨j 0, j 1, eq_ix2 j⟩
  show normOut (normBlk V c 0 t) (ix2 r d)
    = Cert.NTXent.unitRows (V c main_arg0 : S8192x256.Idx → EReal) (((cfg0.win 1).blk t).view.emb (ix2 r d))
  rw [normOut_apply, outBlk_emb]
  show _ = Cert.NTXent.unitEntry (V c main_arg0 : S8192x256.Idx → EReal) (blockRow t r) d
  unfold Cert.NTXent.unitEntry Cert.NTXent.sqLen
  simp only [normBlk_apply]

/-- An index of the output array is in point t's block iff each coordinate is in the block's range. -/
theorem mem_outBlk (t : Fin cfg0.N) (i : S8192x256.Idx) :
    i ∈ ((cfg0.win 1).blk t).view.set
      ↔ ∀ a : Fin 2, win0_1.index t a * S1024x256.size a ≤ (i a).val ∧ (i a).val < win0_1.index t a * S1024x256.size a + S1024x256.size a := by
  show i ∈ ((View.whole main_v0).slice (win0_1.rect t)).set ↔ _
  rw [View.set_slice_whole, Rect.mem_set_unit]
  exact Iff.rfl

/-- Every row of the output array is in the block of the point numbered by the row's block: row n is written at
    point n / 1024. -/
theorem outCover (i : S8192x256.Idx) :
    ∃ t : Fin cfg0.N, (cfg0.win 1).flush t = true ∧ i ∈ ((cfg0.win 1).blk t).view.set := by
  have h0 : (i 0).val < 8192 := (i 0).isLt
  have h1 : (i 1).val < 256 := (i 1).isLt
  let t : Fin cfg0.N := ⟨(i 0).val / 1024, Nat.lt_of_lt_of_eq (by omega : (i 0).val / 1024 < 8) N_0.symm⟩
  obtain ⟨-, -, e0, e1⟩ := blockIndex t
  refine ⟨t, flush0_1 t, ?_⟩
  rw [mem_outBlk]
  intro a
  match a with
  | ⟨0, _⟩ =>
    show win0_1.index t (0 : Fin 2) * 1024 ≤ (i 0).val ∧ (i 0).val < win0_1.index t (0 : Fin 2) * 1024 + 1024
    rw [e0]; show (i 0).val / 1024 * 1024 ≤ (i 0).val ∧ (i 0).val < (i 0).val / 1024 * 1024 + 1024; omega
  | ⟨1, _⟩ =>
    show win0_1.index t (1 : Fin 2) * 256 ≤ (i 1).val ∧ (i 1).val < win0_1.index t (1 : Fin 2) * 256 + 256
    rw [e1]; omega

/-- After the eight points the output array holds the unit rows of the input array. -/
theorem normFinal (c : Dev nD) :
    ((normDat (F := Ideal) V c).arrAt 1 cfg0.N : S8192x256.Idx → EReal)
      = Cert.NTXent.unitRows (V c main_arg0 : S8192x256.Idx → EReal) :=
  (normDat V c).arrAt_eq_of_cover 1 (Cert.NTXent.unitRows (V c main_arg0 : S8192x256.Idx → EReal))
    (fun t _ => normFlushed_eq V c t) outCover

end Cert.KernelIdeal.Hand

end
-- ==== Proof.ValTail.lean ====
/-
  The host operations that follow the two kernels, over the extended reals.

  The second kernel leaves two columns of 8192 entries: each row's denominator and each row's positive. The host
  reads each column as a vector, divides the positives by ½ and negates them, adds the logarithms of the
  denominators, sums the 8192 results starting from 0, and divides the total by 4096. Composed, the twelve operations
  are one function of the two columns, and that function is the loss of the per-row denominators and positives:
  the sum over the rows n of −(P n / ½) + log (D n), divided by 4096. A sum over all the indices of a vector is the
  sum over its one coordinate's values.
-/
import proofs.«102017_j44607530336758_2_alg».proof.Proof.Gen.KernelIdeal.Launch
import proofs.«102017_j44607530336758_2_alg».proof.Proof.Spec
import Idealize.ShloMosaic.Lib.StableHlo.Run
import Idealize.ShloMosaic.Lib.Pipeline.Value
import Idealize.ShloMosaic.Lib.IdealHost
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-- The host operations after the two kernels, as one function of the two per-row columns: each column read as a
    vector of 8192 entries, the second divided by ½ and negated, the logarithm of the first added, the 8192 sums
    added up from 0, the total divided by 4096. -/
def lossTail (D P : S8192x1.Idx → EReal) : S_.Idx → EReal :=
  Host.divf (F := Ideal)
    (Host.reduceAdd (F := Ideal)
      (addf (F := Ideal)
        (Host.negf (F := Ideal)
          (Host.divf (F := Ideal) (shapeCast S8192 P shapeCasts_S8192x1_S8192)
            (broadcastInDim S8192 ![] bcast_S_S8192 (constant (F := Ideal) S_ .f32 0x3F000000#32))))
        (Host.log (F := Ideal) (shapeCast S8192 D shapeCasts_S8192x1_S8192)))
      (constant (F := Ideal) S_ .f32 0x00000000#32) reducesTo_S8192_S_d0 h_S_)
    (constant (F := Ideal) S_ .f32 0x45800000#32)

/-- After the twelve host operations, from any contents of the buffers, the result buffer holds that function of the
    two columns the second kernel left. -/
theorem after_hostTail (W : Valuation τ sig (Elt Ideal)) :
    (StableHlo.after (hostOps2 (F := Ideal)) W (Proc.devRef .tc main_v10) : S_.Idx → EReal)
      = lossTail (W (Proc.devRef .tc main_v1_0)) (W (Proc.devRef .tc main_v1_1)) := by
  show StableHlo.after hostOps2 W (Proc.devRef .tc main_v10) = _
  after_results
  rfl

/-- A column of 8192 entries read as a vector: entry n is the column's entry (n, 0). -/
theorem columnAsVector_apply {α : Type} (v : S8192x1.Idx → α) (h : S8192x1.ShapeCasts S8192) (n : Fin 8192) :
    shapeCast S8192 v h (ix1 n) = v (ix2 n (0 : Fin 1)) :=
  shapeCast_apply v h (ix1 n) (ix2 n (0 : Fin 1)) (by
    rw [Shape.rowMajor_val_one, Shape.rowMajor_val_two]
    show n.val * 1 + 0 = n.val
    omega)

/-- A vector's indices are its one coordinate's values. -/
def vectorIdxEquiv : Fin 8192 ≃ S8192.Idx where
  toFun n := ix1 n
  invFun i := i 0
  left_inv _ := rfl
  right_inv i := (eq_ix1 i).symm

/-- That function is the loss of the per-row denominators and positives the columns hold. -/
theorem lossTail_eq (D P : S8192x1.Idx → EReal) :
    lossTail D P = fun _ => Cert.NTXent.lossOf (fun n => D (ix2 n (0 : Fin 1))) (fun n => P (ix2 n (0 : Fin 1))) := by
  funext j
  unfold lossTail Cert.NTXent.lossOf
  show Ideal.div (Ideal.hostReduceAdd reducesTo_S8192_S_d0 _ (Ideal.ofBits .f32 0x00000000#32) j)
      (Ideal.ofBits .f32 0x45800000#32) = _
  rw [Ideal.hostReduceAdd_total reducesTo_S8192_S_d0 (fun b => b.elim0) _ _ j, Ideal.ofBits_zero_f32,
    ← Equiv.sum_comp vectorIdxEquiv]
  refine congrArg (fun s => Ideal.div (0 + s) Cert.NTXent.batch) ?_
  refine Finset.sum_congr rfl fun (n : Fin 8192) _ => ?_
  show -(Ideal.div (shapeCast S8192 P shapeCasts_S8192x1_S8192 (ix1 n))
          (broadcastInDim S8192 ![] bcast_S_S8192 (constant (F := Ideal) S_ .f32 0x3F000000#32) (ix1 n)))
        + Ideal.log (shapeCast S8192 D shapeCasts_S8192x1_S8192 (ix1 n)) = _
  rw [columnAsVector_apply, columnAsVector_apply, broadcastInDim_scalar_apply]
  rfl

end Cert.KernelIdeal.Hand

end
-- ==== Proof.ValSimPay.lean ====
/-
  What the similarity kernel's body computes at a grid point, entry by entry, over the extended reals.

  The body holds 1024 unit rows of the row tile and 1024 unit rows of the column tile. It multiplies the first block
  by the second turned on its side — entry (r, c) of the product is the dot product of row r of the row tile with
  row c of the column tile, a sum over the 256 lanes —, doubles the product and exponentiates it. It then adds each
  row's 1024 exponentials to the row's running sum; on the diagonal tile the row's own column, picked out by
  comparing the row's number with the column's, counts as 0. On the partner tile it takes the row-wise dot
  products of the two blocks. Both running buffers start from zero. The changes of word width and the recasts of a
  block to its own shape change nothing over the extended reals.
-/
import proofs.«102017_j44607530336758_2_alg».proof.Proof.ValPayload
import proofs.«102017_j44607530336758_2_alg».proof.Proof.Gen.KernelIdeal.Skeleton
import proofs.«102017_j44607530336758_2_alg».proof.Proof.Spec
import Idealize.ShloMosaic.Lib.Pipeline.Value
import Idealize.ShloMosaic.Lib.ValueIdx
import Idealize.ShloMosaic.Lib.Affine
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The product's operand indices: row r of the left factor against row c of the right, lane by lane -/

theorem simDot_lhs0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem simDot_lhs1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem simDot_rhs0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem simDot_rhs1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- A block of 1024 rows turned on its side reads, at (d, c), the block's entry (c, d). -/
theorem onSide_apply {α : Type} (v : S1024x256.Idx → α) (h : S1024x256.Transposes [1, 0] S256x1024) (d : Fin 256) (c : Fin 1024) :
    transpose S256x1024 [1, 0] v h (ix2 d c) = v (ix2 c d) :=
  transpose_apply [1, 0] v h (ix2 d c) (ix2 c d) (fun b => match b with
    | ⟨0, _⟩ => rfl
    | ⟨1, _⟩ => rfl)

/-- Entry (r, c) of the tile of exponentials: exp of twice the dot product of row r of the row tile with row c of
    the column tile. -/
theorem simExp_apply (x0 zj : Vec Ideal S1024x256 .bf16) (r c : Fin 1024) :
    k1_pay5 (F := Ideal) x0 zj (ix2 r c)
      = Ideal.exp ((∑ d : Fin 256, x0 (ix2 r d) * zj (ix2 c d)) * Cert.NTXent.two) := by
  unfold k1_pay5 k1_pay3 k1_pay4
  refine congrArg (fun s => Ideal.exp (s * Cert.NTXent.two)) ?_
  refine (Ideal.matmul_constant_zero_apply dot_S1024x256_S256x1024_S1024x1024_1_0_0_1_n_n none _ _ (ix2 r c)).trans ?_
  rw [← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r c) ((contrEquiv1 dot_S1024x256_S256x1024_S1024x1024_1_0_0_1_n_n 256 rfl rfl).symm k) = ix2 r k := funext fun a => Fin.ext (by
    match a with
    | ⟨0, _⟩ => exact simDot_lhs0 _ _
    | ⟨1, _⟩ => exact (simDot_lhs1 _ _).trans hk)
  have er : dot_S1024x256_S256x1024_S1024x1024_1_0_0_1_n_n.rhsIdx (ix2 r c) ((contrEquiv1 dot_S1024x256_S256x1024_S1024x1024_1_0_0_1_n_n 256 rfl rfl).symm k) = ix2 k c := funext fun a => Fin.ext (by
    match a with
    | ⟨0, _⟩ => exact (simDot_rhs0 _ _).trans hk
    | ⟨1, _⟩ => exact simDot_rhs1 _ _)
  rw [el, er, shapeCast_self, onSide_apply, shapeCast_self]

/-- The sum over the 1024 lanes of a square tile, read at row r. -/
theorem tileLaneSum_apply (v : FVec Ideal S1024x1024 .f32) (h : S1024x1024.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ c : Fin 1024, v (ix2 r c) :=
  (Ideal.multiReduction_add_single v 0x00000000#32 h hφ hacc (ix1 r)).trans
    (Finset.sum_congr rfl fun k _ => congrArg v (funext fun c => Fin.ext (by
      match c with
      | ⟨0, _⟩ => rfl
      | ⟨1, _⟩ => rfl)))

/-- Off the diagonal, a column tile adds to each row's running sum the row's 1024 exponentials. -/
theorem offDiagStep_apply (x0 zj : Vec Ideal S1024x256 .bf16) (a : Vec Ideal S1024x1 .f32) (r : Fin 1024) :
    k1_pay7 (F := Ideal) x0 zj a (ix2 r (0 : Fin 1))
      = a (ix2 r (0 : Fin 1))
        + ∑ c : Fin 1024, Ideal.exp ((∑ d : Fin 256, x0 (ix2 r d) * zj (ix2 c d)) * Cert.NTXent.two) := by
  unfold k1_pay7
  refine (congrFun (shapeCast_self _ _) _).trans ?_
  refine congrArg (fun s => a (ix2 r (0 : Fin 1)) + s) ?_
  refine (asColumn_apply _ _ r).trans ?_
  refine (tileLaneSum_apply _ _ _ _ r).trans ?_
  exact Finset.sum_congr rfl fun c _ => simExp_apply x0 zj r c

/-- Two indices below 1024, as 32-bit words, are equal words exactly when they are equal. -/
theorem select_sameIndex {α : Type} (r c : Fin 1024) (A B : α) :
    Scalar.select (IntOp.cmpi .eq (BitVec.ofNat 32 r.val) (BitVec.ofNat 32 c.val)) A B = if r = c then A else B := by
  by_cases h : r = c
  · subst h
    rw [if_pos rfl, IntOp.cmpi_eq.mpr rfl, select_one]
  · rw [if_neg h]
    have hne : IntOp.cmpi .eq (BitVec.ofNat 32 r.val) (BitVec.ofNat 32 c.val) ≠ 1#1 := fun e => h (Fin.ext (by
      have e' := congrArg BitVec.toNat (IntOp.cmpi_eq.mp e)
      simp only [BitVec.toNat_ofNat] at e'
      have hr := r.isLt
      have hc := c.isLt
      omega))
    rw [eq_zero_of_ne_one hne, select_zero]

/-- On the diagonal tile the same, the row's own column left out. -/
theorem diagStep_apply (x0 zj : Vec Ideal S1024x256 .bf16) (a : Vec Ideal S1024x1 .f32) (r : Fin 1024) :
    k1_pay6 (F := Ideal) x0 zj a (ix2 r (0 : Fin 1))
      = a (ix2 r (0 : Fin 1))
        + ∑ c : Fin 1024, (if r = c then 0
            else Ideal.exp ((∑ d : Fin 256, x0 (ix2 r d) * zj (ix2 c d)) * Cert.NTXent.two)) := by
  unfold k1_pay6
  refine (congrFun (shapeCast_self _ _) _).trans ?_
  refine congrArg (fun s => a (ix2 r (0 : Fin 1)) + s) ?_
  refine (asColumn_apply _ _ r).trans ?_
  refine (tileLaneSum_apply _ _ _ _ r).trans ?_
  refine Finset.sum_congr rfl fun c _ => ?_
  show Scalar.select (IntOp.cmpi .eq (iota .tc S1024x1024 32 [0] iota_S1024x1024_d0_w32 (ix2 r c))
      (iota .tc S1024x1024 32 [1] iota_S1024x1024_d1_w32 (ix2 r c))) (Ideal.ofBits .f32 0x00000000#32) (k1_pay5 (F := Ideal) x0 zj (ix2 r c)) = _
  rw [iota_single_apply, iota_single_apply, Ideal.ofBits_zero_f32, simExp_apply]
  exact select_sameIndex r c _ _

/-- On the partner tile the positives are the row-wise dot products of the two tiles. -/
theorem dotStep_apply (x0 zj : Vec Ideal S1024x256 .bf16) (r : Fin 1024) :
    k1_pay8 (F := Ideal) x0 zj (ix2 r (0 : Fin 1)) = ∑ d : Fin 256, x0 (ix2 r d) * zj (ix2 r d) := by
  unfold k1_pay8 k1_pay3 k1_pay4
  refine (congrFun (shapeCast_self _ _) _).trans ?_
  refine (asColumn_apply _ _ r).trans ?_
  refine (laneSum_apply _ _ _ _ r).trans ?_
  refine Finset.sum_congr rfl fun d _ => ?_
  show shapeCast S1024x256 x0 shapeCasts_S1024x256_S1024x256 (ix2 r d) * shapeCast S1024x256 zj shapeCasts_S1024x256_S1024x256 (ix2 r d) = _
  rw [shapeCast_self, shapeCast_self]

/-- Both running buffers start from zero. -/
theorem zeroDenom_apply (r : Fin 1024) : k1_pay1 (F := Ideal) (ix2 r (0 : Fin 1)) = 0 := by
  unfold k1_pay1
  refine (congrFun (shapeCast_self _ _) _).trans ?_
  exact Ideal.ofBits_zero_f32
theorem zeroPos_apply (r : Fin 1024) : k1_pay2 (F := Ideal) (ix2 r (0 : Fin 1)) = 0 := by
  unfold k1_pay2
  refine (congrFun (shapeCast_self _ _) _).trans ?_
  exact Ideal.ofBits_zero_f32

end Cert.KernelIdeal.Hand

end
-- ==== Proof.ValSimFinal.lean ====
/-
  What the similarity kernel leaves in its two output arrays, over the extended reals: every row's denominator and
  every row's positive, as functions of the array z of unit rows it reads.

  The grid is 8 × 8: point t is row tile t / 8 against column tile t % 8. At point t the row window holds the 1024
  rows of row tile t / 8, the second input window holds the whole array, out of which the body loads the 1024 rows
  of column tile t % 8, and each output window stands at block t / 8 of its array. Entry (r, c) of the point's tile
  of exponentials is exp (2 · sim), sim the dot product of row r of the row tile with row c of the column tile. By
  induction along a row tile's sweep, after point n the running denominator of row r is the sum of what column
  tiles 0 … n % 8 add (the first tile added to 0; on the diagonal tile the row's own column counts as 0), and the
  positives of row r are the dot product with the same row of the partner tile, four tiles further on cyclically,
  once the sweep has met that tile, and 0 before. Only the last point of a sweep writes back; by then all eight
  column tiles are in the denominator and the partner tile has been met. Row n of either output array lies in the
  block written at the last point of the sweep of row tile n / 1024, so the eight written blocks cover each array.
-/
import proofs.«102017_j44607530336758_2_alg».proof.Proof.ValSimPay
import proofs.«102017_j44607530336758_2_alg».proof.Proof.SimFrame
import proofs.«102017_j44607530336758_2_alg».proof.Proof.Gen.KernelIdeal.Points
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

open Cert.NTXent (tileRow tileSum denomUpTo denom positive partnerTile tileOf offOf sim)

variable (V : (c : Dev nD) → (b : Ref sig .tc) → Buf (Elt Ideal) ((c : Thread nD τ).loc b))

/-! ## The grid: point t is row tile t / 8 against column tile t % 8 -/

/-- The grid has 64 points. -/
theorem simPoint_lt (t : Fin cfg1.N) : t.val < 64 := Nat.lt_of_lt_of_eq t.isLt N_1

/-- The row tile and the column tile of a point. -/
def rowTileOf (t : Fin cfg1.N) : Fin 8 := ⟨t.val / 8, by have := simPoint_lt t; omega⟩
def colTileOf (t : Fin cfg1.N) : Fin 8 := ⟨t.val % 8, Nat.mod_lt _ (by decide)⟩

/-- At point t the row window and the two output windows hold block t / 8 of their arrays, the second input window
    the whole array, and the body loads the 1024 rows of column tile t % 8 out of it. -/
theorem simIndex : ∀ t : Fin cfg1.N,
    win1_0.index t (0 : Fin 2) = t.val / 8 ∧ win1_0.index t (1 : Fin 2) = 0
    ∧ win1_1.index t (0 : Fin 2) = 0 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0
    ∧ k1_off1 (grid1.coords t) (0 : Fin 2) = 1024 * (t.val % 8) ∧ k1_off1 (grid1.coords t) (1 : Fin 2) = 0 :=
  (by decide +kernel : ∀ t : Fin grid1.N, _)

/-- The row window's block at point t: the 1024 rows of row tile t / 8. -/
theorem simRowTile_apply (c : Dev nD) (t : Fin cfg1.N) (r : Fin 1024) (d : Fin 256) :
    (simBlk V c 0 t : Vec Ideal S1024x256 .bf16) (ix2 r d) = (V c main_v0 : S8192x256.Idx → EReal) (ix2 (tileRow (rowTileOf t) r) d) := by
  obtain ⟨e0, e1, -⟩ := simIndex t
  unfold simBlk
  rw [View.read_apply]
  show (V c main_v0 : S8192x256.Idx → EReal) _ = (V c main_v0 : S8192x256.Idx → EReal) _
  refine congrArg (V c main_v0 : S8192x256.Idx → EReal) (funext fun a => Fin.ext ?_)
  match a with
  | ⟨0, _⟩ => show win1_0.index t (0 : Fin 2) * 1024 + 1 * r.val = 1024 * (t.val / 8) + r.val; rw [e0]; omega
  | ⟨1, _⟩ => show win1_0.index t (1 : Fin 2) * 256 + 1 * d.val = d.val; rw [e1]; omega

/-- The second input window's block at any point is the whole array. -/
theorem simWhole_apply (c : Dev nD) (t : Fin cfg1.N) (n : Fin 8192) (d : Fin 256) :
    (simBlk V c 1 t : Vec Ideal S8192x256 .bf16) (ix2 n d) = (V c main_v0 : S8192x256.Idx → EReal) (ix2 n d) := by
  obtain ⟨-, -, e0, e1, -⟩ := simIndex t
  unfold simBlk
  rw [View.read_apply]
  show (V c main_v0 : S8192x256.Idx → EReal) _ = (V c main_v0 : S8192x256.Idx → EReal) _
  refine congrArg (V c main_v0 : S8192x256.Idx → EReal) (funext fun a => Fin.ext ?_)
  match a with
  | ⟨0, _⟩ => show win1_1.index t (0 : Fin 2) * 8192 + 1 * n.val = n.val; rw [e0]; omega
  | ⟨1, _⟩ => show win1_1.index t (1 : Fin 2) * 256 + 1 * d.val = d.val; rw [e1]; omega

/-- The rows the body loads out of it: the 1024 rows of column tile t % 8. -/
theorem simColTile_apply (c : Dev nD) (t : Fin cfg1.N) (r : Fin 1024) (d : Fin 256) :
    tileOfRows (grid1.coords t) (simBlk V c 1 t) (ix2 r d) = (V c main_v0 : S8192x256.Idx → EReal) (ix2 (tileRow (colTileOf t) r) d) := by
  obtain ⟨-, -, -, -, -, -, -, -, o0, o1⟩ := simIndex t
  have e : (Rect.unit (s := S8192x256) (k1_off1 (grid1.coords t)) S1024x256.size (k1_off1_inb (grid1.coords t))).emb (ix2 r d)
      = (ix2 (tileRow (colTileOf t) r) d : S8192x256.Idx) := funext fun a => Fin.ext (by
    match a with
    | ⟨0, _⟩ => show k1_off1 (grid1.coords t) (0 : Fin 2) + 1 * r.val = 1024 * (t.val % 8) + r.val; rw [o0]; omega
    | ⟨1, _⟩ => show k1_off1 (grid1.coords t) (1 : Fin 2) + 1 * d.val = d.val; rw [o1]; omega)
  unfold tileOfRows
  show (simBlk V c 1 t : Vec Ideal S8192x256 .bf16) ((Rect.unit (s := S8192x256) (k1_off1 (grid1.coords t)) S1024x256.size (k1_off1_inb (grid1.coords t))).emb (ix2 r d)) = _
  rw [e, simWhole_apply]

/-! ## One point's step on the two running buffers -/

theorem denomUpTo_succ (z : Cert.NTXent.Mat) (a : Fin 8) (r : Fin 1024) (k : ℕ) (hk : k < 8) :
    denomUpTo z a r (k + 1) = denomUpTo z a r k + tileSum z a r ⟨k, hk⟩ := by
  show denomUpTo z a r k + (if h : k < 8 then tileSum z a r ⟨k, h⟩ else 0) = _
  rw [dif_pos hk]

/-- At point t the running denominator of row r gains what column tile t % 8 adds to row r of row tile t / 8, on
    top of 0 at the first column tile and of what it held otherwise. -/
theorem accStep_apply (c : Dev nD) (t : Fin cfg1.N) (acc : Vec Ideal S1024x1 .f32) (r : Fin 1024) :
    accStep V c t acc (ix2 r (0 : Fin 1))
      = (if t.val % 8 = 0 then 0 else acc (ix2 r (0 : Fin 1))) + tileSum (V c main_v0 : S8192x256.Idx → EReal) (rowTileOf t) r (colTileOf t) := by
  have hstart : (if t.val % 8 = 0 then k1_pay1 (F := Ideal) else acc) (ix2 r (0 : Fin 1))
      = if t.val % 8 = 0 then 0 else acc (ix2 r (0 : Fin 1)) := by
    by_cases h1 : t.val % 8 = 0
    · rw [if_pos h1, if_pos h1]; exact zeroDenom_apply r
    · rw [if_neg h1, if_neg h1]
  unfold accStep
  by_cases h2 : t.val / 8 = t.val % 8
  · rw [if_pos h2]
    refine (diagStep_apply _ _ _ r).trans ?_
    rw [hstart]
    refine congrArg (fun s => (if t.val % 8 = 0 then (0 : EReal) else acc (ix2 r (0 : Fin 1))) + s) ?_
    unfold Cert.NTXent.tileSum Cert.NTXent.sim
    rw [if_pos (show rowTileOf t = colTileOf t from Fin.ext h2)]
    simp only [simRowTile_apply, simColTile_apply]
  · rw [if_neg h2]
    refine (offDiagStep_apply _ _ _ r).trans ?_
    rw [hstart]
    refine congrArg (fun s => (if t.val % 8 = 0 then (0 : EReal) else acc (ix2 r (0 : Fin 1))) + s) ?_
    unfold Cert.NTXent.tileSum Cert.NTXent.sim
    rw [if_neg (show ¬ rowTileOf t = colTileOf t from fun e => h2 (congrArg Fin.val e))]
    simp only [simRowTile_apply, simColTile_apply]

/-- After point n the running denominator of row r holds the sum over the column tiles 0 … n % 8. -/
theorem accAt_eq (c : Dev nD) : ∀ (n : ℕ) (hn : n < cfg1.N) (r : Fin 1024),
    accAt V c n hn (ix2 r (0 : Fin 1)) = denomUpTo (V c main_v0 : S8192x256.Idx → EReal) (rowTileOf ⟨n, hn⟩) r (n % 8 + 1)
  | 0, hn, r => by
    show accStep V c ⟨0, hn⟩ _ (ix2 r (0 : Fin 1)) = _
    rw [accStep_apply]
    show (if 0 % 8 = 0 then (0 : EReal) else _) + _ = denomUpTo _ _ r (0 + 1)
    rw [if_pos rfl, denomUpTo_succ _ _ _ 0 (by decide)]
    rfl
  | n + 1, hn, r => by
    have hlt : n + 1 < 64 := Nat.lt_of_lt_of_eq hn N_1
    show accStep V c ⟨n + 1, hn⟩ (accAt V c n (Nat.lt_of_succ_lt hn)) (ix2 r (0 : Fin 1)) = _
    rw [accStep_apply]
    show (if (n + 1) % 8 = 0 then (0 : EReal) else _) + _ = _
    by_cases h1 : (n + 1) % 8 = 0
    · rw [if_pos h1, h1, denomUpTo_succ _ _ _ 0 (by decide)]
      have ec : colTileOf ⟨n + 1, hn⟩ = ⟨0, by decide⟩ := Fin.ext h1
      rw [ec]
      rfl
    · rw [if_neg h1, accAt_eq c n (Nat.lt_of_succ_lt hn) r]
      have er : rowTileOf ⟨n, Nat.lt_of_succ_lt hn⟩ = rowTileOf ⟨n + 1, hn⟩ := Fin.ext (by show n / 8 = (n + 1) / 8; omega)
      have e2 : (n + 1) % 8 = n % 8 + 1 := by omega
      have hk : n % 8 + 1 < 8 := by omega
      have ec : colTileOf ⟨n + 1, hn⟩ = ⟨n % 8 + 1, hk⟩ := Fin.ext e2
      rw [er, e2, ec, denomUpTo_succ _ _ _ (n % 8 + 1) hk]

/-- At point t the positives become the dot products with the partner tile when the column tile is the partner;
    otherwise 0 at the first column tile, and what they held elsewhere. -/
theorem posStep_apply (c : Dev nD) (t : Fin cfg1.N) (p : Vec Ideal S1024x1 .f32) (r : Fin 1024) :
    posStep V c t p (ix2 r (0 : Fin 1))
      = if t.val % 8 = (t.val / 8 + 4) % 8 then positive (V c main_v0 : S8192x256.Idx → EReal) (rowTileOf t) r
        else if t.val % 8 = 0 then 0 else p (ix2 r (0 : Fin 1)) := by
  unfold posStep
  by_cases h4 : t.val % 8 = (t.val / 8 + 4) % 8
  · rw [if_pos h4, if_pos h4]
    refine (dotStep_apply _ _ r).trans ?_
    unfold Cert.NTXent.positive
    have ep : colTileOf t = partnerTile (rowTileOf t) := Fin.ext h4
    simp only [simRowTile_apply, simColTile_apply, ep]
  · rw [if_neg h4, if_neg h4]
    by_cases h1 : t.val % 8 = 0
    · rw [if_pos h1, if_pos h1]; exact zeroPos_apply r
    · rw [if_neg h1, if_neg h1]

/-- After point n the positives of row r hold the dot product with the partner tile once that tile has been met in
    the row tile's sweep, and 0 before. -/
theorem posAt_eq (c : Dev nD) : ∀ (n : ℕ) (hn : n < cfg1.N) (r : Fin 1024),
    posAt V c n hn (ix2 r (0 : Fin 1))
      = if (n / 8 + 4) % 8 ≤ n % 8 then positive (V c main_v0 : S8192x256.Idx → EReal) (rowTileOf ⟨n, hn⟩) r else 0
  | 0, hn, r => by
    show posStep V c ⟨0, hn⟩ _ (ix2 r (0 : Fin 1)) = _
    rw [posStep_apply]
    show (if 0 % 8 = (0 / 8 + 4) % 8 then _ else if 0 % 8 = 0 then (0 : EReal) else _) = if (0 / 8 + 4) % 8 ≤ 0 % 8 then _ else 0
    rw [if_neg (by decide), if_pos rfl, if_neg (by decide)]
  | n + 1, hn, r => by
    have hlt : n + 1 < 64 := Nat.lt_of_lt_of_eq hn N_1
    show posStep V c ⟨n + 1, hn⟩ (posAt V c n (Nat.lt_of_succ_lt hn)) (ix2 r (0 : Fin 1)) = _
    rw [posStep_apply]
    show (if (n + 1) % 8 = ((n + 1) / 8 + 4) % 8 then _ else if (n + 1) % 8 = 0 then (0 : EReal) else _) = _
    by_cases h4 : (n + 1) % 8 = ((n + 1) / 8 + 4) % 8
    · rw [if_pos h4, if_pos (by omega)]
    · rw [if_neg h4]
      by_cases h1 : (n + 1) % 8 = 0
      · rw [if_pos h1, if_neg (by omega)]
      · rw [if_neg h1, posAt_eq c n (Nat.lt_of_succ_lt hn) r]
        have er : rowTileOf ⟨n, Nat.lt_of_succ_lt hn⟩ = rowTileOf ⟨n + 1, hn⟩ := Fin.ext (by show n / 8 = (n + 1) / 8; omega)
        rw [er]
        by_cases hle : (n / 8 + 4) % 8 ≤ n % 8
        · rw [if_pos hle, if_pos (by omega)]
        · rw [if_neg hle, if_neg (by omega)]

/-! ## From the blocks to the two output arrays -/

/-- The last point of row tile a's sweep. -/
def lastPoint (a : Fin 8) : Fin cfg1.N := ⟨8 * a.val + 7, Nat.lt_of_lt_of_eq (by have := a.isLt; omega) N_1.symm⟩

/-- Entry (r, 0) of either output window's block at point t sits at row 1024 (t / 8) + r of its array. -/
theorem outDenom_emb (t : Fin cfg1.N) (r : Fin 1024) :
    ((cfg1.win 2).blk t).view.emb (ix2 r (0 : Fin 1)) = (ix2 (tileRow (rowTileOf t) r) (0 : Fin 1) : S8192x1.Idx) := by
  obtain ⟨-, -, -, -, e0, e1, -⟩ := simIndex t
  refine funext fun a => Fin.ext ?_
  match a with
  | ⟨0, _⟩ => show win1_2.index t (0 : Fin 2) * 1024 + 1 * r.val = 1024 * (t.val / 8) + r.val; rw [e0]; omega
  | ⟨1, _⟩ => show win1_2.index t (1 : Fin 2) * 1 + 1 * 0 = 0; rw [e1]
theorem outPos_emb (t : Fin cfg1.N) (r : Fin 1024) :
    ((cfg1.win 3).blk t).view.emb (ix2 r (0 : Fin 1)) = (ix2 (tileRow (rowTileOf t) r) (0 : Fin 1) : S8192x1.Idx) := by
  obtain ⟨-, -, -, -, -, -, e0, e1, -⟩ := simIndex t
  refine funext fun a => Fin.ext ?_
  match a with
  | ⟨0, _⟩ => show win1_3.index t (0 : Fin 2) * 1024 + 1 * r.val = 1024 * (t.val / 8) + r.val; rw [e0]; omega
  | ⟨1, _⟩ => show win1_3.index t (1 : Fin 2) * 1 + 1 * 0 = 0; rw [e1]

/-- Row r of tile a is row 1024 a + r: its tile is a and its place in the tile is r. -/
theorem tileOf_tileRow (a : Fin 8) (r : Fin 1024) : tileOf (tileRow a r) = a :=
  Fin.ext (by show (1024 * a.val + r.val) / 1024 = a.val; have := r.isLt; omega)
theorem offOf_tileRow (a : Fin 8) (r : Fin 1024) : offOf (tileRow a r) = r :=
  Fin.ext (by show (1024 * a.val + r.val) % 1024 = r.val; have := r.isLt; omega)

/-- What a flushing point — the last of a row tile's sweep — writes back to the first output: the row tile's block
    of the denominators. -/
theorem simFlushedDenom_eq (c : Dev nD) (t : Fin cfg1.N) (hf : (cfg1.win 2).flush t = true) :
    (simDat V c).flushed 2 t
      = ((cfg1.win 2).blk t).view.read (Elt Ideal)
          (fun i : S8192x1.Idx => denom (V c main_v0 : S8192x256.Idx → EReal) (tileOf (i 0)) (offOf (i 0))) := by
  have h7 : t.val % 8 = 7 := (flush1_2 t).mp hf
  show (cfg1.win 2).cut (grid1.coords t) ((simDat V c).after 2 t) = _
  rw [simDat_after2]
  funext j
  obtain ⟨r, q, rfl⟩ : ∃ (r : Fin 1024) (q : Fin 1), j = ix2 r q := ⟨j 0, j 1, eq_ix2 j⟩
  obtain rfl : q = 0 := Subsingleton.elim _ _
  show accAt V c t.val t.isLt (ix2 r (0 : Fin 1))
    = (fun i : S8192x1.Idx => denom (V c main_v0 : S8192x256.Idx → EReal) (tileOf (i 0)) (offOf (i 0))) (((cfg1.win 2).blk t).view.emb (ix2 r (0 : Fin 1)))
  rw [accAt_eq, outDenom_emb]
  show _ = denom (V c main_v0 : S8192x256.Idx → EReal) (tileOf (tileRow (rowTileOf t) r)) (offOf (tileRow (rowTileOf t) r))
  rw [tileOf_tileRow, offOf_tileRow, h7]
  rfl

/-- … and to the second: the row tile's block of the positives. -/
theorem simFlushedPos_eq (c : Dev nD) (t : Fin cfg1.N) (hf : (cfg1.win 3).flush t = true) :
    (simDat V c).flushed 3 t
      = ((cfg1.win 3).blk t).view.read (Elt Ideal)
          (fun i : S8192x1.Idx => positive (V c main_v0 : S8192x256.Idx → EReal) (tileOf (i 0)) (offOf (i 0))) := by
  have h7 : t.val % 8 = 7 := (flush1_3 t).mp hf
  show (cfg1.win 3).cut (grid1.coords t) ((simDat V c).after 3 t) = _
  rw [simDat_after3]
  funext j
  obtain ⟨r, q, rfl⟩ : ∃ (r : Fin 1024) (q : Fin 1), j = ix2 r q := ⟨j 0, j 1, eq_ix2 j⟩
  obtain rfl : q = 0 := Subsingleton.elim _ _
  show posAt V c t.val t.isLt (ix2 r (0 : Fin 1))
    = (fun i : S8192x1.Idx => positive (V c main_v0 : S8192x256.Idx → EReal) (tileOf (i 0)) (offOf (i 0))) (((cfg1.win 3).blk t).view.emb (ix2 r (0 : Fin 1)))
  rw [posAt_eq, outPos_emb, if_pos (by omega)]
  show _ = positive (V c main_v0 : S8192x256.Idx → EReal) (tileOf (tileRow (rowTileOf t) r)) (offOf (tileRow (rowTileOf t) r))
  rw [tileOf_tileRow, offOf_tileRow]

/-- An index of an output array is in point t's block iff each coordinate is in the block's range. -/
theorem mem_outDenom (t : Fin cfg1.N) (i : S8192x1.Idx) :
    i ∈ ((cfg1.win 2).blk t).view.set
      ↔ ∀ a : Fin 2, win1_2.index t a * S1024x1.size a ≤ (i a).val ∧ (i a).val < win1_2.index t a * S1024x1.size a + S1024x1.size a := by
  show i ∈ ((View.whole main_v1_0).slice (win1_2.rect t)).set ↔ _
  rw [View.set_slice_whole, Rect.mem_set_unit]
  exact Iff.rfl
theorem mem_outPos (t : Fin cfg1.N) (i : S8192x1.Idx) :
    i ∈ ((cfg1.win 3).blk t).view.set
      ↔ ∀ a : Fin 2, win1_3.index t a * S1024x1.size a ≤ (i a).val ∧ (i a).val < win1_3.index t a * S1024x1.size a + S1024x1.size a := by
  show i ∈ ((View.whole main_v1_1).slice (win1_3.rect t)).set ↔ _
  rw [View.set_slice_whole, Rect.mem_set_unit]
  exact Iff.rfl

/-- Row n of either output array is written at the last point of the sweep of row tile n / 1024. -/
theorem outDenomCover (i : S8192x1.Idx) :
    ∃ t : Fin cfg1.N, (cfg1.win 2).flush t = true ∧ i ∈ ((cfg1.win 2).blk t).view.set := by
  have h0 : (i 0).val < 8192 := (i 0).isLt
  have h1 : (i 1).val < 1 := (i 1).isLt
  let a : Fin 8 := ⟨(i 0).val / 1024, by omega⟩
  obtain ⟨-, -, -, -, e0, e1, -⟩ := simIndex (lastPoint a)
  refine ⟨lastPoint a, (flush1_2 (lastPoint a)).mpr (by show (8 * ((i 0).val / 1024) + 7) % 8 = 7; omega), ?_⟩
  rw [mem_outDenom]
  intro b
  match b with
  | ⟨0, _⟩ =>
    show win1_2.index (lastPoint a) (0 : Fin 2) * 1024 ≤ (i 0).val ∧ (i 0).val < win1_2.index (lastPoint a) (0 : Fin 2) * 1024 + 1024
    rw [e0]; show (8 * ((i 0).val / 1024) + 7) / 8 * 1024 ≤ (i 0).val ∧ (i 0).val < (8 * ((i 0).val / 1024) + 7) / 8 * 1024 + 1024; omega
  | ⟨1, _⟩ =>
    show win1_2.index (lastPoint a) (1 : Fin 2) * 1 ≤ (i 1).val ∧ (i 1).val < win1_2.index (lastPoint a) (1 : Fin 2) * 1 + 1
    rw [e1]; omega
theorem outPosCover (i : S8192x1.Idx) :
    ∃ t : Fin cfg1.N, (cfg1.win 3).flush t = true ∧ i ∈ ((cfg1.win 3).blk t).view.set := by
  have h0 : (i 0).val < 8192 := (i 0).isLt
  have h1 : (i 1).val < 1 := (i 1).isLt
  let a : Fin 8 := ⟨(i 0).val / 1024, by omega⟩
  obtain ⟨-, -, -, -, -, -, e0, e1, -⟩ := simIndex (lastPoint a)
  refine ⟨lastPoint a, (flush1_3 (lastPoint a)).mpr (by show (8 * ((i 0).val / 1024) + 7) % 8 = 7; omega), ?_⟩
  rw [mem_outPos]
  intro b
  match b with
  | ⟨0, _⟩ =>
    show win1_3.index (lastPoint a) (0 : Fin 2) * 1024 ≤ (i 0).val ∧ (i 0).val < win1_3.index (lastPoint a) (0 : Fin 2) * 1024 + 1024
    rw [e0]; show (8 * ((i 0).val / 1024) + 7) / 8 * 1024 ≤ (i 0).val ∧ (i 0).val < (8 * ((i 0).val / 1024) + 7) / 8 * 1024 + 1024; omega
  | ⟨1, _⟩ =>
    show win1_3.index (lastPoint a) (1 : Fin 2) * 1 ≤ (i 1).val ∧ (i 1).val < win1_3.index (lastPoint a) (1 : Fin 2) * 1 + 1
    rw [e1]; omega

/-- After the 64 points the first output array holds every row's denominator, -/
theorem simFinalDenom (c : Dev nD) :
    ((simDat (F := Ideal) V c).arrAt 2 cfg1.N : S8192x1.Idx → EReal)
      = fun i => Cert.NTXent.denom (V c main_v0 : S8192x256.Idx → EReal) (Cert.NTXent.tileOf (i 0)) (Cert.NTXent.offOf (i 0)) :=
  (simDat V c).arrAt_eq_of_cover 2 (fun i : S8192x1.Idx => denom (V c main_v0 : S8192x256.Idx → EReal) (tileOf (i 0)) (offOf (i 0)))
    (fun t hf => simFlushedDenom_eq V c t hf) outDenomCover

/-- and the second every row's positive. -/
theorem simFinalPos (c : Dev nD) :
    ((simDat (F := Ideal) V c).arrAt 3 cfg1.N : S8192x1.Idx → EReal)
      = fun i => Cert.NTXent.positive (V c main_v0 : S8192x256.Idx → EReal) (Cert.NTXent.tileOf (i 0)) (Cert.NTXent.offOf (i 0)) :=
  (simDat V c).arrAt_eq_of_cover 3 (fun i : S8192x1.Idx => positive (V c main_v0 : S8192x256.Idx → EReal) (tileOf (i 0)) (offOf (i 0)))
    (fun t hf => simFlushedPos_eq V c t hf) outPosCover

end Cert.KernelIdeal.Hand

end
-- ==== Proof.KValue.lean ====
/-
  The kernel program's result over the extended reals: the loss of its input. The first launch leaves the unit rows
  of the input in its output array; the second, reading that array, leaves every row's denominator and positive in
  its two output arrays; the host operations make the loss out of those.
-/
import proofs.«102017_j44607530336758_2_alg».proof.Proof.KRun
import proofs.«102017_j44607530336758_2_alg».proof.Proof.ValFinal
import proofs.«102017_j44607530336758_2_alg».proof.Proof.ValTail
import proofs.«102017_j44607530336758_2_alg».proof.Proof.ValSimFinal
import proofs.«102017_j44607530336758_2_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- After the first launch its output array holds the unit rows of the input. -/
theorem unitRows_at (c : Dev nD) :
    (V1 (F := Ideal) m ρ c main_v0 : S8192x256.Idx → EReal) = Cert.NTXent.unitRows (m ((c : Thread nD τ).loc main_arg0)) :=
  (W1_arr m ρ c 1).trans (normFinal (V0 m ρ) c)

/-- The program's result is the loss of its input. -/
theorem kernel_loss (c : Dev nD) :
    (W3 (F := Ideal) m ρ c (Proc.devRef .tc main_v10) : S_.Idx → EReal) = fun _ => Cert.NTXent.loss (m ((c : Thread nD τ).loc main_arg0)) := by
  refine (after_hostTail (W2 m ρ c)).trans ?_
  rw [W2_out2, W2_out3, lossTail_eq, simFinalDenom, simFinalPos, unitRows_at]
  rfl

end Cert.KernelIdeal.Hand

end
-- ==== Proof.RefRead.lean ====
/-
  The reference's run and its stages read at an index (generated modules), gathered under one import.
-/
import proofs.«102017_j44607530336758_2_alg».proof.Proof.Gen.ReferenceIdeal.Run
import proofs.«102017_j44607530336758_2_alg».proof.Proof.Gen.ReferenceIdeal.Read
-- ==== Proof.RefPos.lean ====
/-
  The reference's positives. It gathers two diagonals of its similarity matrix — the entries (p, p + 4096) and the
  entries (p + 4096, p), p below 4096 — with pair indices it computes as 32-bit integers (a count, plus 4096, a test for
  a negative value that never fires, so no 8192 is ever added), and joins the two. A gather reads each index component
  signed and clamps it into the axis; all components here lie in [0, 8191], so nothing wraps and nothing is clamped.
  Entry n of the joined array is therefore the matrix at row n and column (n + 4096) mod 8192.
-/
import proofs.«102017_j44607530336758_2_alg».proof.Proof.RefRead

noncomputable section

namespace Cert.NTXent.Ref

open Cert.ReferenceIdeal Cert.ReferenceIdeal.Gen Cert.ReferenceIdeal.Read Idealize.ShloMosaic Idealize.ShloMosaic.ValueIdx

/-- The start of the slice on the row axis: the pair's first word, read signed and clamped. -/
theorem gather_start0 (idx : IVec S4096x2 32) (p : Fin 4096) :
    gather_S8192x8192_S4096x2_S4096_n_01_n_n_01_1_11.start (ix1 p) idx (0 : Fin 2) = min (idx (ix2 p (0 : Fin 2))).toInt.toNat 8191 := by
  unfold GatherDims.start
  rw [dif_pos (show (0 : Fin 2) ∈ gather_S8192x8192_S4096x2_S4096_n_01_n_n_01_1_11.startIndexMap by decide)]
  have hsi : gather_S8192x8192_S4096x2_S4096_n_01_n_n_01_1_11.siIdx (ix1 p) ⟨List.idxOf (0 : Fin 2) gather_S8192x8192_S4096x2_S4096_n_01_n_n_01_1_11.startIndexMap,
      List.idxOf_lt_length_iff.2 (by decide)⟩ = ix2 p (0 : Fin 2) := by
    funext b; refine Fin.ext ?_
    match b with
    | ⟨0, _⟩ => rfl
    | ⟨1, _⟩ => rfl
  rw [hsi]
  rfl

/-- The start of the slice on the column axis: the pair's second word, read signed and clamped. -/
theorem gather_start1 (idx : IVec S4096x2 32) (p : Fin 4096) :
    gather_S8192x8192_S4096x2_S4096_n_01_n_n_01_1_11.start (ix1 p) idx (1 : Fin 2) = min (idx (ix2 p (1 : Fin 2))).toInt.toNat 8191 := by
  unfold GatherDims.start
  rw [dif_pos (show (1 : Fin 2) ∈ gather_S8192x8192_S4096x2_S4096_n_01_n_n_01_1_11.startIndexMap by decide)]
  have hsi : gather_S8192x8192_S4096x2_S4096_n_01_n_n_01_1_11.siIdx (ix1 p) ⟨List.idxOf (1 : Fin 2) gather_S8192x8192_S4096x2_S4096_n_01_n_n_01_1_11.startIndexMap,
      List.idxOf_lt_length_iff.2 (by decide)⟩ = ix2 p (1 : Fin 2) := by
    funext b; refine Fin.ext ?_
    match b with
    | ⟨0, _⟩ => rfl
    | ⟨1, _⟩ => rfl
  rw [hsi]
  rfl

/-- The gather with pair indices reads the operand at the pair, each component read signed and clamped into [0, 8191]. -/
theorem gather_pair_apply {α : Type} (y : S8192x8192.Idx → α) (idx : IVec S4096x2 32) (p : Fin 4096) :
    Host.gather gather_S8192x8192_S4096x2_S4096_n_01_n_n_01_1_11 y idx (ix1 p)
      = y (ix2 (⟨min (idx (ix2 p (0 : Fin 2))).toInt.toNat 8191, by omega⟩ : Fin 8192)
               (⟨min (idx (ix2 p (1 : Fin 2))).toInt.toNat 8191, by omega⟩ : Fin 8192)) := by
  unfold Host.gather
  congr 1
  funext a
  refine Fin.ext ?_
  show gather_S8192x8192_S4096x2_S4096_n_01_n_n_01_1_11.start (ix1 p) idx a
      + gather_S8192x8192_S4096x2_S4096_n_01_n_n_01_1_11.batchCoord (ix1 p) a
      + gather_S8192x8192_S4096x2_S4096_n_01_n_n_01_1_11.offCoord (ix1 p) a = _
  rw [GatherDims.batchCoord_eq_zero _ _ _ List.not_mem_nil]
  have ha : a = (0 : Fin 2) ∨ a = (1 : Fin 2) := by
    rcases a with ⟨v, hv⟩
    have hv2 : v < 2 := hv
    interval_cases v
    · left; rfl
    · right; rfl
  rcases ha with rfl | rfl
  · rw [GatherDims.offCoord_eq_zero _ _ _ (fun h => ((GatherDims.mem_sKept _ _).mp h).1 (by decide))]
    exact gather_start0 idx p
  · rw [GatherDims.offCoord_eq_zero _ _ _ (fun h => ((GatherDims.mem_sKept _ _).mp h).1 (by decide))]
    exact gather_start1 idx p

/-! ## The index words: nothing wraps, nothing is negative -/

/-- A word below 2³¹ reads as itself when read signed. -/
theorem toInt_ofNat_small (v : Nat) (h : v < 2147483648) : (BitVec.ofNat 32 v).toInt = (v : Int) := by
  rw [BitVec.toInt_eq_toNat_cond, BitVec.toNat_ofNat]
  have hm : v % 2 ^ 32 = v := Nat.mod_eq_of_lt (by omega)
  rw [hm]
  split
  · rfl
  · omega

/-- A word below 2³¹ is not negative. -/
theorem slt_zero_small (v : Nat) (h : v < 2147483648) : IntOp.cmpi .slt (BitVec.ofNat 32 v) 0#32 = 0#1 := by
  refine eq_zero_of_ne_one fun hh => ?_
  rw [IntOp.cmpi_slt, toInt_ofNat_small v h] at hh
  have : (0#32 : BitVec 32).toInt = 0 := by decide
  omega

/-- The first diagonal's row word at p is p. -/
theorem rowWord1 (p : Fin 4096) : val_main_call1_v8 (F := Ideal) (ix1 p) = BitVec.ofNat 32 p.val := by
  rw [val_main_call1_v8_apply, val_main_call1_v5_apply, val_main_call1_v0_apply, val_main_call1_v4_apply, val_main_call1_c_0_apply]
  show Scalar.select (IntOp.cmpi .slt (BitVec.ofNat 32 p.val) 0#32) _ _ = _
  rw [slt_zero_small _ (by omega), select_zero]

/-- The first diagonal's column word at p is p + 4096. -/
theorem colWord1 (p : Fin 4096) : val_main_call1_v13 (F := Ideal) (ix1 p) = BitVec.ofNat 32 (4096 + p.val) := by
  rw [val_main_call1_v13_apply, val_main_call1_v10_apply, val_main_call1_v3_apply, val_main_call1_v2_apply, val_main_call1_c_apply,
    val_main_call1_v1_apply, val_main_call1_v9_apply, val_main_call1_c_2_apply]
  have ha : IntOp.addi 4096#32 (BitVec.ofNat 32 ((ix1 p : S4096.Idx) 0).val) = BitVec.ofNat 32 (4096 + p.val) :=
    (BitVec.ofNat_add 4096 p.val).symm
  rw [ha, slt_zero_small _ (by omega), select_zero]

/-- The second diagonal's row word at p is p + 4096. -/
theorem rowWord2 (p : Fin 4096) : val_main_call2_v8 (F := Ideal) (ix1 p) = BitVec.ofNat 32 (4096 + p.val) := by
  rw [val_main_call2_v8_apply, val_main_call2_v5_apply, val_main_call2_v3_apply, val_main_call2_v2_apply, val_main_call2_c_apply,
    val_main_call2_v1_apply, val_main_call2_v4_apply, val_main_call2_c_0_apply]
  have ha : IntOp.addi 4096#32 (BitVec.ofNat 32 ((ix1 p : S4096.Idx) 0).val) = BitVec.ofNat 32 (4096 + p.val) :=
    (BitVec.ofNat_add 4096 p.val).symm
  rw [ha, slt_zero_small _ (by omega), select_zero]

/-- The second diagonal's column word at p is p. -/
theorem colWord2 (p : Fin 4096) : val_main_call2_v13 (F := Ideal) (ix1 p) = BitVec.ofNat 32 p.val := by
  rw [val_main_call2_v13_apply, val_main_call2_v10_apply, val_main_call2_v0_apply, val_main_call2_v9_apply, val_main_call2_c_2_apply]
  show Scalar.select (IntOp.cmpi .slt (BitVec.ofNat 32 p.val) 0#32) _ _ = _
  rw [slt_zero_small _ (by omega), select_zero]

/-! ## The two index arrays and the gathered diagonals, joined -/

/-- The first diagonal's index array, row p: the row word. -/
theorem idx1_row (p : Fin 4096) : val_main_call1_v16 (F := Ideal) (ix2 p (0 : Fin 2)) = BitVec.ofNat 32 p.val := by
  have e : idx_main_call1_v14 (ix2 p (0 : Fin 1)) = ix1 p := funext fun a => Fin.ext (by match a with | ⟨0, _⟩ => rfl)
  unfold val_main_call1_v16
  rw [concatenate_pair_apply_left (t := S4096x2) (s₁ := S4096x1) (s₂ := S4096x1) (1 : Fin 2) _ _ concatenates_S4096x1_S4096x1_S4096x2_d1 (ix2 p (0 : Fin 2)) rfl (ix2 p (0 : Fin 1))
    (fun b => by match b with | ⟨0, _⟩ => rfl | ⟨1, _⟩ => rfl)]
  rw [val_main_call1_v14_apply, e]
  exact rowWord1 p

/-- The first diagonal's index array, row p: the column word. -/
theorem idx1_col (p : Fin 4096) : val_main_call1_v16 (F := Ideal) (ix2 p (1 : Fin 2)) = BitVec.ofNat 32 (4096 + p.val) := by
  have e : idx_main_call1_v15 (ix2 p (0 : Fin 1)) = ix1 p := funext fun a => Fin.ext (by match a with | ⟨0, _⟩ => rfl)
  unfold val_main_call1_v16
  rw [concatenate_pair_apply_right (t := S4096x2) (s₁ := S4096x1) (s₂ := S4096x1) (1 : Fin 2) _ _ concatenates_S4096x1_S4096x1_S4096x2_d1 (ix2 p (1 : Fin 2)) rfl rfl (ix2 p (0 : Fin 1))
    (fun b hb => by
      match b, hb with
      | ⟨0, _⟩, _ => rfl
      | ⟨1, _⟩, hb => exact absurd (Fin.ext rfl) hb) rfl]
  rw [val_main_call1_v15_apply, e]
  exact colWord1 p

/-- The second diagonal's index array, row p: the row word. -/
theorem idx2_row (p : Fin 4096) : val_main_call2_v16 (F := Ideal) (ix2 p (0 : Fin 2)) = BitVec.ofNat 32 (4096 + p.val) := by
  have e : idx_main_call2_v14 (ix2 p (0 : Fin 1)) = ix1 p := funext fun a => Fin.ext (by match a with | ⟨0, _⟩ => rfl)
  unfold val_main_call2_v16
  rw [concatenate_pair_apply_left (t := S4096x2) (s₁ := S4096x1) (s₂ := S4096x1) (1 : Fin 2) _ _ concatenates_S4096x1_S4096x1_S4096x2_d1 (ix2 p (0 : Fin 2)) rfl (ix2 p (0 : Fin 1))
    (fun b => by match b with | ⟨0, _⟩ => rfl | ⟨1, _⟩ => rfl)]
  rw [val_main_call2_v14_apply, e]
  exact rowWord2 p

/-- The second diagonal's index array, row p: the column word. -/
theorem idx2_col (p : Fin 4096) : val_main_call2_v16 (F := Ideal) (ix2 p (1 : Fin 2)) = BitVec.ofNat 32 p.val := by
  have e : idx_main_call2_v15 (ix2 p (0 : Fin 1)) = ix1 p := funext fun a => Fin.ext (by match a with | ⟨0, _⟩ => rfl)
  unfold val_main_call2_v16
  rw [concatenate_pair_apply_right (t := S4096x2) (s₁ := S4096x1) (s₂ := S4096x1) (1 : Fin 2) _ _ concatenates_S4096x1_S4096x1_S4096x2_d1 (ix2 p (1 : Fin 2)) rfl rfl (ix2 p (0 : Fin 1))
    (fun b hb => by
      match b, hb with
      | ⟨0, _⟩, _ => rfl
      | ⟨1, _⟩, hb => exact absurd (Fin.ext rfl) hb) rfl]
  rw [val_main_call2_v15_apply, e]
  exact colWord2 p

/-- A small word read signed, made a natural number and clamped into [0, 8191] is itself. -/
theorem clamp_small (v : Nat) (h : v < 8192) : min (BitVec.ofNat 32 v).toInt.toNat 8191 = v := by
  rw [toInt_ofNat_small v (by omega), Int.toNat_natCast]; omega

/-- The two gathered diagonals of a square array y, one after the other: entry n is y at row n and the column 4096
    places further on, cyclically. -/
theorem diag_concat {α : Type} (y : S8192x8192.Idx → α) (n : Fin 8192) :
    concatenate S8192 0 [⟨S4096, Host.gather gather_S8192x8192_S4096x2_S4096_n_01_n_n_01_1_11 y (val_main_call1_v16 (F := Ideal))⟩,
        ⟨S4096, Host.gather gather_S8192x8192_S4096x2_S4096_n_01_n_n_01_1_11 y (val_main_call2_v16 (F := Ideal))⟩]
        concatenates_S4096_S4096_S8192_d0 (ix1 n)
      = y (ix2 n (⟨(n.val + 4096) % 8192, Nat.mod_lt _ (by decide)⟩ : Fin 8192)) := by
  have hn8 := n.isLt
  by_cases hn : n.val < 4096
  · rw [concatenate_pair_apply_left (t := S8192) (s₁ := S4096) (s₂ := S4096) (0 : Fin 1) _ _ concatenates_S4096_S4096_S8192_d0 (ix1 n) rfl (ix1 (⟨n.val, hn⟩ : Fin 4096))
      (fun b => by match b with | ⟨0, _⟩ => rfl)]
    rw [gather_pair_apply]
    refine congrArg y (funext fun a => Fin.ext ?_)
    match a with
    | ⟨0, _⟩ =>
      show min (val_main_call1_v16 (F := Ideal) (ix2 (⟨n.val, hn⟩ : Fin 4096) (0 : Fin 2))).toInt.toNat 8191 = n.val
      rw [idx1_row, clamp_small _ (by omega)]
    | ⟨1, _⟩ =>
      show min (val_main_call1_v16 (F := Ideal) (ix2 (⟨n.val, hn⟩ : Fin 4096) (1 : Fin 2))).toInt.toNat 8191 = (n.val + 4096) % 8192
      rw [idx1_col, clamp_small _ (by show 4096 + n.val < 8192; omega)]
      show 4096 + n.val = (n.val + 4096) % 8192
      omega
  · rw [concatenate_pair_apply_right (t := S8192) (s₁ := S4096) (s₂ := S4096) (0 : Fin 1) _ _ concatenates_S4096_S4096_S8192_d0 (ix1 n) rfl rfl
      (ix1 (⟨n.val - 4096, by omega⟩ : Fin 4096))
      (fun b hb => by match b, hb with | ⟨0, _⟩, hb => exact absurd (Fin.ext rfl) hb)
      (by show n.val - 4096 + 4096 = n.val; omega)]
    rw [gather_pair_apply]
    refine congrArg y (funext fun a => Fin.ext ?_)
    match a with
    | ⟨0, _⟩ =>
      show min (val_main_call2_v16 (F := Ideal) (ix2 (⟨n.val - 4096, by omega⟩ : Fin 4096) (0 : Fin 2))).toInt.toNat 8191 = n.val
      rw [idx2_row, clamp_small _ (by show 4096 + (n.val - 4096) < 8192; omega)]
      show 4096 + (n.val - 4096) = n.val
      omega
    | ⟨1, _⟩ =>
      show min (val_main_call2_v16 (F := Ideal) (ix2 (⟨n.val - 4096, by omega⟩ : Fin 4096) (1 : Fin 2))).toInt.toNat 8191 = (n.val + 4096) % 8192
      rw [idx2_col, clamp_small _ (by show n.val - 4096 < 8192; omega)]
      show n.val - 4096 = (n.val + 4096) % 8192
      omega

/-- The reference's array of positives at n: its similarity matrix at row n and the column 4096 places further on, cyclically. -/
theorem positives_eq (x0 : (⟨S8192x256, .f32⟩ : BufTy).Contents (Elt Ideal)) (n : Fin 8192) :
    val_main_v9 (F := Ideal) x0 (ix1 n)
      = val_main_v6 (F := Ideal) x0 (ix2 n (⟨(n.val + 4096) % 8192, Nat.mod_lt _ (by decide)⟩ : Fin 8192)) := by
  unfold val_main_v9 val_main_v7 val_main_v8
  exact diag_concat _ n

end Cert.NTXent.Ref

end
-- ==== Proof.RefSim.lean ====
/-
  The first half of the reference, read at an index: the array it divides the input by its row lengths into is the
  array of unit rows, and its matrix product of that array with its transpose is the similarity of two unit rows.
  Both are plain readings of the operations, entry by entry; no law of arithmetic is used.
-/
import proofs.«102017_j44607530336758_2_alg».proof.Proof.RefRead
import proofs.«102017_j44607530336758_2_alg».proof.Proof.Spec

noncomputable section

namespace Cert.NTXent.Ref

open Cert.ReferenceIdeal Cert.ReferenceIdeal.Gen Cert.ReferenceIdeal.Read Idealize.ShloMosaic Idealize.ShloMosaic.ValueIdx

/-- Entry (n, d) of the reference's scaled array: the input's entry divided by the larger of the row's length
    (the square root of the row's sum of squares, accumulated from 0) and the lower bound. -/
theorem unit_eq (x0 : (⟨S8192x256, .f32⟩ : BufTy).Contents (Elt Ideal)) (n : Fin 8192) (d : Fin 256) :
    val_main_v4 (F := Ideal) x0 (ix2 n d) = unitEntry x0 n d := by
  have e : ∀ k : Fin 256, idx_main_call0_v1 (idx_main_call0_v2 (idx_main_v3 (ix2 n d))) k = ix2 n k :=
    fun k => funext fun a => Fin.ext (by match a with | ⟨0, _⟩ => rfl | ⟨1, _⟩ => rfl)
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, e, Ideal.hostDivf_def, Ideal.maximumf_def, Ideal.hostUnary_sqrt_def, Ideal.mulf_def,
    Ideal.ofBits_def, Ideal.ofBits_zero_f32, zero_add]
  rfl

/-- Entry (n, k) of the reference's product of the scaled array with its transpose: the similarity of unit rows n and k. -/
theorem sim_eq (x0 : (⟨S8192x256, .f32⟩ : BufTy).Contents (Elt Ideal)) (n k : Fin 8192) :
    val_main_v6 (F := Ideal) x0 (ix2 n k) = sim (unitRows x0) n k := by
  rw [val_main_v6_apply]
  unfold sim
  refine Finset.sum_congr rfl fun d _ => ?_
  have el : lidx_main_v6 (ix2 n k) d = ix2 n d :=
    funext fun a => Fin.ext (by match a with | ⟨0, _⟩ => rfl | ⟨1, _⟩ => rfl)
  have er : idx_main_v5 (ridx_main_v6 (ix2 n k) d) = ix2 k d :=
    funext fun a => Fin.ext (by match a with | ⟨0, _⟩ => rfl | ⟨1, _⟩ => rfl)
  rw [val_main_v5_apply, el, er, unit_eq, unit_eq]
  rfl

end Cert.NTXent.Ref

end
-- ==== Proof.RefConst.lean ====
/-
  The three float words whose values the laws need: the temperature is the real ½, the factor is the real 2 — so that
  dividing by the one is multiplying by the other, on every extended real, the infinities included — and the lower bound
  of a row's length is a positive real.
-/
import proofs.«102017_j44607530336758_2_alg».proof.Proof.Spec
import Idealize.ShloMosaic.Lib.IdealHost

noncomputable section

namespace Cert.NTXent.Ref

open Idealize.ShloMosaic

/-- The temperature word is the real ½. -/
theorem half_eq : half = (((1 : ℝ) / 2 : ℝ) : EReal) := by
  simp [half, Ideal.ofBits, Ideal.ieee, -EReal.coe_mul]; norm_num

/-- The factor word is the real 2. -/
theorem two_eq : two = ((2 : ℝ) : EReal) := by
  simp [two, Ideal.ofBits, Ideal.ieee, -EReal.coe_mul]; norm_num

/-- Dividing by ½ is multiplying by 2, on every extended real. -/
theorem div_half (s : EReal) : Ideal.div s half = s * two := by
  rw [half_eq, two_eq, Ideal.div_coe (by norm_num)]
  norm_num

/-- The lower bound of a row's length is a positive real: 9223372 · 2⁻⁶³. -/
theorem eps_pos : ∃ r : ℝ, 0 < r ∧ eps = (r : EReal) := by
  refine ⟨(9223372 : ℝ) * (2 : ℝ) ^ (-63 : ℤ), by positivity, ?_⟩
  simp [eps, Ideal.ofBits, Ideal.ieee, -EReal.coe_mul]

end Cert.NTXent.Ref

end
-- ==== Proof.RefDenom.lean ====
/-
  The reference's denominators. It builds a mask 1 − [row = column] by comparing two integer counts (32-bit, below 8192:
  equal exactly when the numbers are), converts the one-bit answer to a number, and multiplies: 0 · e is 0 and 1 · e is e on
  every extended real, so no finite value is asked for. The row sum, accumulated from 0, is then the sum over all columns
  of exp (2 · sim) with the row's own column left out.
-/
import proofs.«102017_j44607530336758_2_alg».proof.Proof.RefSim
import proofs.«102017_j44607530336758_2_alg».proof.Proof.RefConst

noncomputable section

namespace Cert.NTXent.Ref

open Cert.ReferenceIdeal Cert.ReferenceIdeal.Gen Cert.ReferenceIdeal.Read Idealize.ShloMosaic Idealize.ShloMosaic.ValueIdx

/-- One minus one is zero (both are reals). -/
theorem one_sub_one : (1 : EReal) - 1 = 0 := by
  rw [← EReal.coe_one, ← EReal.coe_sub, sub_self, EReal.coe_zero]

/-- The mask at (n, k): one minus the one-bit comparison of the row number with the column number, as a number. -/
theorem mask_eq (n k : Fin 8192) :
    (Ideal.ofBits .f32 0x3F800000#32 : EReal)
        - FloatOps.uitofp (F := Ideal) .f32 (IntOp.cmpi .eq (IntOp.addi (BitVec.ofNat 32 n.val) 0#32) (BitVec.ofNat 32 k.val))
      = if n = k then 0 else 1 := by
  have ha : IntOp.addi (BitVec.ofNat 32 n.val) 0#32 = BitVec.ofNat 32 n.val := BitVec.add_zero _
  rw [ha, Ideal.ofBits_one_f32]
  by_cases h : n = k
  · subst h
    rw [if_pos rfl, (IntOp.cmpi_eq).2 rfl]
    show (1 : EReal) - (((1#1 : BitVec 1).toNat : ℝ) : EReal) = 0
    have h1 : (((1#1 : BitVec 1).toNat : ℝ) : EReal) = 1 := by simp
    rw [h1, one_sub_one]
  · rw [if_neg h]
    have hc : IntOp.cmpi .eq (BitVec.ofNat 32 n.val) (BitVec.ofNat 32 k.val) = 0#1 := by
      refine eq_zero_of_ne_one fun hh => h (Fin.ext ?_)
      have h2 := congrArg BitVec.toNat ((IntOp.cmpi_eq).1 hh)
      rw [BitVec.toNat_ofNat, BitVec.toNat_ofNat] at h2
      have := n.isLt; have := k.isLt
      omega
    rw [hc]
    show (1 : EReal) - (((0#1 : BitVec 1).toNat : ℝ) : EReal) = 1
    simp

/-- The reference's row sums at n: it multiplies every entry exp (sim / ½) of row n by the mask and adds the row up from 0,
    so the sum runs over all columns with the row's own column's term replaced by 0; dividing by ½ is multiplying by 2. -/
theorem maskedRow_eq (x0 : (⟨S8192x256, .f32⟩ : BufTy).Contents (Elt Ideal)) (n : Fin 8192) :
    val_main_v22 (F := Ideal) x0 (ix1 n)
      = ∑ k : Fin 8192, if n = k then 0 else Ideal.exp (sim (unitRows x0) n k * two) := by
  rw [val_main_v22_apply, val_main_cst_2_apply, Ideal.ofBits_def, Ideal.ofBits_zero_f32, zero_add]
  refine Finset.sum_congr rfl fun k _ => ?_
  have ei : idx_main_v22 (ix1 n) k = ix2 n k :=
    funext fun a => Fin.ext (by match a with | ⟨0, _⟩ => rfl | ⟨1, _⟩ => rfl)
  rw [ei, val_main_v21_apply, val_main_v17_apply, val_main_v16_apply, val_main_cst_0_apply, val_main_v15_apply,
    val_main_v14_apply, val_main_v13_apply, val_main_v10_apply, val_main_v12_apply, val_main_c_apply, val_main_v11_apply,
    val_main_v20_apply, val_main_v19_apply, val_main_v18_apply, val_main_cst_1_apply, sim_eq]
  show (Ideal.ofBits .f32 0x3F800000#32
        - FloatOps.uitofp (F := Ideal) .f32 (IntOp.cmpi .eq (IntOp.addi (BitVec.ofNat 32 n.val) 0#32) (BitVec.ofNat 32 k.val)))
      * Ideal.exp (Ideal.div (sim (unitRows x0) n k) half) = _
  rw [mask_eq, div_half]
  split
  · exact zero_mul _
  · exact one_mul _

end Cert.NTXent.Ref

end
-- ==== Proof.RefTile.lean ====
/-
  The tiled form of the loss against its plain form, for one row n (tile n / 1024, offset n mod 1024).

  The 8192 columns are the eight tiles of 1024 columns (column 1024·b + c is column c of tile b), so a sum over all
  columns is the sum of the eight tiles' sums; the term of the row's own column, which the tiled form replaces by 0 on
  the diagonal tile only, is the one term the plain form replaces by 0. Sums of extended reals regroup freely (they are
  an additive commutative monoid), so nothing here asks for finite values. The positive of row n, the same offset in the
  tile four places further on, is the row (n + 4096) mod 8192.
-/
import proofs.«102017_j44607530336758_2_alg».proof.Proof.Spec

noncomputable section

namespace Cert.NTXent.Ref

open Idealize.ShloMosaic Idealize.ShloMosaic.ValueIdx

/-- A row is row (its offset) of (its tile). -/
theorem tileRow_tileOf (n : Fin 8192) : tileRow (tileOf n) (offOf n) = n :=
  Fin.ext (by have := n.isLt; show 1024 * (n.val / 1024) + n.val % 1024 = n.val; omega)

/-- The same offset in the tile four places further on is the row 4096 places further on, cyclically. -/
theorem tileRow_partner (n : Fin 8192) :
    tileRow (partnerTile (tileOf n)) (offOf n) = (⟨(n.val + 4096) % 8192, Nat.mod_lt _ (by decide)⟩ : Fin 8192) :=
  Fin.ext (by have := n.isLt; show 1024 * ((n.val / 1024 + 4) % 8) + n.val % 1024 = (n.val + 4096) % 8192; omega)

/-- The positive of a row is its similarity with the row 4096 places further on, cyclically. -/
theorem positive_eq_sim (z : Mat) (n : Fin 8192) :
    positive z (tileOf n) (offOf n) = sim z n (⟨(n.val + 4096) % 8192, Nat.mod_lt _ (by decide)⟩ : Fin 8192) := by
  unfold positive sim
  rw [tileRow_tileOf, tileRow_partner]

/-- The 8192 columns are the 8 tiles of 1024 columns. -/
def tileEquiv : Fin 8 × Fin 1024 ≃ Fin 8192 where
  toFun p := tileRow p.1 p.2
  invFun n := (tileOf n, offOf n)
  left_inv p := by
    obtain ⟨b, c⟩ := p
    have hb := b.isLt; have hc := c.isLt
    refine Prod.ext (Fin.ext ?_) (Fin.ext ?_)
    · show (1024 * b.val + c.val) / 1024 = b.val; omega
    · show (1024 * b.val + c.val) % 1024 = c.val; omega
  right_inv n := tileRow_tileOf n

/-- A sum over all columns, tile by tile: regrouping only, valid in any additive commutative monoid. -/
theorem sum_tiles {M : Type*} [AddCommMonoid M] (f : Fin 8192 → M) :
    ∑ k : Fin 8192, f k = ∑ b : Fin 8, ∑ c : Fin 1024, f (tileRow b c) := by
  rw [← Equiv.sum_comp tileEquiv f, Fintype.sum_prod_type]
  rfl

/-- What one column tile adds to a row's denominator, with the row's own column named by its number. -/
theorem tileSum_eq (z : Mat) (n : Fin 8192) (b : Fin 8) :
    tileSum z (tileOf n) (offOf n) b
      = ∑ c : Fin 1024, if n = tileRow b c then 0 else Ideal.exp (sim z n (tileRow b c) * two) := by
  unfold tileSum
  rw [tileRow_tileOf]
  by_cases hab : tileOf n = b
  · rw [if_pos hab]
    refine Finset.sum_congr rfl fun c _ => ?_
    by_cases hc : offOf n = c
    · rw [if_pos hc, if_pos (by rw [← hab, ← hc, tileRow_tileOf])]
    · rw [if_neg hc, if_neg (fun h => hc (by rw [h]; exact congrArg Prod.snd (tileEquiv.left_inv (b, c))))]
  · rw [if_neg hab]
    refine Finset.sum_congr rfl fun c _ => ?_
    rw [if_neg (fun h => hab (by rw [h]; exact congrArg Prod.fst (tileEquiv.left_inv (b, c))))]

/-- The denominator of a row, accumulated over the eight column tiles from 0, is the sum over all columns but the
    row's own. No finiteness is needed: the extended reals are an additive commutative monoid. -/
theorem denom_eq_flat (z : Mat) (n : Fin 8192) :
    denom z (tileOf n) (offOf n) = ∑ k : Fin 8192, if n = k then 0 else Ideal.exp (sim z n k * two) := by
  rw [sum_tiles, Fin.sum_univ_eight]
  simp only [← tileSum_eq]
  simp [denom, denomUpTo]

end Cert.NTXent.Ref

end
-- ==== Proof.RefReal.lean ====
/-
  Where finite input is used. With every entry of the input a real: a row's squared length is a real that is not
  negative, its length a real, the larger of the length and the positive lower bound a positive real, so every entry of
  the unit rows is a real; then every similarity is a real, every term exp (2 · sim) a positive real, and a row's
  denominator — a sum of such terms and one 0 — a positive real. For a real p and a positive real D,
  −log (e^(p/½) / D) = −(p/½) + log D is the logarithm of a quotient of positive reals; at an infinite p or D it would
  not hold in general, which is why the reals are carried this far.
-/
import proofs.«102017_j44607530336758_2_alg».proof.Proof.RefConst

noncomputable section

namespace Cert.NTXent.Ref

open Idealize.ShloMosaic Idealize.ShloMosaic.ValueIdx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The similarity of two rows of real entries is a real. -/
theorem sim_real (z : Mat) (hz : ∀ i, ∃ r : ℝ, z i = (r : EReal)) (n k : Fin 8192) : ∃ r : ℝ, sim z n k = (r : EReal) := by
  choose zr hzr using hz
  refine ⟨∑ d : Fin 256, zr (ix2 n d) * zr (ix2 k d), ?_⟩
  unfold sim
  rw [coe_sum]
  refine Finset.sum_congr rfl fun d _ => ?_
  rw [hzr, hzr, EReal.coe_mul]

/-- The squared length of a row of real entries is a real that is not negative. -/
theorem sqLen_real (x : Mat) (hx : ∀ i, ∃ r : ℝ, x i = (r : EReal)) (n : Fin 8192) :
    ∃ r : ℝ, 0 ≤ r ∧ sqLen x n = (r : EReal) := by
  choose xr hxr using hx
  refine ⟨∑ d : Fin 256, xr (ix2 n d) * xr (ix2 n d), Finset.sum_nonneg fun d _ => mul_self_nonneg _, ?_⟩
  unfold sqLen
  rw [coe_sum]
  refine Finset.sum_congr rfl fun d _ => ?_
  rw [hxr, EReal.coe_mul]

/-- The unit rows of an array of real entries have real entries: the length is a real bounded below by a positive one. -/
theorem unit_real (x : Mat) (hx : ∀ i, ∃ r : ℝ, x i = (r : EReal)) : ∀ i, ∃ r : ℝ, unitRows x i = (r : EReal) := by
  intro i
  obtain ⟨s, hs0, hs⟩ := sqLen_real x hx (i 0)
  obtain ⟨e, he0, he⟩ := eps_pos
  obtain ⟨r, hr⟩ := hx (ix2 (i 0) (i 1))
  refine ⟨r * (1 / max (Real.sqrt s) e), ?_⟩
  show Ideal.div (x (ix2 (i 0) (i 1))) (max (Ideal.sqrt (sqLen x (i 0))) eps) = _
  have hmax : max ((Real.sqrt s : ℝ) : EReal) (e : EReal) = ((max (Real.sqrt s) e : ℝ) : EReal) :=
    (EReal.coe_strictMono.monotone.map_max).symm
  rw [hs, he, hr, Ideal.sqrt_coe, if_neg (not_lt.2 hs0), hmax,
    Ideal.div_coe (ne_of_gt (lt_of_lt_of_le he0 (le_max_right _ _))), ← EReal.coe_mul]

/-- One term of a denominator is a positive real. -/
theorem expTerm_real (z : Mat) (hz : ∀ i, ∃ r : ℝ, z i = (r : EReal)) (n k : Fin 8192) :
    ∃ r : ℝ, 0 < r ∧ Ideal.exp (sim z n k * two) = (r : EReal) := by
  obtain ⟨s, hs⟩ := sim_real z hz n k
  exact ⟨Real.exp (s * 2), Real.exp_pos _, by rw [hs, two_eq, ← EReal.coe_mul, Ideal.exp_coe]⟩

/-- A row's denominator, the sum over all other columns, is a positive real: every term is a positive real or 0, and
    the column 4096 places further on is another column. -/
theorem flat_real (z : Mat) (hz : ∀ i, ∃ r : ℝ, z i = (r : EReal)) (n : Fin 8192) :
    ∃ r : ℝ, 0 < r ∧ (∑ k : Fin 8192, if n = k then 0 else Ideal.exp (sim z n k * two)) = (r : EReal) := by
  choose er her0 her using fun k => expTerm_real z hz n k
  refine ⟨∑ k : Fin 8192, if n = k then 0 else er k, ?_, ?_⟩
  · refine Finset.sum_pos' (fun k _ => ?_) ⟨(⟨(n.val + 4096) % 8192, Nat.mod_lt _ (by decide)⟩ : Fin 8192), Finset.mem_univ _, ?_⟩
    · split
      · exact le_rfl
      · exact (her0 k).le
    · rw [if_neg (fun h => by have h2 := congrArg Fin.val h; have := n.isLt; simp only at h2; omega)]
      exact her0 _
  · rw [coe_sum]
    refine Finset.sum_congr rfl fun k _ => ?_
    split
    · exact EReal.coe_zero.symm
    · exact her k

/-- One row's term of the loss: for a real positive p-term and a positive real denominator D,
    −log (e^(p/½) / D) = −(p/½) + log D. This is where finite values are needed: it is the law of the logarithm of a
    quotient of positive reals. -/
theorem row_law (p D : EReal) (hp : ∃ r : ℝ, p = (r : EReal)) (hD : ∃ r : ℝ, 0 < r ∧ D = (r : EReal)) :
    -(Ideal.log (Ideal.div (Ideal.exp (Ideal.div p half)) D)) = -(Ideal.div p half) + Ideal.log D := by
  obtain ⟨pr, rfl⟩ := hp
  obtain ⟨Dr, hD0, rfl⟩ := hD
  have hq : 0 < Real.exp (pr * 2) * (1 / Dr) := by positivity
  rw [div_half, two_eq, ← EReal.coe_mul, Ideal.exp_coe, Ideal.div_coe hD0.ne', ← EReal.coe_mul, Ideal.log_coe, Ideal.log_coe,
    if_neg (not_le.2 hq), if_neg (not_le.2 hD0), ← EReal.coe_neg, ← EReal.coe_neg, ← EReal.coe_add]
  congr 1
  rw [Real.log_mul (Real.exp_pos _).ne' (by positivity), Real.log_exp, one_div, Real.log_inv]
  ring

end Cert.NTXent.Ref

end
-- ==== Proof.RefFinite.lean ====
/-
  The printed precondition, read back: it compares the absolute value of every entry of the input with +∞ and
  takes the conjunction over all entries. When the conjunction is 1, every entry x satisfies max x (−x) < +∞, so it
  is neither +∞ nor −∞ (nor the junk value, which is −∞ here): it is a real number.
-/
import proofs.«102017_j44607530336758_2_alg».proof.Pre_finite_inputs
import Idealize.ShloMosaic.Lib.ReduceAll
import Idealize.ShloMosaic.Lib.ValueIdx
import Idealize.ShloMosaic.Lib.IdealHost

noncomputable section

namespace Cert.NTXent.Ref

open Idealize.ShloMosaic

/-- The f32 word with every exponent bit set and no fraction bit is +∞. -/
theorem ofBits_inf : Ideal.ofBits .f32 0x7F800000#32 = ⊤ := by simp [Ideal.ofBits, Ideal.ieee]

/-- An extended real whose absolute value max a (−a) is below +∞ is a real. -/
theorem real_of_abs_lt_top (a : EReal) (h : max a (-a) < ⊤) : ∃ r : ℝ, a = (r : EReal) := by
  induction a using EReal.rec with
  | bot => exact absurd h (by simp)
  | top => exact absurd h (by simp)
  | coe r => exact ⟨r, rfl⟩

/-- Under the precondition every entry of the input is a real. -/
theorem finite_of_pre [Cert.Pre_finite_inputs.Facts] (x : FVec Ideal Cert.Pre_finite_inputs.S8192x256 .f32)
    (h : Cert.Pre_finite_inputs.fn (F := Ideal) x = (fun _ => 1#1)) :
    ∀ i, ∃ r : ℝ, x i = (r : EReal) := by
  intro i
  have h0 := congrFun h ValueIdx.ix0
  dsimp only [Cert.Pre_finite_inputs.fn] at h0
  haveI : Subsingleton Cert.Pre_finite_inputs.S_.Idx := ⟨fun a b => funext fun d => d.elim0⟩
  have hi := Host.reduce_andi_all _ _ _ _ _ h0 i
  -- the bound the entries are compared with is +∞ at every index
  have hb : broadcastInDim Cert.Pre_finite_inputs.S8192x256 ![] Cert.Pre_finite_inputs.Facts.bcast_S_S8192x256
      (constant (F := Ideal) Cert.Pre_finite_inputs.S_ .f32 0x7F800000#32) i = ⊤ := by
    rw [ValueIdx.broadcastInDim_scalar_apply]; exact ofBits_inf
  have hc : Ideal.cmp .olt (max (x i) (-(x i))) ⊤ = 1#1 := by rw [← hb]; exact hi
  refine real_of_abs_lt_top (x i) ?_
  by_contra hn
  simp only [Ideal.cmp, hn, decide_false] at hc
  exact absurd hc (by decide)

end Cert.NTXent.Ref

end
-- ==== Proof.RefLoss.lean ====
/-
  The reference computes the loss. Row by row: its positive is the similarity matrix at the column 4096 places further
  on (the two gathered diagonals, joined), which is the tiled form's positive; its denominator is the row sum with the
  row's own column left out, which is the tiled form's denominator accumulated over the eight column tiles; and for an
  input of real entries the positive is a real and the denominator a positive real, so −log (e^(p/½) / D) is
  −(p/½) + log D. The rows are then added up from 0 and the sum divided by 4096, as the loss is.
-/
import proofs.«102017_j44607530336758_2_alg».proof.Proof.RefPos
import proofs.«102017_j44607530336758_2_alg».proof.Proof.RefDenom
import proofs.«102017_j44607530336758_2_alg».proof.Proof.RefTile
import proofs.«102017_j44607530336758_2_alg».proof.Proof.RefReal
import proofs.«102017_j44607530336758_2_alg».proof.Proof.RefFinite

noncomputable section

namespace Cert.NTXent.Ref

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-- A sum over the indices of a one-axis array is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, fun a => ix1 a, fun i => (eq_ix1 i).symm, fun _ => rfl⟩
  rw [← Equiv.sum_comp e.symm f]
  rfl

/-- Row n's term of the reference's loss, for an input of real entries: −(positive / ½) + log denominator. -/
theorem row_eq (x0 : (⟨S8192x256, .f32⟩ : BufTy).Contents (Elt Ideal)) (hx : ∀ i, ∃ r : ℝ, x0 i = (r : EReal)) (n : Fin 8192) :
    val_main_v28 (F := Ideal) x0 (ix1 n)
      = -(Ideal.div (positive (unitRows x0) (tileOf n) (offOf n)) half) + Ideal.log (denom (unitRows x0) (tileOf n) (offOf n)) := by
  have hz := unit_real x0 hx
  rw [val_main_v28_apply, val_main_v27_apply, val_main_v26_apply, val_main_v25_apply, val_main_v24_apply, val_main_v23_apply,
    val_main_cst_3_apply, positives_eq, sim_eq, maskedRow_eq, ← positive_eq_sim, ← denom_eq_flat]
  exact row_law _ _ (by rw [positive_eq_sim]; exact sim_real _ hz _ _) (by rw [denom_eq_flat]; exact flat_real _ hz n)

/-- The reference's result, for an input of real entries, is the loss. -/
theorem loss_eq (x0 : (⟨S8192x256, .f32⟩ : BufTy).Contents (Elt Ideal)) (hx : ∀ i, ∃ r : ℝ, x0 i = (r : EReal)) :
    val_main_v30 (F := Ideal) x0 = fun _ => loss x0 := by
  funext i
  rw [val_main_v30_apply, val_main_v29_apply, val_main_cst_5_apply, val_main_cst_4_apply, sum_idx1,
    Finset.sum_congr rfl fun n _ => row_eq x0 hx n]
  simp only [Ideal.ofBits_def, Ideal.ofBits_zero_f32]
  rfl

/-- For every memory whose input array has only real entries, the reference's result is the loss of that array. -/
theorem ref_loss (m : (ℓ : Loc nD τ sig) → Buf (Elt Ideal) ℓ) (c : Dev nD)
    (hfin : ∀ i, ∃ r : ℝ, m ((c.tc : Thread nD τ).loc main_arg0) i = (r : EReal)) :
    Cert.ReferenceIdeal.Value.res_main_v30 (F := Ideal) m c
      = fun _ => Cert.NTXent.loss (m ((c.tc : Thread nD τ).loc main_arg0)) := by
  rw [val_main_v30_eq]
  exact loss_eq _ hfin

/-- The same from the printed precondition: when it is all ones on the reference's input array, the reference's result
    is the loss of that array. -/
theorem ref_loss_of_pre [Cert.Pre_finite_inputs.Facts] (m : (ℓ : Loc nD τ sig) → Buf (Elt Ideal) ℓ) (c : Dev nD)
    (hpre : Cert.Pre_finite_inputs.fn (F := Ideal) (m ((c.tc : Thread nD τ).loc main_arg0)) = (fun _ => 1#1)) :
    Cert.ReferenceIdeal.Value.res_main_v30 (F := Ideal) m c
      = fun _ => Cert.NTXent.loss (m ((c.tc : Thread nD τ).loc main_arg0)) :=
  ref_loss m c (finite_of_pre _ hpre)

end Cert.NTXent.Ref

end
-- ==== Proof.lean ====
/-
  The certificate of the tiled contrastive loss against its plain reference.

  Both programs compute, from an [8192, 256] array x, the loss of Proof/Spec.lean: the rows of x scaled to unit
  length (the length bounded below), the similarity of two rows their dot product, for every row n the sum over all
  other rows k of exp (2 · sim n k) and the similarity with the row 4096 places further on cyclically, and the mean
  over pairs of  −(positive / ½) + log (sum).

  The kernel program is two kernel launches and twelve host operations. The first launch scales 1024-row blocks
  (Proof/NormRegion.lean; what it writes: Proof/ValPayload.lean, Proof/ValFinal.lean). The second walks an 8 × 8
  grid of 1024 × 1024 similarity tiles, keeps the running sum and the positives in two buffers it carries from one
  grid point to the next, and stores its outputs at the last column tile of each row tile (Proof/SimRuns.lean: the
  body in its nine cases; Proof/SimVals.lean: what each case leaves, as values; Proof/SimFrame.lean: the two
  buffers point by point and the obligation at every point; Proof/SimShare.lean: the array of unit rows shared
  between the launch's two input windows; what it writes: Proof/ValSim*.lean). Proof/KRun.lean runs the whole
  program and names every buffer's final contents; Proof/ValTail.lean reads the host operations; Proof/KValue.lean
  puts the three together: the program's result is the loss of its input. The same run at the word-level instance
  (the K-prefixed copies, over the printed word-level program) is the word-level program's frame.

  The reference's run and its operations read at an index are generated modules; Proof/Ref*.lean show that its
  result is the same loss whenever every input entry is finite — the one place finiteness is used: the reference
  takes the logarithm of a quotient where the kernel subtracts two logarithms.
-/
import proofs.«102017_j44607530336758_2_alg».proof.Defs
import proofs.«102017_j44607530336758_2_alg».proof.Proof.Gen.Kernel
import proofs.«102017_j44607530336758_2_alg».proof.Proof.Gen.KernelIdeal
import proofs.«102017_j44607530336758_2_alg».proof.Proof.Gen.ReferenceIdeal
import proofs.«102017_j44607530336758_2_alg».proof.Proof.Gen.ReferenceIdeal.Run
import proofs.«102017_j44607530336758_2_alg».proof.Proof.Gen.Pre_finite_inputs
import proofs.«102017_j44607530336758_2_alg».proof.Proof.KKRun
import proofs.«102017_j44607530336758_2_alg».proof.Proof.KRun
import proofs.«102017_j44607530336758_2_alg».proof.Proof.KValue
import proofs.«102017_j44607530336758_2_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel program runs to the end, faults nowhere, and its argument ends as launched: its run, read at
    the argument's buffer. -/
theorem frame_kernel : Cert.frame_Kernel := fun m ρ _ =>
  (θ_run Cert.Kernel.defs _ _).mono
    (fun _ h c => (h c _ (Cert.Kernel.Hand.mem_uc Cert.Kernel.main_arg0 (by decide))).trans (Cert.Kernel.Hand.W3_main_arg0 m ρ c))
    (Cert.Kernel.Hand.run_all (F := Bits) m ρ)

/-- The same for the kernel program read over the extended reals. -/
theorem frame_kernel_ideal : Cert.frame_KernelIdeal := fun m ρ _ =>
  (θ_run Cert.KernelIdeal.defs _ _).mono
    (fun _ h c => (h c _ (Cert.KernelIdeal.Hand.mem_uc Cert.KernelIdeal.main_arg0 (by decide))).trans (Cert.KernelIdeal.Hand.W3_main_arg0 m ρ c))
    (Cert.KernelIdeal.Hand.run_all (F := Ideal) m ρ)

/-- The reference runs to the end, faults nowhere, and its argument ends as launched: its generated run with the
    result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- Over the extended reals, from memories agreeing on a finite input x, both programs end with the loss of x. -/
theorem algebraic : Cert.algebraic_KernelIdeal_ReferenceIdeal := by
  intro m ρ m' ρ' hpre hagree
  refine ⟨fun c => fun _ => Cert.NTXent.loss (m ((c.tc : Thread Cert.KernelIdeal.nD Cert.KernelIdeal.τ).loc Cert.KernelIdeal.main_arg0)), ?_, ?_⟩
  · exact (θ_run Cert.KernelIdeal.defs _ _).mono
      (fun _ h c => ⟨(h c _ (Cert.KernelIdeal.Hand.mem_uc Cert.KernelIdeal.main_v10 (by decide))).trans (Cert.KernelIdeal.Hand.kernel_loss m ρ c),
        (h c _ (Cert.KernelIdeal.Hand.mem_uc Cert.KernelIdeal.main_arg0 (by decide))).trans (Cert.KernelIdeal.Hand.W3_main_arg0 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.NTXent.Ref.ref_loss_of_pre m' c (by rw [hagree c]; exact hpre c), hagree c]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
